-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S16x64 : Shape := ⟨2, ![16, 64]⟩
abbrev S64x512 : Shape := ⟨2, ![64, 512]⟩
abbrev S512 : Shape := ⟨1, ![512]⟩
abbrev S512x256 : Shape := ⟨2, ![512, 256]⟩
abbrev S256 : Shape := ⟨1, ![256]⟩
abbrev S64x768 : Shape := ⟨2, ![64, 768]⟩
abbrev S768 : Shape := ⟨1, ![768]⟩
abbrev S768x384 : Shape := ⟨2, ![768, 384]⟩
abbrev S384 : Shape := ⟨1, ![384]⟩
abbrev S64x1024 : Shape := ⟨2, ![64, 1024]⟩
abbrev S1024 : Shape := ⟨1, ![1024]⟩
abbrev S1024x512 : Shape := ⟨2, ![1024, 512]⟩
abbrev S64x1280 : Shape := ⟨2, ![64, 1280]⟩
abbrev S1280 : Shape := ⟨1, ![1280]⟩
abbrev S1280x640 : Shape := ⟨2, ![1280, 640]⟩
abbrev S640 : Shape := ⟨1, ![640]⟩
abbrev S64x1536 : Shape := ⟨2, ![64, 1536]⟩
abbrev S1536 : Shape := ⟨1, ![1536]⟩
abbrev S1536x768 : Shape := ⟨2, ![1536, 768]⟩
abbrev S64x1792 : Shape := ⟨2, ![64, 1792]⟩
abbrev S1792 : Shape := ⟨1, ![1792]⟩
abbrev S1792x896 : Shape := ⟨2, ![1792, 896]⟩
abbrev S896 : Shape := ⟨1, ![896]⟩
abbrev S64x2048 : Shape := ⟨2, ![64, 2048]⟩
abbrev S2048 : Shape := ⟨1, ![2048]⟩
abbrev S2048x1024 : Shape := ⟨2, ![2048, 1024]⟩
abbrev S64x2304 : Shape := ⟨2, ![64, 2304]⟩
abbrev S2304 : Shape := ⟨1, ![2304]⟩
abbrev S2304x1152 : Shape := ⟨2, ![2304, 1152]⟩
abbrev S1152 : Shape := ⟨1, ![1152]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S64x768 : S_.BroadcastsInDim S64x768 (![] : Fin 0 → Fin S64x768.rank)
  reducesTo_S64x768_S_d0_1 : S64x768.ReducesTo [0, 1] S_
  bcast_S_S768 : S_.BroadcastsInDim S768 (![] : Fin 0 → Fin S768.rank)
  reducesTo_S768_S_d0 : S768.ReducesTo [0] S_
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S64x1280 : S_.BroadcastsInDim S64x1280 (![] : Fin 0 → Fin S64x1280.rank)
  reducesTo_S64x1280_S_d0_1 : S64x1280.ReducesTo [0, 1] S_
  bcast_S_S1280 : S_.BroadcastsInDim S1280 (![] : Fin 0 → Fin S1280.rank)
  reducesTo_S1280_S_d0 : S1280.ReducesTo [0] S_
  bcast_S_S1280x640 : S_.BroadcastsInDim S1280x640 (![] : Fin 0 → Fin S1280x640.rank)
  reducesTo_S1280x640_S_d0_1 : S1280x640.ReducesTo [0, 1] S_
  bcast_S_S640 : S_.BroadcastsInDim S640 (![] : Fin 0 → Fin S640.rank)
  reducesTo_S640_S_d0 : S640.ReducesTo [0] S_
  bcast_S_S64x1536 : S_.BroadcastsInDim S64x1536 (![] : Fin 0 → Fin S64x1536.rank)
  reducesTo_S64x1536_S_d0_1 : S64x1536.ReducesTo [0, 1] S_
  bcast_S_S1536 : S_.BroadcastsInDim S1536 (![] : Fin 0 → Fin S1536.rank)
  reducesTo_S1536_S_d0 : S1536.ReducesTo [0] S_
  bcast_S_S1536x768 : S_.BroadcastsInDim S1536x768 (![] : Fin 0 → Fin S1536x768.rank)
  reducesTo_S1536x768_S_d0_1 : S1536x768.ReducesTo [0, 1] S_
  bcast_S_S64x1792 : S_.BroadcastsInDim S64x1792 (![] : Fin 0 → Fin S64x1792.rank)
  reducesTo_S64x1792_S_d0_1 : S64x1792.ReducesTo [0, 1] S_
  bcast_S_S1792 : S_.BroadcastsInDim S1792 (![] : Fin 0 → Fin S1792.rank)
  reducesTo_S1792_S_d0 : S1792.ReducesTo [0] S_
  bcast_S_S1792x896 : S_.BroadcastsInDim S1792x896 (![] : Fin 0 → Fin S1792x896.rank)
  reducesTo_S1792x896_S_d0_1 : S1792x896.ReducesTo [0, 1] S_
  bcast_S_S896 : S_.BroadcastsInDim S896 (![] : Fin 0 → Fin S896.rank)
  reducesTo_S896_S_d0 : S896.ReducesTo [0] S_
  bcast_S_S64x2048 : S_.BroadcastsInDim S64x2048 (![] : Fin 0 → Fin S64x2048.rank)
  reducesTo_S64x2048_S_d0_1 : S64x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S64x2304 : S_.BroadcastsInDim S64x2304 (![] : Fin 0 → Fin S64x2304.rank)
  reducesTo_S64x2304_S_d0_1 : S64x2304.ReducesTo [0, 1] S_
  bcast_S_S2304 : S_.BroadcastsInDim S2304 (![] : Fin 0 → Fin S2304.rank)
  reducesTo_S2304_S_d0 : S2304.ReducesTo [0] S_
  bcast_S_S2304x1152 : S_.BroadcastsInDim S2304x1152 (![] : Fin 0 → Fin S2304x1152.rank)
  reducesTo_S2304x1152_S_d0_1 : S2304x1152.ReducesTo [0, 1] S_
  bcast_S_S1152 : S_.BroadcastsInDim S1152 (![] : Fin 0 → Fin S1152.rank)
  reducesTo_S1152_S_d0 : S1152.ReducesTo [0] S_

variable [Facts]

def fn_part9 {F : FTy → Type} [FloatOps F] (main_arg31 : FVec F S2304 .f32) (main_arg32 : FVec F S2304x1152 .f32) (main_arg33 : FVec F S1152 .f32) (main_v153 : IVec S_ 1) : IVec S_ 1 :=
  let main_v154 : FVec F S2304 .f32 := Host.absf main_arg31
  let main_cst_60 : FVec F S_ .f32 := constant S_ .f32 0x7F800000#32
  let main_v155 : FVec F S2304 .f32 := broadcastInDim S2304 ![] bcast_S_S2304 main_cst_60
  let main_v156 : IVec S2304 1 := cmpf .olt main_v154 main_v155
  let main_c_61 : IVec S_ 1 := constantI S_ 1 1#1
  let main_v157 : IVec S_ 1 := (fun x v => Host.reduce IntOp.andi x v reducesTo_S2304_S_d0 h_S_) main_v156 main_c_61
  let main_v158 : IVec S_ 1 := andi main_v153 main_v157
  let main_v159 : FVec F S2304x1152 .f32 := Host.absf main_arg32
  let main_cst_62 : FVec F S_ .f32 := constant S_ .f32 0x7F800000#32
  let main_v160 : FVec F S2304x1152 .f32 := broadcastInDim S2304x1152 ![] bcast_S_S2304x1152 main_cst_62
  let main_v161 : IVec S2304x1152 1 := cmpf .olt main_v159 main_v160
  let main_c_63 : IVec S_ 1 := constantI S_ 1 1#1
  let main_v162 : IVec S_ 1 := (fun x v => Host.reduce IntOp.andi x v reducesTo_S2304x1152_S_d0_1 h_S_) main_v161 main_c_63
  let main_v163 : IVec S_ 1 := andi main_v158 main_v162
  let main_v164 : FVec F S1152 .f32 := Host.absf main_arg33
  let main_cst_64 : FVec F S_ .f32 := constant S_ .f32 0x7F800000#32
  let main_v165 : FVec F S1152 .f32 := broadcastInDim S1152 ![] bcast_S_S1152 main_cst_64
  let main_v166 : IVec S1152 1 := cmpf .olt main_v164 main_v165
  let main_c_65 : IVec S_ 1 := constantI S_ 1 1#1
  let main_v167 : IVec S_ 1 := (fun x v => Host.reduce IntOp.andi x v reducesTo_S1152_S_d0 h_S_) main_v166 main_c_65
  let main_v168 : IVec S_ 1 := andi main_v163 main_v167
  main_v168

def fn_part8 {F : FTy → Type} [FloatOps F] (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v133 : IVec S_ 1) (main_v136 : IVec S2048 1) : IVec S_ 1 :=
  let main_c_53 : IVec S_ 1 := constantI S_ 1 1#1
  let main_v137 : IVec S_ 1 := (fun x v => Host.reduce IntOp.andi x v reducesTo_S2048_S_d0 h_S_) main_v136 main_c_53
  let main_v138 : IVec S_ 1 := andi main_v133 main_v137
  let main_v139 : FVec F S2048x1024 .f32 := Host.absf main_arg28
  let main_cst_54 : FVec F S_ .f32 := constant S_ .f32 0x7F800000#32
  let main_v140 : FVec F S2048x1024 .f32 := broadcastInDim S2048x1024 ![] bcast_S_S2048x1024 main_cst_54
  let main_v141 : IVec S2048x1024 1 := cmpf .olt main_v139 main_v140
  let main_c_55 : IVec S_ 1 := constantI S_ 1 1#1
  let main_v142 : IVec S_ 1 := (fun x v => Host.reduce IntOp.andi x v reducesTo_S2048x1024_S_d0_1 h_S_) main_v141 main_c_55
  let main_v143 : IVec S_ 1 := andi main_v138 main_v142
  let main_v144 : FVec F S1024 .f32 := Host.absf main_arg29
  let main_cst_56 : FVec F S_ .f32 := constant S_ .f32 0x7F800000#32
  let main_v145 : FVec F S1024 .f32 := broadcastInDim S1024 ![] bcast_S_S1024 main_cst_56
  let main_v146 : IVec S1024 1 := cmpf .olt main_v144 main_v145
  let main_c_57 : IVec S_ 1 := constantI S_ 1 1#1
  let main_v147 : IVec S_ 1 := (fun x v => Host.reduce IntOp.andi x v reducesTo_S1024_S_d0 h_S_) main_v146 main_c_57
  let main_v148 : IVec S_ 1 := andi main_v143 main_v147
  let main_v149 : FVec F S64x2304 .f32 := Host.absf main_arg30
  let main_cst_58 : FVec F S_ .f32 := constant S_ .f32 0x7F800000#32
  let main_v150 : FVec F S64x2304 .f32 := broadcastInDim S64x2304 ![] bcast_S_S64x2304 main_cst_58
  let main_v151 : IVec S64x2304 1 := cmpf .olt main_v149 main_v150
  let main_c_59 : IVec S_ 1 := constantI S_ 1 1#1
  let main_v152 : IVec S_ 1 := (fun x v => Host.reduce IntOp.andi x v reducesTo_S64x2304_S_d0_1 h_S_) main_v151 main_c_59
  let main_v153 : IVec S_ 1 := andi main_v148 main_v152
  fn_part9 (F := F) main_arg31 main_arg32 main_arg33 main_v153

def fn_part7 {F : FTy → Type} [FloatOps F] (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v118 : IVec S_ 1) (main_v119 : FVec F S1792x896 .f32) : IVec S_ 1 :=
  let main_cst_46 : FVec F S_ .f32 := constant S_ .f32 0x7F800000#32
  let main_v120 : FVec F S1792x896 .f32 := broadcastInDim S1792x896 ![] bcast_S_S1792x896 main_cst_46
  let main_v121 : IVec S1792x896 1 := cmpf .olt main_v119 main_v120
  let main_c_47 : IVec S_ 1 := constantI S_ 1 1#1
  let main_v122 : IVec S_ 1 := (fun x v => Host.reduce IntOp.andi x v reducesTo_S1792x896_S_d0_1 h_S_) main_v121 main_c_47
  let main_v123 : IVec S_ 1 := andi main_v118 main_v122
  let main_v124 : FVec F S896 .f32 := Host.absf main_arg25
  let main_cst_48 : FVec F S_ .f32 := constant S_ .f32 0x7F800000#32
  let main_v125 : FVec F S896 .f32 := broadcastInDim S896 ![] bcast_S_S896 main_cst_48
  let main_v126 : IVec S896 1 := cmpf .olt main_v124 main_v125
  let main_c_49 : IVec S_ 1 := constantI S_ 1 1#1
  let main_v127 : IVec S_ 1 := (fun x v => Host.reduce IntOp.andi x v reducesTo_S896_S_d0 h_S_) main_v126 main_c_49
  let main_v128 : IVec S_ 1 := andi main_v123 main_v127
  let main_v129 : FVec F S64x2048 .f32 := Host.absf main_arg26
  let main_cst_50 : FVec F S_ .f32 := constant S_ .f32 0x7F800000#32
  let main_v130 : FVec F S64x2048 .f32 := broadcastInDim S64x2048 ![] bcast_S_S64x2048 main_cst_50
  let main_v131 : IVec S64x2048 1 := cmpf .olt main_v129 main_v130
  let main_c_51 : IVec S_ 1 := constantI S_ 1 1#1
  let main_v132 : IVec S_ 1 := (fun x v => Host.reduce IntOp.andi x v reducesTo_S64x2048_S_d0_1 h_S_) main_v131 main_c_51
  let main_v133 : IVec S_ 1 := andi main_v128 main_v132
  let main_v134 : FVec F S2048 .f32 := Host.absf main_arg27
  let main_cst_52 : FVec F S_ .f32 := constant S_ .f32 0x7F800000#32
  let main_v135 : FVec F S2048 .f32 := broadcastInDim S2048 ![] bcast_S_S2048 main_cst_52
  let main_v136 : IVec S2048 1 := cmpf .olt main_v134 main_v135
  fn_part8 (F := F) main_arg28 main_arg29 main_arg30 main_arg31 main_arg32 main_arg33 main_v133 main_v136

def fn_part6 {F : FTy → Type} [FloatOps F] (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v98 : IVec S_ 1) (main_v101 : IVec S1536x768 1) (main_c_39 : IVec S_ 1) : IVec S_ 1 :=
  let main_v102 : IVec S_ 1 := (fun x v => Host.reduce IntOp.andi x v reducesTo_S1536x768_S_d0_1 h_S_) main_v101 main_c_39
  let main_v103 : IVec S_ 1 := andi main_v98 main_v102
  let main_v104 : FVec F S768 .f32 := Host.absf main_arg21
  let main_cst_40 : FVec F S_ .f32 := constant S_ .f32 0x7F800000#32
  let main_v105 : FVec F S768 .f32 := broadcastInDim S768 ![] bcast_S_S768 main_cst_40
  let main_v106 : IVec S768 1 := cmpf .olt main_v104 main_v105
  let main_c_41 : IVec S_ 1 := constantI S_ 1 1#1
  let main_v107 : IVec S_ 1 := (fun x v => Host.reduce IntOp.andi x v reducesTo_S768_S_d0 h_S_) main_v106 main_c_41
  let main_v108 : IVec S_ 1 := andi main_v103 main_v107
  let main_v109 : FVec F S64x1792 .f32 := Host.absf main_arg22
  let main_cst_42 : FVec F S_ .f32 := constant S_ .f32 0x7F800000#32
  let main_v110 : FVec F S64x1792 .f32 := broadcastInDim S64x1792 ![] bcast_S_S64x1792 main_cst_42
  let main_v111 : IVec S64x1792 1 := cmpf .olt main_v109 main_v110
  let main_c_43 : IVec S_ 1 := constantI S_ 1 1#1
  let main_v112 : IVec S_ 1 := (fun x v => Host.reduce IntOp.andi x v reducesTo_S64x1792_S_d0_1 h_S_) main_v111 main_c_43
  let main_v113 : IVec S_ 1 := andi main_v108 main_v112
  let main_v114 : FVec F S1792 .f32 := Host.absf main_arg23
  let main_cst_44 : FVec F S_ .f32 := constant S_ .f32 0x7F800000#32
  let main_v115 : FVec F S1792 .f32 := broadcastInDim S1792 ![] bcast_S_S1792 main_cst_44
  let main_v116 : IVec S1792 1 := cmpf .olt main_v114 main_v115
  let main_c_45 : IVec S_ 1 := constantI S_ 1 1#1
  let main_v117 : IVec S_ 1 := (fun x v => Host.reduce IntOp.andi x v reducesTo_S1792_S_d0 h_S_) main_v116 main_c_45
  let main_v118 : IVec S_ 1 := andi main_v113 main_v117
  let main_v119 : FVec F S1792x896 .f32 := Host.absf main_arg24
  fn_part7 (F := F) main_arg25 main_arg26 main_arg27 main_arg28 main_arg29 main_arg30 main_arg31 main_arg32 main_arg33 main_v118 main_v119

def fn_part5 {F : FTy → Type} [FloatOps F] (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v83 : IVec S_ 1) (main_v84 : FVec F S640 .f32) (main_cst_32 : FVec F S_ .f32) : IVec S_ 1 :=
  let main_v85 : FVec F S640 .f32 := broadcastInDim S640 ![] bcast_S_S640 main_cst_32
  let main_v86 : IVec S640 1 := cmpf .olt main_v84 main_v85
  let main_c_33 : IVec S_ 1 := constantI S_ 1 1#1
  let main_v87 : IVec S_ 1 := (fun x v => Host.reduce IntOp.andi x v reducesTo_S640_S_d0 h_S_) main_v86 main_c_33
  let main_v88 : IVec S_ 1 := andi main_v83 main_v87
  let main_v89 : FVec F S64x1536 .f32 := Host.absf main_arg18
  let main_cst_34 : FVec F S_ .f32 := constant S_ .f32 0x7F800000#32
  let main_v90 : FVec F S64x1536 .f32 := broadcastInDim S64x1536 ![] bcast_S_S64x1536 main_cst_34
  let main_v91 : IVec S64x1536 1 := cmpf .olt main_v89 main_v90
  let main_c_35 : IVec S_ 1 := constantI S_ 1 1#1
  let main_v92 : IVec S_ 1 := (fun x v => Host.reduce IntOp.andi x v reducesTo_S64x1536_S_d0_1 h_S_) main_v91 main_c_35
  let main_v93 : IVec S_ 1 := andi main_v88 main_v92
  let main_v94 : FVec F S1536 .f32 := Host.absf main_arg19
  let main_cst_36 : FVec F S_ .f32 := constant S_ .f32 0x7F800000#32
  let main_v95 : FVec F S1536 .f32 := broadcastInDim S1536 ![] bcast_S_S1536 main_cst_36
  let main_v96 : IVec S1536 1 := cmpf .olt main_v94 main_v95
  let main_c_37 : IVec S_ 1 := constantI S_ 1 1#1
  let main_v97 : IVec S_ 1 := (fun x v => Host.reduce IntOp.andi x v reducesTo_S1536_S_d0 h_S_) main_v96 main_c_37
  let main_v98 : IVec S_ 1 := andi main_v93 main_v97
  let main_v99 : FVec F S1536x768 .f32 := Host.absf main_arg20
  let main_cst_38 : FVec F S_ .f32 := constant S_ .f32 0x7F800000#32
  let main_v100 : FVec F S1536x768 .f32 := broadcastInDim S1536x768 ![] bcast_S_S1536x768 main_cst_38
  let main_v101 : IVec S1536x768 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_v98 main_v101 main_c_39

def fn_part4 {F : FTy → Type} [FloatOps F] (main_arg14 : FVec F S64x1280 .f32) (main_arg15 : FVec F S1280 .f32) (main_arg16 : FVec F S1280x640 .f32) (main_arg17 : FVec F S640 .f32) (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v63 : IVec S_ 1) (main_v67 : IVec S_ 1) : IVec S_ 1 :=
  let main_v68 : IVec S_ 1 := andi main_v63 main_v67
  let main_v69 : FVec F S64x1280 .f32 := Host.absf main_arg14
  let main_cst_26 : FVec F S_ .f32 := constant S_ .f32 0x7F800000#32
  let main_v70 : FVec F S64x1280 .f32 := broadcastInDim S64x1280 ![] bcast_S_S64x1280 main_cst_26
  let main_v71 : IVec S64x1280 1 := cmpf .olt main_v69 main_v70
  let main_c_27 : IVec S_ 1 := constantI S_ 1 1#1
  let main_v72 : IVec S_ 1 := (fun x v => Host.reduce IntOp.andi x v reducesTo_S64x1280_S_d0_1 h_S_) main_v71 main_c_27
  let main_v73 : IVec S_ 1 := andi main_v68 main_v72
  let main_v74 : FVec F S1280 .f32 := Host.absf main_arg15
  let main_cst_28 : FVec F S_ .f32 := constant S_ .f32 0x7F800000#32
  let main_v75 : FVec F S1280 .f32 := broadcastInDim S1280 ![] bcast_S_S1280 main_cst_28
  let main_v76 : IVec S1280 1 := cmpf .olt main_v74 main_v75
  let main_c_29 : IVec S_ 1 := constantI S_ 1 1#1
  let main_v77 : IVec S_ 1 := (fun x v => Host.reduce IntOp.andi x v reducesTo_S1280_S_d0 h_S_) main_v76 main_c_29
  let main_v78 : IVec S_ 1 := andi main_v73 main_v77
  let main_v79 : FVec F S1280x640 .f32 := Host.absf main_arg16
  let main_cst_30 : FVec F S_ .f32 := constant S_ .f32 0x7F800000#32
  let main_v80 : FVec F S1280x640 .f32 := broadcastInDim S1280x640 ![] bcast_S_S1280x640 main_cst_30
  let main_v81 : IVec S1280x640 1 := cmpf .olt main_v79 main_v80
  let main_c_31 : IVec S_ 1 := constantI S_ 1 1#1
  let main_v82 : IVec S_ 1 := (fun x v => Host.reduce IntOp.andi x v reducesTo_S1280x640_S_d0_1 h_S_) main_v81 main_c_31
  let main_v83 : IVec S_ 1 := andi main_v78 main_v82
  let main_v84 : FVec F S640 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg11 : FVec F S1024 .f32) (main_arg12 : FVec F S1024x512 .f32) (main_arg13 : FVec F S512 .f32) (main_arg14 : FVec F S64x1280 .f32) (main_arg15 : FVec F S1280 .f32) (main_arg16 : FVec F S1280x640 .f32) (main_arg17 : FVec F S640 .f32) (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v48 : IVec S_ 1) (main_v49 : FVec F S64x1024 .f32) (main_v50 : FVec F S64x1024 .f32) : IVec S_ 1 :=
  let main_v51 : IVec S64x1024 1 := cmpf .olt main_v49 main_v50
  let main_c_19 : IVec S_ 1 := constantI S_ 1 1#1
  let main_v52 : IVec S_ 1 := (fun x v => Host.reduce IntOp.andi x v reducesTo_S64x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg7 : FVec F S768 .f32) (main_arg8 : FVec F S768x384 .f32) (main_arg9 : FVec F S384 .f32) (main_arg10 : FVec F S64x1024 .f32) (main_arg11 : FVec F S1024 .f32) (main_arg12 : FVec F S1024x512 .f32) (main_arg13 : FVec F S512 .f32) (main_arg14 : FVec F S64x1280 .f32) (main_arg15 : FVec F S1280 .f32) (main_arg16 : FVec F S1280x640 .f32) (main_arg17 : FVec F S640 .f32) (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x384 .f32 := Host.absf main_arg8
  let main_cst_14 : FVec F S_ .f32 := constant S_ .f32 0x7F800000#32
  let main_v40 : FVec F S768x384 .f32 := broadcastInDim S768x384 ![] bcast_S_S768x384 main_cst_14
  let main_v41 : IVec S768x384 1 := cmpf .olt main_v39 main_v40
  let main_c_15 : IVec S_ 1 := constantI S_ 1 1#1
  let main_v42 : IVec S_ 1 := (fun x v => Host.reduce IntOp.andi x v reducesTo_S768x384_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S64x1024 .f32 := Host.absf main_arg10
  let main_cst_18 : FVec F S_ .f32 := constant S_ .f32 0x7F800000#32
  let main_v50 : FVec F S64x1024 .f32 := broadcastInDim S64x1024 ![] bcast_S_S64x1024 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg4 : FVec F S512x256 .f32) (main_arg5 : FVec F S256 .f32) (main_arg6 : FVec F S64x768 .f32) (main_arg7 : FVec F S768 .f32) (main_arg8 : FVec F S768x384 .f32) (main_arg9 : FVec F S384 .f32) (main_arg10 : FVec F S64x1024 .f32) (main_arg11 : FVec F S1024 .f32) (main_arg12 : FVec F S1024x512 .f32) (main_arg13 : FVec F S512 .f32) (main_arg14 : FVec F S64x1280 .f32) (main_arg15 : FVec F S1280 .f32) (main_arg16 : FVec F S1280x640 .f32) (main_arg17 : FVec F S640 .f32) (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x768 .f32 := Host.absf main_arg6
  let main_cst_10 : FVec F S_ .f32 := constant S_ .f32 0x7F800000#32
  let main_v30 : FVec F S64x768 .f32 := broadcastInDim S64x768 ![] bcast_S_S64x768 main_cst_10
  let main_v31 : IVec S64x768 1 := cmpf .olt main_v29 main_v30
  let main_c_11 : IVec S_ 1 := constantI S_ 1 1#1
  let main_v32 : IVec S_ 1 := (fun x v => Host.reduce IntOp.andi x v reducesTo_S64x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S16384x16 .f32) (main_arg1 : FVec F S16x64 .f32) (main_arg2 : FVec F S64x512 .f32) (main_arg3 : FVec F S512 .f32) (main_arg4 : FVec F S512x256 .f32) (main_arg5 : FVec F S256 .f32) (main_arg6 : FVec F S64x768 .f32) (main_arg7 : FVec F S768 .f32) (main_arg8 : FVec F S768x384 .f32) (main_arg9 : FVec F S384 .f32) (main_arg10 : FVec F S64x1024 .f32) (main_arg11 : FVec F S1024 .f32) (main_arg12 : FVec F S1024x512 .f32) (main_arg13 : FVec F S512 .f32) (main_arg14 : FVec F S64x1280 .f32) (main_arg15 : FVec F S1280 .f32) (main_arg16 : FVec F S1280x640 .f32) (main_arg17 : FVec F S640 .f32) (main_arg18 : FVec F S64x1536 .f32) (main_arg19 : FVec F S1536 .f32) (main_arg20 : FVec F S1536x768 .f32) (main_arg21 : FVec F S768 .f32) (main_arg22 : FVec F S64x1792 .f32) (main_arg23 : FVec F S1792 .f32) (main_arg24 : FVec F S1792x896 .f32) (main_arg25 : FVec F S896 .f32) (main_arg26 : FVec F S64x2048 .f32) (main_arg27 : FVec F S2048 .f32) (main_arg28 : FVec F S2048x1024 .f32) (main_arg29 : FVec F S1024 .f32) (main_arg30 : FVec F S64x2304 .f32) (main_arg31 : FVec F S2304 .f32) (main_arg32 : FVec F S2304x1152 .f32) (main_arg33 : FVec F S1152 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S16384x16 : Shape := ⟨2, ![16384, 16]⟩
abbrev S16x64 : Shape := ⟨2, ![16, 64]⟩
abbrev S64x512 : Shape := ⟨2, ![64, 512]⟩
abbrev S512 : Shape := ⟨1, ![512]⟩
abbrev S512x256 : Shape := ⟨2, ![512, 256]⟩
abbrev S256 : Shape := ⟨1, ![256]⟩
abbrev S64x768 : Shape := ⟨2, ![64, 768]⟩
abbrev S768 : Shape := ⟨1, ![768]⟩
abbrev S768x384 : Shape := ⟨2, ![768, 384]⟩
abbrev S384 : Shape := ⟨1, ![384]⟩
abbrev S64x1024 : Shape := ⟨2, ![64, 1024]⟩
abbrev S1024 : Shape := ⟨1, ![1024]⟩
abbrev S1024x512 : Shape := ⟨2, ![1024, 512]⟩
abbrev S64x1280 : Shape := ⟨2, ![64, 1280]⟩
abbrev S1280 : Shape := ⟨1, ![1280]⟩
abbrev S1280x640 : Shape := ⟨2, ![1280, 640]⟩
abbrev S640 : Shape := ⟨1, ![640]⟩
abbrev S64x1536 : Shape := ⟨2, ![64, 1536]⟩
abbrev S1536 : Shape := ⟨1, ![1536]⟩
abbrev S1536x768 : Shape := ⟨2, ![1536, 768]⟩
abbrev S64x1792 : Shape := ⟨2, ![64, 1792]⟩
abbrev S1792 : Shape := ⟨1, ![1792]⟩
abbrev S1792x896 : Shape := ⟨2, ![1792, 896]⟩
abbrev S896 : Shape := ⟨1, ![896]⟩
abbrev S64x2048 : Shape := ⟨2, ![64, 2048]⟩
abbrev S2048 : Shape := ⟨1, ![2048]⟩
abbrev S2048x1024 : Shape := ⟨2, ![2048, 1024]⟩
abbrev S64x2304 : Shape := ⟨2, ![64, 2304]⟩
abbrev S2304 : Shape := ⟨1, ![2304]⟩
abbrev S2304x1152 : Shape := ⟨2, ![2304, 1152]⟩
abbrev S1152 : Shape := ⟨1, ![1152]⟩
abbrev S1x512 : Shape := ⟨2, ![1, 512]⟩
abbrev S1x768 : Shape := ⟨2, ![1, 768]⟩
abbrev S1x1024 : Shape := ⟨2, ![1, 1024]⟩
abbrev S1x1280 : Shape := ⟨2, ![1, 1280]⟩
abbrev S1x1536 : Shape := ⟨2, ![1, 1536]⟩
abbrev S1x1792 : Shape := ⟨2, ![1, 1792]⟩
abbrev S1x2048 : Shape := ⟨2, ![1, 2048]⟩
abbrev S1x2304 : Shape := ⟨2, ![1, 2304]⟩
abbrev S1x256 : Shape := ⟨2, ![1, 256]⟩
abbrev S1x384 : Shape := ⟨2, ![1, 384]⟩
abbrev S1x640 : Shape := ⟨2, ![1, 640]⟩
abbrev S1x896 : Shape := ⟨2, ![1, 896]⟩
abbrev S1x1152 : Shape := ⟨2, ![1, 1152]⟩
abbrev S16384x5632 : Shape := ⟨2, ![16384, 5632]⟩
abbrev S256x16 : Shape := ⟨2, ![256, 16]⟩
abbrev S256x5632 : Shape := ⟨2, ![256, 5632]⟩
abbrev S256x64 : Shape := ⟨2, ![256, 64]⟩
abbrev S256x512 : Shape := ⟨2, ![256, 512]⟩
abbrev S256x256 : Shape := ⟨2, ![256, 256]⟩
abbrev S256x768 : Shape := ⟨2, ![256, 768]⟩
abbrev S256x384 : Shape := ⟨2, ![256, 384]⟩
abbrev S256x1024 : Shape := ⟨2, ![256, 1024]⟩
abbrev S256x1280 : Shape := ⟨2, ![256, 1280]⟩
abbrev S256x640 : Shape := ⟨2, ![256, 640]⟩
abbrev S256x1536 : Shape := ⟨2, ![256, 1536]⟩
abbrev S256x1792 : Shape := ⟨2, ![256, 1792]⟩
abbrev S256x896 : Shape := ⟨2, ![256, 896]⟩
abbrev S256x2048 : Shape := ⟨2, ![256, 2048]⟩
abbrev S256x2304 : Shape := ⟨2, ![256, 2304]⟩
abbrev S256x1152 : Shape := ⟨2, ![256, 1152]⟩

abbrev nBuf : Space → Nat
  | .hbm => 67
  | .vmem => 37
  | .smem => 0
  | _ => 0

abbrev bufTy : (tb : Table) → Fin (tcTables nBuf tb) → BufTy
  | .hbm, ⟨0, _⟩ => ⟨S16384x16, .f32⟩
  | .hbm, ⟨1, _⟩ => ⟨S16x64, .f32⟩
  | .hbm, ⟨2, _⟩ => ⟨S64x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S64x768, .f32⟩
  | .hbm, ⟨7, _⟩ => ⟨S768, .f32⟩
  | .hbm, ⟨8, _⟩ => ⟨S768x384, .f32⟩
  | .hbm, ⟨9, _⟩ => ⟨S384, .f32⟩
  | .hbm, ⟨10, _⟩ => ⟨S64x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S64x1280, .f32⟩
  | .hbm, ⟨15, _⟩ => ⟨S1280, .f32⟩
  | .hbm, ⟨16, _⟩ => ⟨S1280x640, .f32⟩
  | .hbm, ⟨17, _⟩ => ⟨S640, .f32⟩
  | .hbm, ⟨18, _⟩ => ⟨S64x1536, .f32⟩
  | .hbm, ⟨19, _⟩ => ⟨S1536, .f32⟩
  | .hbm, ⟨20, _⟩ => ⟨S1536x768, .f32⟩
  | .hbm, ⟨21, _⟩ => ⟨S768, .f32⟩
  | .hbm, ⟨22, _⟩ => ⟨S64x1792, .f32⟩
  | .hbm, ⟨23, _⟩ => ⟨S1792, .f32⟩
  | .hbm, ⟨24, _⟩ => ⟨S1792x896, .f32⟩
  | .hbm, ⟨25, _⟩ => ⟨S896, .f32⟩
  | .hbm, ⟨26, _⟩ => ⟨S64x2048, .f32⟩
  | .hbm, ⟨27, _⟩ => ⟨S2048, .f32⟩
  | .hbm, ⟨28, _⟩ => ⟨S2048x1024, .f32⟩
  | .hbm, ⟨29, _⟩ => ⟨S1024, .f32⟩
  | .hbm, ⟨30, _⟩ => ⟨S64x2304, .f32⟩
  | .hbm, ⟨31, _⟩ => ⟨S2304, .f32⟩
  | .hbm, ⟨32, _⟩ => ⟨S2304x1152, .f32⟩
  | .hbm, ⟨33, _⟩ => ⟨S1152, .f32⟩
  | .hbm, ⟨34, _⟩ => ⟨S64x512, .bf16⟩
  | .hbm, ⟨35, _⟩ => ⟨S64x768, .bf16⟩
  | .hbm, ⟨36, _⟩ => ⟨S64x1024, .bf16⟩
  | .hbm, ⟨37, _⟩ => ⟨S64x1280, .bf16⟩
  | .hbm, ⟨38, _⟩ => ⟨S64x1536, .bf16⟩
  | .hbm, ⟨39, _⟩ => ⟨S64x1792, .bf16⟩
  | .hbm, ⟨40, _⟩ => ⟨S64x2048, .bf16⟩
  | .hbm, ⟨41, _⟩ => ⟨S64x2304, .bf16⟩
  | .hbm, ⟨42, _⟩ => ⟨S512x256, .bf16⟩
  | .hbm, ⟨43, _⟩ => ⟨S768x384, .bf16⟩
  | .hbm, ⟨44, _⟩ => ⟨S1024x512, .bf16⟩
  | .hbm, ⟨45, _⟩ => ⟨S1280x640, .bf16⟩
  | .hbm, ⟨46, _⟩ => ⟨S1536x768, .bf16⟩
  | .hbm, ⟨47, _⟩ => ⟨S1792x896, .bf16⟩
  | .hbm, ⟨48, _⟩ => ⟨S2048x1024, .bf16⟩
  | .hbm, ⟨49, _⟩ => ⟨S2304x1152, .bf16⟩
  | .hbm, ⟨50, _⟩ => ⟨S1x512, .f32⟩
  | .hbm, ⟨51, _⟩ => ⟨S1x768, .f32⟩
  | .hbm, ⟨52, _⟩ => ⟨S1x1024, .f32⟩
  | .hbm, ⟨53, _⟩ => ⟨S1x1280, .f32⟩
  | .hbm, ⟨54, _⟩ => ⟨S1x1536, .f32⟩
  | .hbm, ⟨55, _⟩ => ⟨S1x1792, .f32⟩
  | .hbm, ⟨56, _⟩ => ⟨S1x2048, .f32⟩
  | .hbm, ⟨57, _⟩ => ⟨S1x2304, .f32⟩
  | .hbm, ⟨58, _⟩ => ⟨S1x256, .f32⟩
  | .hbm, ⟨59, _⟩ => ⟨S1x384, .f32⟩
  | .hbm, ⟨60, _⟩ => ⟨S1x512, .f32⟩
  | .hbm, ⟨61, _⟩ => ⟨S1x640, .f32⟩
  | .hbm, ⟨62, _⟩ => ⟨S1x768, .f32⟩
  | .hbm, ⟨63, _⟩ => ⟨S1x896, .f32⟩
  | .hbm, ⟨64, _⟩ => ⟨S1x1024, .f32⟩
  | .hbm, ⟨65, _⟩ => ⟨S1x1152, .f32⟩
  | .hbm, ⟨66, _⟩ => ⟨S16384x5632, .f32⟩
  | .local _ .vmem, ⟨0, _⟩ => ⟨S256x16, .f32⟩
  | .local _ .vmem, ⟨1, _⟩ => ⟨S256x16, .f32⟩
  | .local _ .vmem, ⟨2, _⟩ => ⟨S16x64, .f32⟩
  | .local _ .vmem, ⟨3, _⟩ => ⟨S64x512, .bf16⟩
  | .local _ .vmem, ⟨4, _⟩ => ⟨S1x512, .f32⟩
  | .local _ .vmem, ⟨5, _⟩ => ⟨S512x256, .bf16⟩
  | .local _ .vmem, ⟨6, _⟩ => ⟨S1x256, .f32⟩
  | .local _ .vmem, ⟨7, _⟩ => ⟨S64x768, .bf16⟩
  | .local _ .vmem, ⟨8, _⟩ => ⟨S1x768, .f32⟩
  | .local _ .vmem, ⟨9, _⟩ => ⟨S768x384, .bf16⟩
  | .local _ .vmem, ⟨10, _⟩ => ⟨S1x384, .f32⟩
  | .local _ .vmem, ⟨11, _⟩ => ⟨S64x1024, .bf16⟩
  | .local _ .vmem, ⟨12, _⟩ => ⟨S1x1024, .f32⟩
  | .local _ .vmem, ⟨13, _⟩ => ⟨S1024x512, .bf16⟩
  | .local _ .vmem, ⟨14, _⟩ => ⟨S1x512, .f32⟩
  | .local _ .vmem, ⟨15, _⟩ => ⟨S64x1280, .bf16⟩
  | .local _ .vmem, ⟨16, _⟩ => ⟨S1x1280, .f32⟩
  | .local _ .vmem, ⟨17, _⟩ => ⟨S1280x640, .bf16⟩
  | .local _ .vmem, ⟨18, _⟩ => ⟨S1x640, .f32⟩
  | .local _ .vmem, ⟨19, _⟩ => ⟨S64x1536, .bf16⟩
  | .local _ .vmem, ⟨20, _⟩ => ⟨S1x1536, .f32⟩
  | .local _ .vmem, ⟨21, _⟩ => ⟨S1536x768, .bf16⟩
  | .local _ .vmem, ⟨22, _⟩ => ⟨S1x768, .f32⟩
  | .local _ .vmem, ⟨23, _⟩ => ⟨S64x1792, .bf16⟩
  | .local _ .vmem, ⟨24, _⟩ => ⟨S1x1792, .f32⟩
  | .local _ .vmem, ⟨25, _⟩ => ⟨S1792x896, .bf16⟩
  | .local _ .vmem, ⟨26, _⟩ => ⟨S1x896, .f32⟩
  | .local _ .vmem, ⟨27, _⟩ => ⟨S64x2048, .bf16⟩
  | .local _ .vmem, ⟨28, _⟩ => ⟨S1x2048, .f32⟩
  | .local _ .vmem, ⟨29, _⟩ => ⟨S2048x1024, .bf16⟩
  | .local _ .vmem, ⟨30, _⟩ => ⟨S1x1024, .f32⟩
  | .local _ .vmem, ⟨31, _⟩ => ⟨S64x2304, .bf16⟩
  | .local _ .vmem, ⟨32, _⟩ => ⟨S1x2304, .f32⟩
  | .local _ .vmem, ⟨33, _⟩ => ⟨S2304x1152, .bf16⟩
  | .local _ .vmem, ⟨34, _⟩ => ⟨S1x1152, .f32⟩
  | .local _ .vmem, ⟨35, _⟩ => ⟨S256x5632, .f32⟩
  | .local _ .vmem, ⟨36, _⟩ => ⟨S256x5632, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg34_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem34_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1280x640 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x640 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x1536 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1536x768 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x1792 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1792 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1792x896 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x896 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x2048 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S2048x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S64x2304 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x2304 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S2304x1152 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1152 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S256x5632 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

class Facts₀ : Prop where
  bitsLt_bf16_f32 : FTy.bits .bf16 < FTy.bits .f32
  shapeCasts_S512_S1x512 : S512.ShapeCasts S1x512
  shapeCasts_S768_S1x768 : S768.ShapeCasts S1x768
  shapeCasts_S1024_S1x1024 : S1024.ShapeCasts S1x1024
  shapeCasts_S1280_S1x1280 : S1280.ShapeCasts S1x1280
  shapeCasts_S1536_S1x1536 : S1536.ShapeCasts S1x1536
  shapeCasts_S1792_S1x1792 : S1792.ShapeCasts S1x1792
  shapeCasts_S2048_S1x2048 : S2048.ShapeCasts S1x2048
  shapeCasts_S2304_S1x2304 : S2304.ShapeCasts S1x2304
  shapeCasts_S256_S1x256 : S256.ShapeCasts S1x256
  shapeCasts_S384_S1x384 : S384.ShapeCasts S1x384
  shapeCasts_S640_S1x640 : S640.ShapeCasts S1x640
  shapeCasts_S896_S1x896 : S896.ShapeCasts S1x896
  shapeCasts_S1152_S1x1152 : S1152.ShapeCasts S1x1152
  inb_S256x16_S256x16_0_0 : ∀ a, (![0, 0] : Fin 2 → Nat) a + S256x16.size a ≤ S256x16.size a
  h_S256x16 : 0 < S256x16.numel
  inb_S16x64_S16x64_0_0 : ∀ a, (![0, 0] : Fin 2 → Nat) a + S16x64.size a ≤ S16x64.size a
  h_S16x64 : 0 < S16x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x5632_S256x256_0_0 : ∀ a, (![0, 0] : Fin 2 → Nat) a + S256x256.size a ≤ S256x5632.size a
  h_S256x256 : 0 < S256x256.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x5632_S256x384_0_256 : ∀ a, (![0, 256] : Fin 2 → Nat) a + S256x384.size a ≤ S256x5632.size a
  h_S256x384 : 0 < S256x384.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x5632_S256x512_0_640 : ∀ a, (![0, 640] : Fin 2 → Nat) a + S256x512.size a ≤ S256x5632.size a
  h_S256x512 : 0 < S256x512.numel
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S256x1280 : S1x1280.Broadcasts S256x1280
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S256x640 : S1x640.Broadcasts S256x640
  inb_S256x5632_S256x640_0_1152 : ∀ a, (![0, 1152] : Fin 2 → Nat) a + S256x640.size a ≤ S256x5632.size a
  h_S256x640 : 0 < S256x640.numel
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S256x5632_S256x768_0_1792 : ∀ a, (![0, 1792] : Fin 2 → Nat) a + S256x768.size a ≤ S256x5632.size a
  h_S256x768 : 0 < S256x768.numel
  inb_S64x1792_S64x1792_0_0 : ∀ a, (![0, 0] : Fin 2 → Nat) a + S64x1792.size a ≤ S64x1792.size a
  h_S64x1792 : 0 < S64x1792.numel
  shapeCasts_S64x1792_S64x1792 : S64x1792.ShapeCasts S64x1792
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S256x1792 : S1x1792.Broadcasts S256x1792
  inb_S1792x896_S1792x896_0_0 : ∀ a, (![0, 0] : Fin 2 → Nat) a + S1792x896.size a ≤ S1792x896.size a
  h_S1792x896 : 0 < S1792x896.numel
  shapeCasts_S1792x896_S1792x896 : S1792x896.ShapeCasts S1792x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  inb_S256x5632_S256x896_0_2560 : ∀ a, (![0, 2560] : Fin 2 → Nat) a + S256x896.size a ≤ S256x5632.size a
  h_S256x896 : 0 < S256x896.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x5632_S256x1024_0_3456 : ∀ a, (![0, 3456] : Fin 2 → Nat) a + S256x1024.size a ≤ S256x5632.size a
  h_S256x1024 : 0 < S256x1024.numel
  inb_S64x2304_S64x2304_0_0 : ∀ a, (![0, 0] : Fin 2 → Nat) a + S64x2304.size a ≤ S64x2304.size a
  h_S64x2304 : 0 < S64x2304.numel
  shapeCasts_S64x2304_S64x2304 : S64x2304.ShapeCasts S64x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  inb_S2304x1152_S2304x1152_0_0 : ∀ a, (![0, 0] : Fin 2 → Nat) a + S2304x1152.size a ≤ S2304x1152.size a
  h_S2304x1152 : 0 < S2304x1152.numel
  shapeCasts_S2304x1152_S2304x1152 : S2304x1152.ShapeCasts S2304x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S256x1152 : S1x1152.Broadcasts S256x1152
  inb_S256x5632_S256x1152_0_4480 : ∀ a, (![0, 4480] : Fin 2 → Nat) a + S256x1152.size a ≤ S256x5632.size a
  h_S256x1152 : 0 < S256x1152.numel
  dot_S256x16_S16x64_S256x64_1_0_0_1_n_n_wf : DotDims.WF S256x16 S16x64 S256x64 [1] [0] [0] [1] [] []
  dot_S256x64_S64x512_S256x512_1_0_0_1_n_n_wf : DotDims.WF S256x64 S64x512 S256x512 [1] [0] [0] [1] [] []
  dot_S256x512_S512x256_S256x256_1_0_0_1_n_n_wf : DotDims.WF S256x512 S512x256 S256x256 [1] [0] [0] [1] [] []
  dot_S256x64_S64x768_S256x768_1_0_0_1_n_n_wf : DotDims.WF S256x64 S64x768 S256x768 [1] [0] [0] [1] [] []
  dot_S256x768_S768x384_S256x384_1_0_0_1_n_n_wf : DotDims.WF S256x768 S768x384 S256x384 [1] [0] [0] [1] [] []
  dot_S256x64_S64x1024_S256x1024_1_0_0_1_n_n_wf : DotDims.WF S256x64 S64x1024 S256x1024 [1] [0] [0] [1] [] []
  dot_S256x1024_S1024x512_S256x512_1_0_0_1_n_n_wf : DotDims.WF S256x1024 S1024x512 S256x512 [1] [0] [0] [1] [] []
  dot_S256x64_S64x1280_S256x1280_1_0_0_1_n_n_wf : DotDims.WF S256x64 S64x1280 S256x1280 [1] [0] [0] [1] [] []
  dot_S256x1280_S1280x640_S256x640_1_0_0_1_n_n_wf : DotDims.WF S256x1280 S1280x640 S256x640 [1] [0] [0] [1] [] []
  dot_S256x64_S64x1536_S256x1536_1_0_0_1_n_n_wf : DotDims.WF S256x64 S64x1536 S256x1536 [1] [0] [0] [1] [] []
  dot_S256x1536_S1536x768_S256x768_1_0_0_1_n_n_wf : DotDims.WF S256x1536 S1536x768 S256x768 [1] [0] [0] [1] [] []
  dot_S256x64_S64x1792_S256x1792_1_0_0_1_n_n_wf : DotDims.WF S256x64 S64x1792 S256x1792 [1] [0] [0] [1] [] []
  dot_S256x1792_S1792x896_S256x896_1_0_0_1_n_n_wf : DotDims.WF S256x1792 S1792x896 S256x896 [1] [0] [0] [1] [] []
  dot_S256x64_S64x2048_S256x2048_1_0_0_1_n_n_wf : DotDims.WF S256x64 S64x2048 S256x2048 [1] [0] [0] [1] [] []
  dot_S256x2048_S2048x1024_S256x1024_1_0_0_1_n_n_wf : DotDims.WF S256x2048 S2048x1024 S256x1024 [1] [0] [0] [1] [] []
  dot_S256x64_S64x2304_S256x2304_1_0_0_1_n_n_wf : DotDims.WF S256x64 S64x2304 S256x2304 [1] [0] [0] [1] [] []
  dot_S256x2304_S2304x1152_S256x1152_1_0_0_1_n_n_wf : DotDims.WF S256x2304 S2304x1152 S256x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S16384x16.size a
  hwx0_0 : ∀ i : grid0.Coords, EltTy.bits .f32 = 32 ∨ (Rect.block (s := S16384x16) S256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .bf16 = 32 ∨ (Rect.block (s := S64x512) S64x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x768.size a ≤ S64x768.size a
  hwx0_6 : ∀ i : grid0.Coords, EltTy.bits .bf16 = 32 ∨ (Rect.block (s := S64x768) S64x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x384.size a ≤ S768x384.size a
  hwx0_8 : ∀ i : grid0.Coords, EltTy.bits .bf16 = 32 ∨ (Rect.block (s := S768x384) S768x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S64x1024.size a
  hwx0_10 : ∀ i : grid0.Coords, EltTy.bits .bf16 = 32 ∨ (Rect.block (s := S64x1024) S64x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x1280.size a ≤ S64x1280.size a
  hwx0_14 : ∀ i : grid0.Coords, EltTy.bits .bf16 = 32 ∨ (Rect.block (s := S64x1280) S64x1280.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1280.size a ≤ S1x1280.size a
  hwx0_15 : ∀ i : grid0.Coords, EltTy.bits .f32 = 32 ∨ (Rect.block (s := S1x1280) S1x1280.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1280x640.size a ≤ S1280x640.size a
  hwx0_16 : ∀ i : grid0.Coords, EltTy.bits .bf16 = 32 ∨ (Rect.block (s := S1280x640) S1280x640.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x640.size a ≤ S1x640.size a
  hwx0_17 : ∀ i : grid0.Coords, EltTy.bits .f32 = 32 ∨ (Rect.block (s := S1x640) S1x640.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x1536.size a ≤ S64x1536.size a
  hwx0_18 : ∀ i : grid0.Coords, EltTy.bits .bf16 = 32 ∨ (Rect.block (s := S64x1536) S64x1536.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1536.size a ≤ S1x1536.size a
  hwx0_19 : ∀ i : grid0.Coords, EltTy.bits .f32 = 32 ∨ (Rect.block (s := S1x1536) S1x1536.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1536x768.size a ≤ S1536x768.size a
  hwx0_20 : ∀ i : grid0.Coords, EltTy.bits .bf16 = 32 ∨ (Rect.block (s := S1536x768) S1536x768.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x768.size a ≤ S1x768.size a
  hwx0_21 : ∀ i : grid0.Coords, EltTy.bits .f32 = 32 ∨ (Rect.block (s := S1x768) S1x768.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x1792.size a ≤ S64x1792.size a
  hwx0_22 : ∀ i : grid0.Coords, EltTy.bits .bf16 = 32 ∨ (Rect.block (s := S64x1792) S64x1792.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1792.size a ≤ S1x1792.size a
  hwx0_23 : ∀ i : grid0.Coords, EltTy.bits .f32 = 32 ∨ (Rect.block (s := S1x1792) S1x1792.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1792x896.size a ≤ S1792x896.size a
  hwx0_24 : ∀ i : grid0.Coords, EltTy.bits .bf16 = 32 ∨ (Rect.block (s := S1792x896) S1792x896.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x896.size a ≤ S1x896.size a
  hwx0_25 : ∀ i : grid0.Coords, EltTy.bits .f32 = 32 ∨ (Rect.block (s := S1x896) S1x896.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64x2048.size a ≤ S64x2048.size a
  hwx0_26 : ∀ i : grid0.Coords, EltTy.bits .bf16 = 32 ∨ (Rect.block (s := S64x2048) S64x2048.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x2048.size a ≤ S1x2048.size a
  hwx0_27 : ∀ i : grid0.Coords, EltTy.bits .f32 = 32 ∨ (Rect.block (s := S1x2048) S1x2048.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S2048x1024.size a ≤ S2048x1024.size a
  hwx0_28 : ∀ i : grid0.Coords, EltTy.bits .bf16 = 32 ∨ (Rect.block (s := S2048x1024) S2048x1024.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x1024.size a ≤ S1x1024.size a
  hwx0_29 : ∀ i : grid0.Coords, EltTy.bits .f32 = 32 ∨ (Rect.block (s := S1x1024) S1x1024.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S64x2304.size a ≤ S64x2304.size a
  hwx0_30 : ∀ i : grid0.Coords, EltTy.bits .bf16 = 32 ∨ (Rect.block (s := S64x2304) S64x2304.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x2304.size a ≤ S1x2304.size a
  hwx0_31 : ∀ i : grid0.Coords, EltTy.bits .f32 = 32 ∨ (Rect.block (s := S1x2304) S1x2304.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S2304x1152.size a ≤ S2304x1152.size a
  hwx0_32 : ∀ i : grid0.Coords, EltTy.bits .bf16 = 32 ∨ (Rect.block (s := S2304x1152) S2304x1152.size (cc0_transform_32 i) (hinb0_32 i)).WholeWords (EltTy.packing .bf16)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S1x1152.size a ≤ S1x1152.size a
  hwx0_33 : ∀ i : grid0.Coords, EltTy.bits .f32 = 32 ∨ (Rect.block (s := S1x1152) S1x1152.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S256x5632.size a ≤ S16384x5632.size a
  hwx0_34 : ∀ i : grid0.Coords, EltTy.bits .f32 = 32 ∨ (Rect.block (s := S16384x5632) S256x5632.size (cc0_transform_34 i) (hinb0_34 i)).WholeWords (EltTy.packing .f32)

variable [Facts₀]

def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x64_S64x768_S256x768_1_0_0_1_n_n : DotDims S256x64 S64x768 S256x768 where
  lhsContracting := [1]
  rhsContracting := [0]
  lhsNonContracting := [0]
  rhsNonContracting := [1]
  lhsBatch := []
  rhsBatch := []
  wf := dot_S256x64_S64x768_S256x768_1_0_0_1_n_n_wf
def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x64_S64x1280_S256x1280_1_0_0_1_n_n : DotDims S256x64 S64x1280 S256x1280 where
  lhsContracting := [1]
  rhsContracting := [0]
  lhsNonContracting := [0]
  rhsNonContracting := [1]
  lhsBatch := []
  rhsBatch := []
  wf := dot_S256x64_S64x1280_S256x1280_1_0_0_1_n_n_wf
def dot_S256x1280_S1280x640_S256x640_1_0_0_1_n_n : DotDims S256x1280 S1280x640 S256x640 where
  lhsContracting := [1]
  rhsContracting := [0]
  lhsNonContracting := [0]
  rhsNonContracting := [1]
  lhsBatch := []
  rhsBatch := []
  wf := dot_S256x1280_S1280x640_S256x640_1_0_0_1_n_n_wf
def dot_S256x64_S64x1536_S256x1536_1_0_0_1_n_n : DotDims S256x64 S64x1536 S256x1536 where
  lhsContracting := [1]
  rhsContracting := [0]
  lhsNonContracting := [0]
  rhsNonContracting := [1]
  lhsBatch := []
  rhsBatch := []
  wf := dot_S256x64_S64x1536_S256x1536_1_0_0_1_n_n_wf
def dot_S256x1536_S1536x768_S256x768_1_0_0_1_n_n : DotDims S256x1536 S1536x768 S256x768 where
  lhsContracting := [1]
  rhsContracting := [0]
  lhsNonContracting := [0]
  rhsNonContracting := [1]
  lhsBatch := []
  rhsBatch := []
  wf := dot_S256x1536_S1536x768_S256x768_1_0_0_1_n_n_wf
def dot_S256x64_S64x1792_S256x1792_1_0_0_1_n_n : DotDims S256x64 S64x1792 S256x1792 where
  lhsContracting := [1]
  rhsContracting := [0]
  lhsNonContracting := [0]
  rhsNonContracting := [1]
  lhsBatch := []
  rhsBatch := []
  wf := dot_S256x64_S64x1792_S256x1792_1_0_0_1_n_n_wf
def dot_S256x1792_S1792x896_S256x896_1_0_0_1_n_n : DotDims S256x1792 S1792x896 S256x896 where
  lhsContracting := [1]
  rhsContracting := [0]
  lhsNonContracting := [0]
  rhsNonContracting := [1]
  lhsBatch := []
  rhsBatch := []
  wf := dot_S256x1792_S1792x896_S256x896_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x64_S64x2304_S256x2304_1_0_0_1_n_n : DotDims S256x64 S64x2304 S256x2304 where
  lhsContracting := [1]
  rhsContracting := [0]
  lhsNonContracting := [0]
  rhsNonContracting := [1]
  lhsBatch := []
  rhsBatch := []
  wf := dot_S256x64_S64x2304_S256x2304_1_0_0_1_n_n_wf
def dot_S256x2304_S2304x1152_S256x1152_1_0_0_1_n_n : DotDims S256x2304 S2304x1152 S256x1152 where
  lhsContracting := [1]
  rhsContracting := [0]
  lhsNonContracting := [0]
  rhsNonContracting := [1]
  lhsBatch := []
  rhsBatch := []
  wf := dot_S256x2304_S2304x1152_S256x1152_1_0_0_1_n_n_wf

abbrev win0_0 : Pipeline.Window sig grid0 :=
  Pipeline.Window.ofSpec (Memref.whole main_arg0) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S768x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S64x1280.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x1280.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1280x640.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v27) S1x640.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v4) S64x1536.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v20) S1x1536.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12) S1536x768.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v28) S1x768.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v5) S64x1792.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v21) S1x1792.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v13) S1792x896.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v29) S1x896.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v6) S64x2048.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v22) S1x2048.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v14) S2048x1024.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v30) S1x1024.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v7) S64x2304.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v23) S1x2304.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v15) S2304x1152.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v31) S1x1152.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v32) S256x5632.size cc0_transform_34 reads0_34 true false 2 stage0_34 sem0_34
    hrank0 hreads0_34 hinb0_34 nbuf0_34 (Memref.isWhole_whole _) hwx0_34 hstage0_34

abbrev win0 : Fin 35 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | ⟨_ + 35, h⟩ => absurd h (Nat.not_lt.2 (Nat.le_add_left _ _))
abbrev spec0 : Fin 35 → Pipeline.WinSpec sig grid0.rank := fun w => (win0 w).toWinSpec

class Facts : Prop extends Facts₀ where

variable [Facts]
-- ==== ReferenceIdeal.lean ====
abbrev S16384x16 : Shape := ⟨2, ![16384, 16]⟩
abbrev S16x64 : Shape := ⟨2, ![16, 64]⟩
abbrev S64x512 : Shape := ⟨2, ![64, 512]⟩
abbrev S512 : Shape := ⟨1, ![512]⟩
abbrev S512x256 : Shape := ⟨2, ![512, 256]⟩
abbrev S256 : Shape := ⟨1, ![256]⟩
abbrev S64x768 : Shape := ⟨2, ![64, 768]⟩
abbrev S768 : Shape := ⟨1, ![768]⟩
abbrev S768x384 : Shape := ⟨2, ![768, 384]⟩
abbrev S384 : Shape := ⟨1, ![384]⟩
abbrev S64x1024 : Shape := ⟨2, ![64, 1024]⟩
abbrev S1024 : Shape := ⟨1, ![1024]⟩
abbrev S1024x512 : Shape := ⟨2, ![1024, 512]⟩
abbrev S64x1280 : Shape := ⟨2, ![64, 1280]⟩
abbrev S1280 : Shape := ⟨1, ![1280]⟩
abbrev S1280x640 : Shape := ⟨2, ![1280, 640]⟩
abbrev S640 : Shape := ⟨1, ![640]⟩
abbrev S64x1536 : Shape := ⟨2, ![64, 1536]⟩
abbrev S1536 : Shape := ⟨1, ![1536]⟩
abbrev S1536x768 : Shape := ⟨2, ![1536, 768]⟩
abbrev S64x1792 : Shape := ⟨2, ![64, 1792]⟩
abbrev S1792 : Shape := ⟨1, ![1792]⟩
abbrev S1792x896 : Shape := ⟨2, ![1792, 896]⟩
abbrev S896 : Shape := ⟨1, ![896]⟩
abbrev S64x2048 : Shape := ⟨2, ![64, 2048]⟩
abbrev S2048 : Shape := ⟨1, ![2048]⟩
abbrev S2048x1024 : Shape := ⟨2, ![2048, 1024]⟩
abbrev S64x2304 : Shape := ⟨2, ![64, 2304]⟩
abbrev S2304 : Shape := ⟨1, ![2304]⟩
abbrev S2304x1152 : Shape := ⟨2, ![2304, 1152]⟩
abbrev S1152 : Shape := ⟨1, ![1152]⟩
abbrev S16384x64 : Shape := ⟨2, ![16384, 64]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x768 : Shape := ⟨2, ![16384, 768]⟩
abbrev S1x768 : Shape := ⟨2, ![1, 768]⟩
abbrev S16384x384 : Shape := ⟨2, ![16384, 384]⟩
abbrev S1x384 : Shape := ⟨2, ![1, 384]⟩
abbrev S16384x1024 : Shape := ⟨2, ![16384, 1024]⟩
abbrev S1x1024 : Shape := ⟨2, ![1, 1024]⟩
abbrev S16384x1280 : Shape := ⟨2, ![16384, 1280]⟩
abbrev S1x1280 : Shape := ⟨2, ![1, 1280]⟩
abbrev S16384x640 : Shape := ⟨2, ![16384, 640]⟩
abbrev S1x640 : Shape := ⟨2, ![1, 640]⟩
abbrev S16384x1536 : Shape := ⟨2, ![16384, 1536]⟩
abbrev S1x1536 : Shape := ⟨2, ![1, 1536]⟩
abbrev S16384x1792 : Shape := ⟨2, ![16384, 1792]⟩
abbrev S1x1792 : Shape := ⟨2, ![1, 1792]⟩
abbrev S16384x896 : Shape := ⟨2, ![16384, 896]⟩
abbrev S1x896 : Shape := ⟨2, ![1, 896]⟩
abbrev S16384x2048 : Shape := ⟨2, ![16384, 2048]⟩
abbrev S1x2048 : Shape := ⟨2, ![1, 2048]⟩
abbrev S16384x2304 : Shape := ⟨2, ![16384, 2304]⟩
abbrev S1x2304 : Shape := ⟨2, ![1, 2304]⟩
abbrev S16384x1152 : Shape := ⟨2, ![16384, 1152]⟩
abbrev S1x1152 : Shape := ⟨2, ![1, 1152]⟩
abbrev S16384x5632 : Shape := ⟨2, ![16384, 5632]⟩

abbrev nBuf : Space → Nat
  | .hbm => 156
  | .vmem => 0
  | .smem => 0
  | _ => 0

abbrev hbmTy0_0 (i : Nat) : BufTy := match i % 128 with
  | 0 => ⟨S16384x16, .f32⟩
  | 1 => ⟨S16x64, .f32⟩
  | 2 => ⟨S64x512, .f32⟩
  | 3 => ⟨S512, .f32⟩
  | 4 => ⟨S512x256, .f32⟩
  | 5 => ⟨S256, .f32⟩
  | 6 => ⟨S64x768, .f32⟩
  | 7 => ⟨S768, .f32⟩
  | 8 => ⟨S768x384, .f32⟩
  | 9 => ⟨S384, .f32⟩
  | 10 => ⟨S64x1024, .f32⟩
  | 11 => ⟨S1024, .f32⟩
  | 12 => ⟨S1024x512, .f32⟩
  | 13 => ⟨S512, .f32⟩
  | 14 => ⟨S64x1280, .f32⟩
  | 15 => ⟨S1280, .f32⟩
  | 16 => ⟨S1280x640, .f32⟩
  | 17 => ⟨S640, .f32⟩
  | 18 => ⟨S64x1536, .f32⟩
  | 19 => ⟨S1536, .f32⟩
  | 20 => ⟨S1536x768, .f32⟩
  | 21 => ⟨S768, .f32⟩
  | 22 => ⟨S64x1792, .f32⟩
  | 23 => ⟨S1792, .f32⟩
  | 24 => ⟨S1792x896, .f32⟩
  | 25 => ⟨S896, .f32⟩
  | 26 => ⟨S64x2048, .f32⟩
  | 27 => ⟨S2048, .f32⟩
  | 28 => ⟨S2048x1024, .f32⟩
  | 29 => ⟨S1024, .f32⟩
  | 30 => ⟨S64x2304, .f32⟩
  | 31 => ⟨S2304, .f32⟩
  | 32 => ⟨S2304x1152, .f32⟩
  | 33 => ⟨S1152, .f32⟩
  | 34 => ⟨S16384x64, .f32⟩
  | 35 => ⟨S16384x512, .f32⟩
  | 36 => ⟨S1x512, .f32⟩
  | 37 => ⟨S16384x512, .f32⟩
  | 38 => ⟨S16384x512, .f32⟩
  | 39 => ⟨S_, .f32⟩
  | 40 => ⟨S16384x512, .f32⟩
  | 41 => ⟨S16384x512, .f32⟩
  | 42 => ⟨S16384x256, .f32⟩
  | 43 => ⟨S1x256, .f32⟩
  | 44 => ⟨S16384x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S16384x768, .f32⟩
  | 51 => ⟨S1x768, .f32⟩
  | 52 => ⟨S16384x768, .f32⟩
  | 53 => ⟨S16384x768, .f32⟩
  | 54 => ⟨S_, .f32⟩
  | 55 => ⟨S16384x768, .f32⟩
  | 56 => ⟨S16384x768, .f32⟩
  | 57 => ⟨S16384x384, .f32⟩
  | 58 => ⟨S1x384, .f32⟩
  | 59 => ⟨S16384x384, .f32⟩
  | 60 => ⟨S16384x384, .f32⟩
  | 61 => ⟨S16384x384, .f32⟩
  | 62 => ⟨S_, .f32⟩
  | 63 => ⟨S16384x384, .f32⟩
  | 64 => ⟨S16384x384, .f32⟩
  | 65 => ⟨S16384x1024, .f32⟩
  | 66 => ⟨S1x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S16384x512, .f32⟩
  | 73 => ⟨S1x512, .f32⟩
  | 74 => ⟨S16384x512, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S16384x1280, .f32⟩
  | 81 => ⟨S1x1280, .f32⟩
  | 82 => ⟨S16384x1280, .f32⟩
  | 83 => ⟨S16384x1280, .f32⟩
  | 84 => ⟨S_, .f32⟩
  | 85 => ⟨S16384x1280, .f32⟩
  | 86 => ⟨S16384x1280, .f32⟩
  | 87 => ⟨S16384x640, .f32⟩
  | 88 => ⟨S1x640, .f32⟩
  | 89 => ⟨S16384x640, .f32⟩
  | 90 => ⟨S16384x640, .f32⟩
  | 91 => ⟨S16384x640, .f32⟩
  | 92 => ⟨S_, .f32⟩
  | 93 => ⟨S16384x640, .f32⟩
  | 94 => ⟨S16384x640, .f32⟩
  | 95 => ⟨S16384x1536, .f32⟩
  | 96 => ⟨S1x1536, .f32⟩
  | 97 => ⟨S16384x1536, .f32⟩
  | 98 => ⟨S16384x1536, .f32⟩
  | 99 => ⟨S_, .f32⟩
  | 100 => ⟨S16384x1536, .f32⟩
  | 101 => ⟨S16384x1536, .f32⟩
  | 102 => ⟨S16384x768, .f32⟩
  | 103 => ⟨S1x768, .f32⟩
  | 104 => ⟨S16384x768, .f32⟩
  | 105 => ⟨S16384x768, .f32⟩
  | 106 => ⟨S16384x768, .f32⟩
  | 107 => ⟨S_, .f32⟩
  | 108 => ⟨S16384x768, .f32⟩
  | 109 => ⟨S16384x768, .f32⟩
  | 110 => ⟨S16384x1792, .f32⟩
  | 111 => ⟨S1x1792, .f32⟩
  | 112 => ⟨S16384x1792, .f32⟩
  | 113 => ⟨S16384x1792, .f32⟩
  | 114 => ⟨S_, .f32⟩
  | 115 => ⟨S16384x1792, .f32⟩
  | 116 => ⟨S16384x1792, .f32⟩
  | 117 => ⟨S16384x896, .f32⟩
  | 118 => ⟨S1x896, .f32⟩
  | 119 => ⟨S16384x896, .f32⟩
  | 120 => ⟨S16384x896, .f32⟩
  | 121 => ⟨S16384x896, .f32⟩
  | 122 => ⟨S_, .f32⟩
  | 123 => ⟨S16384x896, .f32⟩
  | 124 => ⟨S16384x896, .f32⟩
  | 125 => ⟨S16384x2048, .f32⟩
  | 126 => ⟨S1x2048, .f32⟩
  | 127 => ⟨S16384x2048, .f32⟩
  | _ => ⟨S16384x16, .f32⟩

abbrev hbmTy0_1 (i : Nat) : BufTy := match i % 128 with
  | 0 => ⟨S16384x2048, .f32⟩
  | 1 => ⟨S_, .f32⟩
  | 2 => ⟨S16384x2048, .f32⟩
  | 3 => ⟨S16384x2048, .f32⟩
  | 4 => ⟨S16384x1024, .f32⟩
  | 5 => ⟨S1x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S16384x2304, .f32⟩
  | 13 => ⟨S1x2304, .f32⟩
  | 14 => ⟨S16384x2304, .f32⟩
  | 15 => ⟨S16384x2304, .f32⟩
  | 16 => ⟨S_, .f32⟩
  | 17 => ⟨S16384x2304, .f32⟩
  | 18 => ⟨S16384x2304, .f32⟩
  | 19 => ⟨S16384x1152, .f32⟩
  | 20 => ⟨S1x1152, .f32⟩
  | 21 => ⟨S16384x1152, .f32⟩
  | 22 => ⟨S16384x1152, .f32⟩
  | 23 => ⟨S16384x1152, .f32⟩
  | 24 => ⟨S_, .f32⟩
  | 25 => ⟨S16384x1152, .f32⟩
  | 26 => ⟨S16384x1152, .f32⟩
  | 27 => ⟨S16384x5632, .f32⟩
  | _ => ⟨S16384x16, .f32⟩

abbrev hbmTy (i : Nat) : BufTy := match i / 128 with
  | 0 => hbmTy0_0 i
  | 1 => hbmTy0_1 i
  | _ => ⟨S16384x16, .f32⟩

abbrev bufTy : (tb : Table) → Fin (tcTables nBuf tb) → BufTy
  | .hbm, ⟨i, _⟩ => hbmTy i
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call0_cst : Ref sig .tc := ⟨.hbm, 39, rfl⟩
abbrev main_call0_v0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_call1_cst : Ref sig .tc := ⟨.hbm, 54, rfl⟩
abbrev main_call1_v0 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call2_cst : Ref sig .tc := ⟨.hbm, 69, rfl⟩
abbrev main_call2_v0 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_1 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call3_cst : Ref sig .tc := ⟨.hbm, 84, rfl⟩
abbrev main_call3_v0 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_2 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_call4_cst : Ref sig .tc := ⟨.hbm, 99, rfl⟩
abbrev main_call4_v0 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_3 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call5_cst : Ref sig .tc := ⟨.hbm, 114, rfl⟩
abbrev main_call5_v0 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_4 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_call6_cst : Ref sig .tc := ⟨.hbm, 129, rfl⟩
abbrev main_call6_v0 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_5 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call7_cst : Ref sig .tc := ⟨.hbm, 144, rfl⟩
abbrev main_call7_v0 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_6 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  bcast_S_S16384x768 : S_.BroadcastsInDim S16384x768 (![] : Fin 0 → Fin S16384x768.rank)
  bcast_S384_S1x384_1 : S384.BroadcastsInDim S1x384 (![1] : Fin 1 → Fin S1x384.rank)
  bcast_S1x384_S16384x384_0_1 : S1x384.BroadcastsInDim S16384x384 (![0, 1] : Fin 2 → Fin S16384x384.rank)
  bcast_S_S16384x384 : S_.BroadcastsInDim S16384x384 (![] : Fin 0 → Fin S16384x384.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1280_S1x1280_1 : S1280.BroadcastsInDim S1x1280 (![1] : Fin 1 → Fin S1x1280.rank)
  bcast_S1x1280_S16384x1280_0_1 : S1x1280.BroadcastsInDim S16384x1280 (![0, 1] : Fin 2 → Fin S16384x1280.rank)
  bcast_S_S16384x1280 : S_.BroadcastsInDim S16384x1280 (![] : Fin 0 → Fin S16384x1280.rank)
  bcast_S640_S1x640_1 : S640.BroadcastsInDim S1x640 (![1] : Fin 1 → Fin S1x640.rank)
  bcast_S1x640_S16384x640_0_1 : S1x640.BroadcastsInDim S16384x640 (![0, 1] : Fin 2 → Fin S16384x640.rank)
  bcast_S_S16384x640 : S_.BroadcastsInDim S16384x640 (![] : Fin 0 → Fin S16384x640.rank)
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  bcast_S_S16384x1536 : S_.BroadcastsInDim S16384x1536 (![] : Fin 0 → Fin S16384x1536.rank)
  bcast_S1792_S1x1792_1 : S1792.BroadcastsInDim S1x1792 (![1] : Fin 1 → Fin S1x1792.rank)
  bcast_S1x1792_S16384x1792_0_1 : S1x1792.BroadcastsInDim S16384x1792 (![0, 1] : Fin 2 → Fin S16384x1792.rank)
  bcast_S_S16384x1792 : S_.BroadcastsInDim S16384x1792 (![] : Fin 0 → Fin S16384x1792.rank)
  bcast_S896_S1x896_1 : S896.BroadcastsInDim S1x896 (![1] : Fin 1 → Fin S1x896.rank)
  bcast_S1x896_S16384x896_0_1 : S1x896.BroadcastsInDim S16384x896 (![0, 1] : Fin 2 → Fin S16384x896.rank)
  bcast_S_S16384x896 : S_.BroadcastsInDim S16384x896 (![] : Fin 0 → Fin S16384x896.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S2304_S1x2304_1 : S2304.BroadcastsInDim S1x2304 (![1] : Fin 1 → Fin S1x2304.rank)
  bcast_S1x2304_S16384x2304_0_1 : S1x2304.BroadcastsInDim S16384x2304 (![0, 1] : Fin 2 → Fin S16384x2304.rank)
  bcast_S_S16384x2304 : S_.BroadcastsInDim S16384x2304 (![] : Fin 0 → Fin S16384x2304.rank)
  bcast_S1152_S1x1152_1 : S1152.BroadcastsInDim S1x1152 (![1] : Fin 1 → Fin S1x1152.rank)
  bcast_S1x1152_S16384x1152_0_1 : S1x1152.BroadcastsInDim S16384x1152 (![0, 1] : Fin 2 → Fin S16384x1152.rank)
  bcast_S_S16384x1152 : S_.BroadcastsInDim S16384x1152 (![] : Fin 0 → Fin S16384x1152.rank)
  concatenates_S16384x256_S16384x384_S16384x512_S16384x640_S16384x768_S16384x896_S16384x1024_S16384x1152_S16384x5632_d1 : Shape.Concatenates [S16384x256, S16384x384, S16384x512, S16384x640, S16384x768, S16384x896, S16384x1024, S16384x1152] S16384x5632 1
  dot_S16384x16_S16x64_S16384x64_1_0_0_1_n_n_wf : DotDims.WF S16384x16 S16x64 S16384x64 [1] [0] [0] [1] [] []
  dot_S16384x64_S64x512_S16384x512_1_0_0_1_n_n_wf : DotDims.WF S16384x64 S64x512 S16384x512 [1] [0] [0] [1] [] []
  dot_S16384x512_S512x256_S16384x256_1_0_0_1_n_n_wf : DotDims.WF S16384x512 S512x256 S16384x256 [1] [0] [0] [1] [] []
  dot_S16384x64_S64x768_S16384x768_1_0_0_1_n_n_wf : DotDims.WF S16384x64 S64x768 S16384x768 [1] [0] [0] [1] [] []
  dot_S16384x768_S768x384_S16384x384_1_0_0_1_n_n_wf : DotDims.WF S16384x768 S768x384 S16384x384 [1] [0] [0] [1] [] []
  dot_S16384x64_S64x1024_S16384x1024_1_0_0_1_n_n_wf : DotDims.WF S16384x64 S64x1024 S16384x1024 [1] [0] [0] [1] [] []
  dot_S16384x1024_S1024x512_S16384x512_1_0_0_1_n_n_wf : DotDims.WF S16384x1024 S1024x512 S16384x512 [1] [0] [0] [1] [] []
  dot_S16384x64_S64x1280_S16384x1280_1_0_0_1_n_n_wf : DotDims.WF S16384x64 S64x1280 S16384x1280 [1] [0] [0] [1] [] []
  dot_S16384x1280_S1280x640_S16384x640_1_0_0_1_n_n_wf : DotDims.WF S16384x1280 S1280x640 S16384x640 [1] [0] [0] [1] [] []
  dot_S16384x64_S64x1536_S16384x1536_1_0_0_1_n_n_wf : DotDims.WF S16384x64 S64x1536 S16384x1536 [1] [0] [0] [1] [] []
  dot_S16384x1536_S1536x768_S16384x768_1_0_0_1_n_n_wf : DotDims.WF S16384x1536 S1536x768 S16384x768 [1] [0] [0] [1] [] []
  dot_S16384x64_S64x1792_S16384x1792_1_0_0_1_n_n_wf : DotDims.WF S16384x64 S64x1792 S16384x1792 [1] [0] [0] [1] [] []
  dot_S16384x1792_S1792x896_S16384x896_1_0_0_1_n_n_wf : DotDims.WF S16384x1792 S1792x896 S16384x896 [1] [0] [0] [1] [] []
  dot_S16384x64_S64x2048_S16384x2048_1_0_0_1_n_n_wf : DotDims.WF S16384x64 S64x2048 S16384x2048 [1] [0] [0] [1] [] []
  dot_S16384x2048_S2048x1024_S16384x1024_1_0_0_1_n_n_wf : DotDims.WF S16384x2048 S2048x1024 S16384x1024 [1] [0] [0] [1] [] []
  dot_S16384x64_S64x2304_S16384x2304_1_0_0_1_n_n_wf : DotDims.WF S16384x64 S64x2304 S16384x2304 [1] [0] [0] [1] [] []
  dot_S16384x2304_S2304x1152_S16384x1152_1_0_0_1_n_n_wf : DotDims.WF S16384x2304 S2304x1152 S16384x1152 [1] [0] [0] [1] [] []

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x512_S16384x512_1_0_0_1_n_n : DotDims S16384x64 S64x512 S16384x512 where
  lhsContracting := [1]
  rhsContracting := [0]
  lhsNonContracting := [0]
  rhsNonContracting := [1]
  lhsBatch := []
  rhsBatch := []
  wf := dot_S16384x64_S64x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x64_S64x768_S16384x768_1_0_0_1_n_n : DotDims S16384x64 S64x768 S16384x768 where
  lhsContracting := [1]
  rhsContracting := [0]
  lhsNonContracting := [0]
  rhsNonContracting := [1]
  lhsBatch := []
  rhsBatch := []
  wf := dot_S16384x64_S64x768_S16384x768_1_0_0_1_n_n_wf
def dot_S16384x768_S768x384_S16384x384_1_0_0_1_n_n : DotDims S16384x768 S768x384 S16384x384 where
  lhsContracting := [1]
  rhsContracting := [0]
  lhsNonContracting := [0]
  rhsNonContracting := [1]
  lhsBatch := []
  rhsBatch := []
  wf := dot_S16384x768_S768x384_S16384x384_1_0_0_1_n_n_wf
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x64_S64x1280_S16384x1280_1_0_0_1_n_n : DotDims S16384x64 S64x1280 S16384x1280 where
  lhsContracting := [1]
  rhsContracting := [0]
  lhsNonContracting := [0]
  rhsNonContracting := [1]
  lhsBatch := []
  rhsBatch := []
  wf := dot_S16384x64_S64x1280_S16384x1280_1_0_0_1_n_n_wf
def dot_S16384x1280_S1280x640_S16384x640_1_0_0_1_n_n : DotDims S16384x1280 S1280x640 S16384x640 where
  lhsContracting := [1]
  rhsContracting := [0]
  lhsNonContracting := [0]
  rhsNonContracting := [1]
  lhsBatch := []
  rhsBatch := []
  wf := dot_S16384x1280_S1280x640_S16384x640_1_0_0_1_n_n_wf
def dot_S16384x64_S64x1536_S16384x1536_1_0_0_1_n_n : DotDims S16384x64 S64x1536 S16384x1536 where
  lhsContracting := [1]
  rhsContracting := [0]
  lhsNonContracting := [0]
  rhsNonContracting := [1]
  lhsBatch := []
  rhsBatch := []
  wf := dot_S16384x64_S64x1536_S16384x1536_1_0_0_1_n_n_wf
def dot_S16384x1536_S1536x768_S16384x768_1_0_0_1_n_n : DotDims S16384x1536 S1536x768 S16384x768 where
  lhsContracting := [1]
  rhsContracting := [0]
  lhsNonContracting := [0]
  rhsNonContracting := [1]
  lhsBatch := []
  rhsBatch := []
  wf := dot_S16384x1536_S1536x768_S16384x768_1_0_0_1_n_n_wf
def dot_S16384x64_S64x1792_S16384x1792_1_0_0_1_n_n : DotDims S16384x64 S64x1792 S16384x1792 where
  lhsContracting := [1]
  rhsContracting := [0]
  lhsNonContracting := [0]
  rhsNonContracting := [1]
  lhsBatch := []
  rhsBatch := []
  wf := dot_S16384x64_S64x1792_S16384x1792_1_0_0_1_n_n_wf
def dot_S16384x1792_S1792x896_S16384x896_1_0_0_1_n_n : DotDims S16384x1792 S1792x896 S16384x896 where
  lhsContracting := [1]
  rhsContracting := [0]
  lhsNonContracting := [0]
  rhsNonContracting := [1]
  lhsBatch := []
  rhsBatch := []
  wf := dot_S16384x1792_S1792x896_S16384x896_1_0_0_1_n_n_wf
def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x64_S64x2304_S16384x2304_1_0_0_1_n_n : DotDims S16384x64 S64x2304 S16384x2304 where
  lhsContracting := [1]
  rhsContracting := [0]
  lhsNonContracting := [0]
  rhsNonContracting := [1]
  lhsBatch := []
  rhsBatch := []
  wf := dot_S16384x64_S64x2304_S16384x2304_1_0_0_1_n_n_wf
def dot_S16384x2304_S2304x1152_S16384x1152_1_0_0_1_n_n : DotDims S16384x2304 S2304x1152 S16384x1152 where
  lhsContracting := [1]
  rhsContracting := [0]
  lhsNonContracting := [0]
  rhsNonContracting := [1]
  lhsBatch := []
  rhsBatch := []
  wf := dot_S16384x2304_S2304x1152_S16384x1152_1_0_0_1_n_n_wf

class Facts : Prop extends Facts₀ where

variable [Facts]
-- ==== Proof.Spec.lean ====
/-
  The common value of the two programs, stated once and independently of either.

  A row `b` of the batch is first mixed into a vector of `D` numbers, `x d = ∑ e, ew b e · ev e d`.  Each of the eight
  layers then sends that vector through a two-stage perceptron with its own sizes `H` (hidden) and `R` (outputs):
  `out q = tanh (∑ k, max (∑ d, x d · w1 d k + b1 k) 0 · w2 k q + b2 q) · (1/10 as a float)`.
  The result array is the eight layers' outputs laid side by side along the column axis.
  All sums and products are taken in the extended reals; the two float literals (zero and the strength) are
  kept as their bit patterns, the same on both sides, and are never evaluated.
-/
import Idealize.ShloMosaic.PureOps.Ideal
import Idealize.ShloMosaic.Lib.ValueIdx

noncomputable section

namespace Cert.Spec

open Idealize.ShloMosaic Idealize.ShloMosaic.ValueIdx

/-- A matrix of extended reals over a literal two-axis shape, and a vector over a one-axis shape. -/
abbrev Mat (a b : Nat) : Type := (⟨2, ![a, b]⟩ : Shape).Idx → EReal
abbrev Row (a : Nat) : Type := (⟨1, ![a]⟩ : Shape).Idx → EReal

/-- One output element of one layer, from the mixed vector `x`, the first weight matrix and bias, the output's
    column `w2` of the second weight matrix and its bias `b2`. -/
def unit {D H : Nat} (x : Fin D → EReal) (w1 : Fin D → Fin H → EReal) (b1 : Fin H → EReal) (w2 : Fin H → EReal)
    (b2 : EReal) : EReal :=
  Ideal.tanh ((∑ k : Fin H, max ((∑ d : Fin D, x d * w1 d k) + b1 k) (Ideal.ofBits .f32 0x00000000#32) * w2 k) + b2)
    * Ideal.ofBits .f32 0x3DCCCCCD#32

/-- The mixed vector of one batch row: `∑ e, ew e · ev e d`. -/
def mixed {E D : Nat} (ew : Fin E → EReal) (ev : Fin E → Fin D → EReal) (d : Fin D) : EReal :=
  ∑ e : Fin E, ew e * ev e d

/-- One layer's output matrix, `B` rows by `R` columns, from the whole argument arrays. -/
def layer {B E D H R : Nat} (ew : Mat B E) (ev : Mat E D) (w1 : Mat D H) (b1 : Row H) (w2 : Mat H R) (b2 : Row R) :
    Mat B R := fun i =>
  unit (mixed (fun e => ew (ix2 (i 0) e)) (fun e d => ev (ix2 e d))) (fun d k => w1 (ix2 d k)) (fun k => b1 (ix1 k))
    (fun k => w2 (ix2 k (i 1))) (b2 (ix1 (i 1)))

/-- A layer's row `p` depends on the batch only through row `p` of `ew`: two batches that agree on a row give the
    same layer outputs on it. -/
theorem layer_row {B B' E D H R : Nat} (ew : Mat B E) (ew' : Mat B' E) (ev : Mat E D) (w1 : Mat D H) (b1 : Row H)
    (w2 : Mat H R) (b2 : Row R) (p : Fin B) (p' : Fin B') (q : Fin R) (h : ∀ e : Fin E, ew (ix2 p e) = ew' (ix2 p' e)) :
    layer ew ev w1 b1 w2 b2 (ix2 p q) = layer ew' ev w1 b1 w2 b2 (ix2 p' q) := by
  unfold layer
  have e : (fun e => ew (ix2 ((ix2 p q : (⟨2, ![B, R]⟩ : Shape).Idx) 0) e))
      = fun e => ew' (ix2 ((ix2 p' q : (⟨2, ![B', R]⟩ : Shape).Idx) 0) e) := funext h
  rw [e]
  rfl

/-- Eight matrices of one height laid side by side, read at row `p` and column `n`: column `n` belongs to the piece
    whose span holds it, at `n` less the widths before it.  The widths are the eight layers' output sizes (offsets 0,
    256, 640, 1152, 1792, 2560, 3456, 4480; total 5632); past the last column the value is of no account (zero). -/
def joinedAt {B : Nat} (o0 : Mat B 256) (o1 : Mat B 384) (o2 : Mat B 512) (o3 : Mat B 640) (o4 : Mat B 768) (o5 : Mat B 896) (o6 : Mat B 1024) (o7 : Mat B 1152) (p : Fin B) (n : Nat) : EReal :=
  if h0 : n < 256 then o0 (ix2 p ⟨n - 0, by omega⟩)
  else if h1 : n < 640 then o1 (ix2 p ⟨n - 256, by omega⟩)
  else if h2 : n < 1152 then o2 (ix2 p ⟨n - 640, by omega⟩)
  else if h3 : n < 1792 then o3 (ix2 p ⟨n - 1152, by omega⟩)
  else if h4 : n < 2560 then o4 (ix2 p ⟨n - 1792, by omega⟩)
  else if h5 : n < 3456 then o5 (ix2 p ⟨n - 2560, by omega⟩)
  else if h6 : n < 4480 then o6 (ix2 p ⟨n - 3456, by omega⟩)
  else if h7 : n < 5632 then o7 (ix2 p ⟨n - 4480, by omega⟩)
  else 0

/-- The eight matrices joined along the columns, as one matrix. -/
def joined {B : Nat} (o0 : Mat B 256) (o1 : Mat B 384) (o2 : Mat B 512) (o3 : Mat B 640) (o4 : Mat B 768) (o5 : Mat B 896) (o6 : Mat B 1024) (o7 : Mat B 1152) : Mat B 5632 := fun j => joinedAt o0 o1 o2 o3 o4 o5 o6 o7 (j 0) (j 1).val

/-- Inside piece 0's span the joined matrix is piece 0. -/
theorem joinedAt_0 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 256) (h : n = 0 + q.val) :
    joinedAt o0 o1 o2 o3 o4 o5 o6 o7 p n = o0 (ix2 p q) := by
  have hq := q.isLt
  unfold joinedAt
  rw [dif_pos (by omega)]
  exact congrArg (fun z => o0 (ix2 p z)) (Fin.ext (by show n - 0 = q.val; omega))

/-- Inside piece 1's span the joined matrix is piece 1. -/
theorem joinedAt_1 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 384) (h : n = 256 + q.val) :
    joinedAt o0 o1 o2 o3 o4 o5 o6 o7 p n = o1 (ix2 p q) := by
  have hq := q.isLt
  unfold joinedAt
  rw [dif_neg (by omega), dif_pos (by omega)]
  exact congrArg (fun z => o1 (ix2 p z)) (Fin.ext (by show n - 256 = q.val; omega))

/-- Inside piece 2's span the joined matrix is piece 2. -/
theorem joinedAt_2 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 512) (h : n = 640 + q.val) :
    joinedAt o0 o1 o2 o3 o4 o5 o6 o7 p n = o2 (ix2 p q) := by
  have hq := q.isLt
  unfold joinedAt
  rw [dif_neg (by omega), dif_neg (by omega), dif_pos (by omega)]
  exact congrArg (fun z => o2 (ix2 p z)) (Fin.ext (by show n - 640 = q.val; omega))

/-- Inside piece 3's span the joined matrix is piece 3. -/
theorem joinedAt_3 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 640) (h : n = 1152 + q.val) :
    joinedAt o0 o1 o2 o3 o4 o5 o6 o7 p n = o3 (ix2 p q) := by
  have hq := q.isLt
  unfold joinedAt
  rw [dif_neg (by omega), dif_neg (by omega), dif_neg (by omega), dif_pos (by omega)]
  exact congrArg (fun z => o3 (ix2 p z)) (Fin.ext (by show n - 1152 = q.val; omega))

/-- Inside piece 4's span the joined matrix is piece 4. -/
theorem joinedAt_4 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 768) (h : n = 1792 + q.val) :
    joinedAt o0 o1 o2 o3 o4 o5 o6 o7 p n = o4 (ix2 p q) := by
  have hq := q.isLt
  unfold joinedAt
  rw [dif_neg (by omega), dif_neg (by omega), dif_neg (by omega), dif_neg (by omega), dif_pos (by omega)]
  exact congrArg (fun z => o4 (ix2 p z)) (Fin.ext (by show n - 1792 = q.val; omega))

/-- Inside piece 5's span the joined matrix is piece 5. -/
theorem joinedAt_5 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 896) (h : n = 2560 + q.val) :
    joinedAt o0 o1 o2 o3 o4 o5 o6 o7 p n = o5 (ix2 p q) := by
  have hq := q.isLt
  unfold joinedAt
  rw [dif_neg (by omega), dif_neg (by omega), dif_neg (by omega), dif_neg (by omega), dif_neg (by omega), dif_pos (by omega)]
  exact congrArg (fun z => o5 (ix2 p z)) (Fin.ext (by show n - 2560 = q.val; omega))

/-- Inside piece 6's span the joined matrix is piece 6. -/
theorem joinedAt_6 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 1024) (h : n = 3456 + q.val) :
    joinedAt o0 o1 o2 o3 o4 o5 o6 o7 p n = o6 (ix2 p q) := by
  have hq := q.isLt
  unfold joinedAt
  rw [dif_neg (by omega), dif_neg (by omega), dif_neg (by omega), dif_neg (by omega), dif_neg (by omega), dif_neg (by omega), dif_pos (by omega)]
  exact congrArg (fun z => o6 (ix2 p z)) (Fin.ext (by show n - 3456 = q.val; omega))

/-- Inside piece 7's span the joined matrix is piece 7. -/
theorem joinedAt_7 {B : Nat} (o0 : Mat B 256) (o1 : Mat B 384) (o2 : Mat B 512) (o3 : Mat B 640) (o4 : Mat B 768) (o5 : Mat B 896) (o6 : Mat B 1024) (o7 : Mat B 1152) (p : Fin B) (n : Nat) (q : Fin 1152) (h : n = 4480 + q.val) :
    joinedAt o0 o1 o2 o3 o4 o5 o6 o7 p n = o7 (ix2 p q) := by
  have hq := q.isLt
  unfold joinedAt
  rw [dif_neg (by omega), dif_neg (by omega), dif_neg (by omega), dif_neg (by omega), dif_neg (by omega), dif_neg (by omega), dif_neg (by omega), dif_pos (by omega)]
  exact congrArg (fun z => o7 (ix2 p z)) (Fin.ext (by show n - 4480 = q.val; omega))

/-- Two joined matrices agree at a pair of indices with the same column when, piece by piece, the pieces agree on
    the two rows. -/
theorem joined_congr {B B' : Nat} (o0 : Mat B 256) (o1 : Mat B 384) (o2 : Mat B 512) (o3 : Mat B 640) (o4 : Mat B 768) (o5 : Mat B 896) (o6 : Mat B 1024) (o7 : Mat B 1152) (o0' : Mat B' 256) (o1' : Mat B' 384) (o2' : Mat B' 512) (o3' : Mat B' 640) (o4' : Mat B' 768) (o5' : Mat B' 896) (o6' : Mat B' 1024) (o7' : Mat B' 1152)
    (j : (⟨2, ![B, 5632]⟩ : Shape).Idx) (j' : (⟨2, ![B', 5632]⟩ : Shape).Idx) (hc : (j 1).val = (j' 1).val)
    (h0 : ∀ q : Fin 256, o0 (ix2 (j 0) q) = o0' (ix2 (j' 0) q))
    (h1 : ∀ q : Fin 384, o1 (ix2 (j 0) q) = o1' (ix2 (j' 0) q))
    (h2 : ∀ q : Fin 512, o2 (ix2 (j 0) q) = o2' (ix2 (j' 0) q))
    (h3 : ∀ q : Fin 640, o3 (ix2 (j 0) q) = o3' (ix2 (j' 0) q))
    (h4 : ∀ q : Fin 768, o4 (ix2 (j 0) q) = o4' (ix2 (j' 0) q))
    (h5 : ∀ q : Fin 896, o5 (ix2 (j 0) q) = o5' (ix2 (j' 0) q))
    (h6 : ∀ q : Fin 1024, o6 (ix2 (j 0) q) = o6' (ix2 (j' 0) q))
    (h7 : ∀ q : Fin 1152, o7 (ix2 (j 0) q) = o7' (ix2 (j' 0) q)) :
    joined o0 o1 o2 o3 o4 o5 o6 o7 j = joined o0' o1' o2' o3' o4' o5' o6' o7' j' := by
  show joinedAt o0 o1 o2 o3 o4 o5 o6 o7 (j 0) (j 1).val = joinedAt o0' o1' o2' o3' o4' o5' o6' o7' (j' 0) (j' 1).val
  rw [hc]
  unfold joinedAt
  split_ifs
  · exact h0 _
  · exact h1 _
  · exact h2 _
  · exact h3 _
  · exact h4 _
  · exact h5 _
  · exact h6 _
  · exact h7 _
  · rfl

/-- An index of the joined matrix whose column sits `0 + x 1` inside piece 0's span reads piece 0 at `x`. -/
theorem joined_piece_0 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 256]⟩ : Shape).Idx) (h0 : (j 0).val = (x 0).val) (h1 : (j 1).val = 0 + (x 1).val) :
    joined o0 o1 o2 o3 o4 o5 o6 o7 j = o0 x := by
  show joinedAt o0 o1 o2 o3 o4 o5 o6 o7 (j 0) (j 1).val = _
  rw [joinedAt_0 o0 o1 o2 o3 o4 o5 o6 o7 (j 0) (j 1).val (x 1) h1]
  refine congrArg o0 (funext fun a => Fin.ext ?_)
  match a with
  | ⟨0, _⟩ => exact h0
  | ⟨1, _⟩ => rfl

/-- An index of the joined matrix whose column sits `256 + x 1` inside piece 1's span reads piece 1 at `x`. -/
theorem joined_piece_1 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 384]⟩ : Shape).Idx) (h0 : (j 0).val = (x 0).val) (h1 : (j 1).val = 256 + (x 1).val) :
    joined o0 o1 o2 o3 o4 o5 o6 o7 j = o1 x := by
  show joinedAt o0 o1 o2 o3 o4 o5 o6 o7 (j 0) (j 1).val = _
  rw [joinedAt_1 o0 o1 o2 o3 o4 o5 o6 o7 (j 0) (j 1).val (x 1) h1]
  refine congrArg o1 (funext fun a => Fin.ext ?_)
  match a with
  | ⟨0, _⟩ => exact h0
  | ⟨1, _⟩ => rfl

/-- An index of the joined matrix whose column sits `640 + x 1` inside piece 2's span reads piece 2 at `x`. -/
theorem joined_piece_2 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 512]⟩ : Shape).Idx) (h0 : (j 0).val = (x 0).val) (h1 : (j 1).val = 640 + (x 1).val) :
    joined o0 o1 o2 o3 o4 o5 o6 o7 j = o2 x := by
  show joinedAt o0 o1 o2 o3 o4 o5 o6 o7 (j 0) (j 1).val = _
  rw [joinedAt_2 o0 o1 o2 o3 o4 o5 o6 o7 (j 0) (j 1).val (x 1) h1]
  refine congrArg o2 (funext fun a => Fin.ext ?_)
  match a with
  | ⟨0, _⟩ => exact h0
  | ⟨1, _⟩ => rfl

/-- An index of the joined matrix whose column sits `1152 + x 1` inside piece 3's span reads piece 3 at `x`. -/
theorem joined_piece_3 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 640]⟩ : Shape).Idx) (h0 : (j 0).val = (x 0).val) (h1 : (j 1).val = 1152 + (x 1).val) :
    joined o0 o1 o2 o3 o4 o5 o6 o7 j = o3 x := by
  show joinedAt o0 o1 o2 o3 o4 o5 o6 o7 (j 0) (j 1).val = _
  rw [joinedAt_3 o0 o1 o2 o3 o4 o5 o6 o7 (j 0) (j 1).val (x 1) h1]
  refine congrArg o3 (funext fun a => Fin.ext ?_)
  match a with
  | ⟨0, _⟩ => exact h0
  | ⟨1, _⟩ => rfl

/-- An index of the joined matrix whose column sits `1792 + x 1` inside piece 4's span reads piece 4 at `x`. -/
theorem joined_piece_4 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 768]⟩ : Shape).Idx) (h0 : (j 0).val = (x 0).val) (h1 : (j 1).val = 1792 + (x 1).val) :
    joined o0 o1 o2 o3 o4 o5 o6 o7 j = o4 x := by
  show joinedAt o0 o1 o2 o3 o4 o5 o6 o7 (j 0) (j 1).val = _
  rw [joinedAt_4 o0 o1 o2 o3 o4 o5 o6 o7 (j 0) (j 1).val (x 1) h1]
  refine congrArg o4 (funext fun a => Fin.ext ?_)
  match a with
  | ⟨0, _⟩ => exact h0
  | ⟨1, _⟩ => rfl

/-- An index of the joined matrix whose column sits `2560 + x 1` inside piece 5's span reads piece 5 at `x`. -/
theorem joined_piece_5 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 896]⟩ : Shape).Idx) (h0 : (j 0).val = (x 0).val) (h1 : (j 1).val = 2560 + (x 1).val) :
    joined o0 o1 o2 o3 o4 o5 o6 o7 j = o5 x := by
  show joinedAt o0 o1 o2 o3 o4 o5 o6 o7 (j 0) (j 1).val = _
  rw [joinedAt_5 o0 o1 o2 o3 o4 o5 o6 o7 (j 0) (j 1).val (x 1) h1]
  refine congrArg o5 (funext fun a => Fin.ext ?_)
  match a with
  | ⟨0, _⟩ => exact h0
  | ⟨1, _⟩ => rfl

/-- An index of the joined matrix whose column sits `3456 + x 1` inside piece 6's span reads piece 6 at `x`. -/
theorem joined_piece_6 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 1024]⟩ : Shape).Idx) (h0 : (j 0).val = (x 0).val) (h1 : (j 1).val = 3456 + (x 1).val) :
    joined o0 o1 o2 o3 o4 o5 o6 o7 j = o6 x := by
  show joinedAt o0 o1 o2 o3 o4 o5 o6 o7 (j 0) (j 1).val = _
  rw [joinedAt_6 o0 o1 o2 o3 o4 o5 o6 o7 (j 0) (j 1).val (x 1) h1]
  refine congrArg o6 (funext fun a => Fin.ext ?_)
  match a with
  | ⟨0, _⟩ => exact h0
  | ⟨1, _⟩ => rfl

/-- An index of the joined matrix whose column sits `4480 + x 1` inside piece 7's span reads piece 7 at `x`. -/
theorem joined_piece_7 {B : Nat} (o0 : Mat B 256) (o1 : Mat B 384) (o2 : Mat B 512) (o3 : Mat B 640) (o4 : Mat B 768) (o5 : Mat B 896) (o6 : Mat B 1024) (o7 : Mat B 1152) (j : (⟨2, ![B, 5632]⟩ : Shape).Idx)
    (x : (⟨2, ![B, 1152]⟩ : Shape).Idx) (h0 : (j 0).val = (x 0).val) (h1 : (j 1).val = 4480 + (x 1).val) :
    joined o0 o1 o2 o3 o4 o5 o6 o7 j = o7 x := by
  show joinedAt o0 o1 o2 o3 o4 o5 o6 o7 (j 0) (j 1).val = _
  rw [joinedAt_7 o0 o1 o2 o3 o4 o5 o6 o7 (j 0) (j 1).val (x 1) h1]
  refine congrArg o7 (funext fun a => Fin.ext ?_)
  match a with
  | ⟨0, _⟩ => exact h0
  | ⟨1, _⟩ => rfl

end Cert.Spec

end
-- ==== Proof.LibDense.lean ====
/-
  Dense layers read at an index, over arbitrary sizes.

  A plain matrix product `[m,k] × [k,n]` into a zero accumulator is `∑ c, A (a,c) · B (c,b)` at the extended reals,
  a bias row `[1,n]` broadcast down the rows adds `b (0,b)`, a rectifier is `max · z`, and rounding to a narrower
  float format is the identity.  From these: the three stages in which a tiled kernel writes a two-stage perceptron
  (first product plus bias; rectified second product; bias, `tanh` and scale), their composition, and the same
  perceptron as a host program writes it — each equal to `Cert.Spec.unit` / `Cert.Spec.layer` of the operands.
-/
import Idealize.ShloMosaic.Lib.StackMember
import Idealize.ShloMosaic.Lib.ValueLayout
import Idealize.ShloMosaic.Lib.Pipeline.Value
import proofs.«159795_j68831145886300_2_alg».proof.Proof.Spec

noncomputable section

namespace Cert.Dense

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

/-- First stage of a kernel's layer: the product with the first weights plus the bias row laid down the rows. -/
theorem stage1_apply (d : DotDims ⟨2, ![m, k]⟩ ⟨2, ![k, n]⟩ ⟨2, ![m, n]⟩) (hd : d = DotDims.plain m k n)
    (prec : Option ContractPrecision) (x : FVec Ideal ⟨2, ![m, k]⟩ φ₁) (w : FVec Ideal ⟨2, ![k, n]⟩ φ₂)
    (hw : (⟨2, ![k, n]⟩ : Shape).ShapeCasts ⟨2, ![k, n]⟩) (b : FVec Ideal ⟨2, ![1, n]⟩ .f32)
    (hb : (⟨2, ![1, n]⟩ : Shape).ShapeCasts ⟨2, ![1, n]⟩) (hbb : (⟨2, ![1, n]⟩ : Shape).Broadcasts ⟨2, ![m, n]⟩)
    (p : Fin m) (c : Fin n) :
    addf (matmul d prec x (shapeCast ⟨2, ![k, n]⟩ w hw) (constant ⟨2, ![m, n]⟩ .f32 0x00000000#32))
        (broadcastTo ⟨2, ![m, n]⟩ (shapeCast ⟨2, ![1, n]⟩ b hb) hbb) (ix2 p c)
      = (∑ j : Fin k, x (ix2 p j) * w (ix2 j c)) + b (ix2 (0 : Fin 1) c) := by
  rw [shapeCast_self, shapeCast_self, addf_apply, matmul_plain_apply d hd, broadcastTo_1b_ab_apply]

/-- Second stage: the rectified (and re-rounded) first stage times the second weights. -/
theorem stage2_apply (d : DotDims ⟨2, ![m, k]⟩ ⟨2, ![k, n]⟩ ⟨2, ![m, n]⟩) (hd : d = DotDims.plain m k n)
    (prec : Option ContractPrecision) (s z : FVec Ideal ⟨2, ![m, k]⟩ .f32) (hlt : FTy.bf16.bits < FTy.f32.bits)
    (w : FVec Ideal ⟨2, ![k, n]⟩ φ₂) (hw : (⟨2, ![k, n]⟩ : Shape).ShapeCasts ⟨2, ![k, n]⟩) (p : Fin m) (c : Fin n) :
    matmul d prec (truncf .bf16 (maximumf s z) hlt) (shapeCast ⟨2, ![k, n]⟩ w hw) (constant ⟨2, ![m, n]⟩ .f32 0x00000000#32)
        (ix2 p c)
      = ∑ j : Fin k, max (s (ix2 p j)) (z (ix2 p j)) * w (ix2 j c) := by
  rw [shapeCast_self, matmul_plain_apply d hd]
  rfl

/-- Last stage: the bias row, `tanh`, and the scale. -/
theorem stage3_apply (a : FVec Ideal ⟨2, ![m, n]⟩ .f32) (b : FVec Ideal ⟨2, ![1, n]⟩ .f32)
    (hbb : (⟨2, ![1, n]⟩ : Shape).Broadcasts ⟨2, ![m, n]⟩) (s : Ideal .f32) (p : Fin m) (c : Fin n) :
    mulf (tanh (addf a (broadcastTo ⟨2, ![m, n]⟩ b hbb))) (broadcast ⟨2, ![m, n]⟩ s) (ix2 p c)
      = Ideal.tanh (a (ix2 p c) + b (ix2 (0 : Fin 1) c)) * s := by
  show Ideal.tanh (a (ix2 p c) + broadcastTo ⟨2, ![m, n]⟩ b hbb (ix2 p c)) * s = _
  rw [broadcastTo_1b_ab_apply]

open Cert.Spec

/-- One element of a kernel's whole layer, the three stages in a row, is `Spec.unit` of the operands' entries. -/
theorem kernel_unit {D H R B : Nat} {φx φw1 φw2 : FTy}
    (d1 : DotDims ⟨2, ![B, D]⟩ ⟨2, ![D, H]⟩ ⟨2, ![B, H]⟩) (hd1 : d1 = DotDims.plain B D H)
    (d2 : DotDims ⟨2, ![B, H]⟩ ⟨2, ![H, R]⟩ ⟨2, ![B, R]⟩) (hd2 : d2 = DotDims.plain B H R)
    (x : FVec Ideal ⟨2, ![B, D]⟩ φx) (w1 : FVec Ideal ⟨2, ![D, H]⟩ φw1) (hw1 : (⟨2, ![D, H]⟩ : Shape).ShapeCasts ⟨2, ![D, H]⟩)
    (b1 : FVec Ideal ⟨2, ![1, H]⟩ .f32) (hb1 : (⟨2, ![1, H]⟩ : Shape).ShapeCasts ⟨2, ![1, H]⟩)
    (hbb1 : (⟨2, ![1, H]⟩ : Shape).Broadcasts ⟨2, ![B, H]⟩) (hlt : FTy.bf16.bits < FTy.f32.bits)
    (w2 : FVec Ideal ⟨2, ![H, R]⟩ φw2) (hw2 : (⟨2, ![H, R]⟩ : Shape).ShapeCasts ⟨2, ![H, R]⟩)
    (b2 : FVec Ideal ⟨2, ![1, R]⟩ .f32) (hb2 : (⟨2, ![1, R]⟩ : Shape).ShapeCasts ⟨2, ![1, R]⟩)
    (hbb2 : (⟨2, ![1, R]⟩ : Shape).Broadcasts ⟨2, ![B, R]⟩) (p : Fin B) (q : Fin R) :
    mulf (tanh (addf (matmul d2 none (truncf .bf16 (maximumf
            (addf (matmul d1 none x (shapeCast ⟨2, ![D, H]⟩ w1 hw1) (constant ⟨2, ![B, H]⟩ .f32 0x00000000#32))
              (broadcastTo ⟨2, ![B, H]⟩ (shapeCast ⟨2, ![1, H]⟩ b1 hb1) hbb1))
            (broadcast ⟨2, ![B, H]⟩ (Scalar.ofBits .f32 0x00000000#32))) hlt)
          (shapeCast ⟨2, ![H, R]⟩ w2 hw2) (constant ⟨2, ![B, R]⟩ .f32 0x00000000#32))
        (broadcastTo ⟨2, ![B, R]⟩ (shapeCast ⟨2, ![1, R]⟩ b2 hb2) hbb2)))
      (broadcast ⟨2, ![B, R]⟩ (Scalar.ofBits .f32 0x3DCCCCCD#32)) (ix2 p q)
    = Spec.unit (fun d => x (ix2 p d)) (fun d k => w1 (ix2 d k)) (fun k => b1 (ix2 (0 : Fin 1) k))
        (fun k => w2 (ix2 k q)) (b2 (ix2 (0 : Fin 1) q)) := by
  rw [stage3_apply, stage2_apply d2 hd2, shapeCast_self b2]
  unfold Spec.unit
  refine congrArg (fun s => Ideal.tanh (s + b2 (ix2 (0 : Fin 1) q)) * _) (Finset.sum_congr rfl fun j _ => ?_)
  rw [stage1_apply d1 hd1]
  rfl

/-- A vector `[n]` laid as the one row of a `[1, n]` matrix by the host, read at `(u, c)`. -/
theorem broadcastInDim_row_apply {α : Type} {n : Nat} (h : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] h x (ix2 u c) = x (ix1 c) := by
  refine broadcastInDim_apply ![1] h x (ix2 u c) (ix1 c) ?_
  intro a
  match a with
  | ⟨0, _⟩ =>
    show c.val = if n = 1 then 0 else c.val
    split
    · have := c.isLt; omega
    · rfl

/-- A scalar laid over a whole matrix by the host, read anywhere. -/
theorem broadcastInDim_scalar_apply {α : Type} {a b : Nat}
    (h : (⟨0, ![]⟩ : Shape).BroadcastsInDim ⟨2, ![a, b]⟩ ![]) (x : (⟨0, ![]⟩ : Shape).Idx → α)
    (j : (⟨2, ![a, b]⟩ : Shape).Idx) :
    broadcastInDim ⟨2, ![a, b]⟩ ![] h x j = x ix0 :=
  broadcastInDim_apply ![] h x j ix0 (fun a => a.elim0)

theorem hostTanh_apply {s : Shape} {φ : FTy} (x : FVec Ideal s φ) (i : s.Idx) : Host.tanh x i = Ideal.tanh (x i) := rfl

/-- A whole layer as the host program writes it is `Spec.layer` of its operands. -/
theorem host_layer {B E D H R : Nat}
    (d0 : DotDims ⟨2, ![B, E]⟩ ⟨2, ![E, D]⟩ ⟨2, ![B, D]⟩) (hd0 : d0 = DotDims.plain B E D)
    (d1 : DotDims ⟨2, ![B, D]⟩ ⟨2, ![D, H]⟩ ⟨2, ![B, H]⟩) (hd1 : d1 = DotDims.plain B D H)
    (d2 : DotDims ⟨2, ![B, H]⟩ ⟨2, ![H, R]⟩ ⟨2, ![B, R]⟩) (hd2 : d2 = DotDims.plain B H R)
    (ew : FVec Ideal ⟨2, ![B, E]⟩ .f32) (ev : FVec Ideal ⟨2, ![E, D]⟩ .f32) (w1 : FVec Ideal ⟨2, ![D, H]⟩ .f32)
    (b1 : FVec Ideal ⟨1, ![H]⟩ .f32) (w2 : FVec Ideal ⟨2, ![H, R]⟩ .f32) (b2 : FVec Ideal ⟨1, ![R]⟩ .f32)
    (h1a : (⟨1, ![H]⟩ : Shape).BroadcastsInDim ⟨2, ![1, H]⟩ ![1])
    (h1b : (⟨2, ![1, H]⟩ : Shape).BroadcastsInDim ⟨2, ![B, H]⟩ ![0, 1])
    (hz : (⟨0, ![]⟩ : Shape).BroadcastsInDim ⟨2, ![B, H]⟩ ![])
    (h2a : (⟨1, ![R]⟩ : Shape).BroadcastsInDim ⟨2, ![1, R]⟩ ![1])
    (h2b : (⟨2, ![1, R]⟩ : Shape).BroadcastsInDim ⟨2, ![B, R]⟩ ![0, 1])
    (hs : (⟨0, ![]⟩ : Shape).BroadcastsInDim ⟨2, ![B, R]⟩ ![]) :
    mulf (Host.tanh (addf (Host.dotGeneral d2 none (maximumf
            (addf (Host.dotGeneral d1 none (Host.dotGeneral d0 none ew ev) w1)
              (broadcastInDim ⟨2, ![B, H]⟩ ![0, 1] h1b (broadcastInDim ⟨2, ![1, H]⟩ ![1] h1a b1)))
            (broadcastInDim ⟨2, ![B, H]⟩ ![] hz (constant (F := Ideal) ⟨0, ![]⟩ .f32 0x00000000#32))) w2)
        (broadcastInDim ⟨2, ![B, R]⟩ ![0, 1] h2b (broadcastInDim ⟨2, ![1, R]⟩ ![1] h2a b2))))
      (broadcastInDim ⟨2, ![B, R]⟩ ![] hs (constant (F := Ideal) ⟨0, ![]⟩ .f32 0x3DCCCCCD#32))
    = Spec.layer ew ev w1 b1 w2 b2 := by
  funext i
  obtain ⟨p, q, rfl⟩ : ∃ (p : Fin B) (q : Fin R), i = ix2 p q := ⟨i 0, i 1, eq_ix2 i⟩
  rw [mulf_apply, hostTanh_apply, addf_apply, dotGeneral_plain_apply' d2 hd2, broadcastInDim_oneRow_apply,
    broadcastInDim_row_apply, broadcastInDim_scalar_apply]
  unfold Spec.layer Spec.unit
  refine congrArg (fun s => Ideal.tanh (s + b2 (ix1 q)) * _) (Finset.sum_congr rfl fun j _ => ?_)
  refine congrArg (· * w2 (ix2 j q)) ?_
  rw [maximumf_apply, addf_apply, dotGeneral_plain_apply' d1 hd1, broadcastInDim_oneRow_apply,
    broadcastInDim_row_apply, broadcastInDim_scalar_apply]
  refine congrArg (fun s => max (s + b1 (ix1 j)) _) (Finset.sum_congr rfl fun d _ => ?_)
  rw [dotGeneral_plain_apply' d0 hd0]
  rfl

/-! ## Eight matrices joined along the columns -/

open Cert.Spec in
/-- One piece of a column-wise concatenation of matrices of one height `B`: where the column lies in piece `k`'s span
    `[pre, pre + r)`, the joined matrix reads that piece at the column less `pre`. -/
theorem concatenate_cols_piece {B T : Nat} (xs : List ((s : Shape) × (s.Idx → EReal)))
    (h : Shape.Concatenates (xs.map (·.1)) ⟨2, ![B, T]⟩ (1 : Fin 2)) (j : (⟨2, ![B, T]⟩ : Shape).Idx)
    (k : Nat) (hk : k < xs.length) (r : Nat) (x₁ : Mat B r) (hxk : xs[k] = ⟨⟨2, ![B, r]⟩, x₁⟩) (pre : Nat)
    (hpre : (((xs.take k).map (·.1)).map fun s => if h : s.rank = (⟨2, ![B, T]⟩ : Shape).rank then s.size ((1 : Fin 2).cast h.symm) else 0).sum = pre)
    (hlo : pre ≤ (j 1).val) (hhi : (j 1).val < pre + r) :
    concatenate ⟨2, ![B, T]⟩ (1 : Fin 2) xs h j = x₁ (ix2 (j 0) ⟨(j 1).val - pre, by omega⟩) :=
  concatenate_apply_piece (1 : Fin 2) xs h j k hk ⟨2, ![B, r]⟩ x₁ hxk rfl pre hpre
    (ix2 (j 0) ⟨(j 1).val - pre, by omega⟩)
    (fun b hb => by
      match b with
      | ⟨0, _⟩ => rfl
      | ⟨1, _⟩ => exact absurd rfl hb)
    (by show pre + ((j 1).val - pre) = (j 1).val; omega)

open Cert.Spec in
/-- The host's concatenation of eight matrices of widths 256, 384, …, 1152 along the columns is `Spec.joined`. -/
theorem concatenate8_eq {B : Nat} (o0 : Mat B 256) (o1 : Mat B 384) (o2 : Mat B 512) (o3 : Mat B 640) (o4 : Mat B 768)
    (o5 : Mat B 896) (o6 : Mat B 1024) (o7 : Mat B 1152)
    (h : Shape.Concatenates (([⟨⟨2, ![B, 256]⟩, o0⟩, ⟨⟨2, ![B, 384]⟩, o1⟩, ⟨⟨2, ![B, 512]⟩, o2⟩, ⟨⟨2, ![B, 640]⟩, o3⟩,
        ⟨⟨2, ![B, 768]⟩, o4⟩, ⟨⟨2, ![B, 896]⟩, o5⟩, ⟨⟨2, ![B, 1024]⟩, o6⟩, ⟨⟨2, ![B, 1152]⟩, o7⟩] :
          List ((s : Shape) × (s.Idx → EReal))).map (·.1)) ⟨2, ![B, 5632]⟩ (1 : Fin 2)) :
    concatenate ⟨2, ![B, 5632]⟩ (1 : Fin 2) [⟨⟨2, ![B, 256]⟩, o0⟩, ⟨⟨2, ![B, 384]⟩, o1⟩, ⟨⟨2, ![B, 512]⟩, o2⟩,
        ⟨⟨2, ![B, 640]⟩, o3⟩, ⟨⟨2, ![B, 768]⟩, o4⟩, ⟨⟨2, ![B, 896]⟩, o5⟩, ⟨⟨2, ![B, 1024]⟩, o6⟩, ⟨⟨2, ![B, 1152]⟩, o7⟩] h
      = joined o0 o1 o2 o3 o4 o5 o6 o7 := by
  funext j
  have hj : (j 1).val < 5632 := idx2_lt1 j
  show _ = joinedAt o0 o1 o2 o3 o4 o5 o6 o7 (j 0) (j 1).val
  unfold joinedAt
  split_ifs with h0 h1 h2 h3 h4 h5 h6
  · exact concatenate_cols_piece _ h j 0 (by simp) 256 o0 rfl 0 rfl (by omega) (by omega)
  · exact concatenate_cols_piece _ h j 1 (by simp) 384 o1 rfl 256 rfl (by omega) (by omega)
  · exact concatenate_cols_piece _ h j 2 (by simp) 512 o2 rfl 640 rfl (by omega) (by omega)
  · exact concatenate_cols_piece _ h j 3 (by simp) 640 o3 rfl 1152 rfl (by omega) (by omega)
  · exact concatenate_cols_piece _ h j 4 (by simp) 768 o4 rfl 1792 rfl (by omega) (by omega)
  · exact concatenate_cols_piece _ h j 5 (by simp) 896 o5 rfl 2560 rfl (by omega) (by omega)
  · exact concatenate_cols_piece _ h j 6 (by simp) 1024 o6 rfl 3456 rfl (by omega) (by omega)
  · exact concatenate_cols_piece _ h j 7 (by simp) 1152 o7 rfl 4480 rfl (by omega) (by omega)

/-! ## From the entries to the whole layer -/

open Cert.Spec in
/-- An output element computed from entries that ARE the argument arrays' entries (the mixed vector from row `b` of
    the batch, the weights and biases entry by entry, the second weights' column `q`) is the layer at `(b, q)`. -/
theorem unit_eq_layer {B E D H R : Nat} (a0 : Mat B E) (a1 : Mat E D) (w1 : Mat D H) (b1 : Row H) (w2 : Mat H R)
    (b2 : Row R) (x : Fin D → EReal) (W1 : Fin D → Fin H → EReal) (B1 : Fin H → EReal) (W2 : Fin H → EReal)
    (B2 : EReal) (b : Fin B) (q : Fin R) (hx : ∀ d, x d = ∑ e : Fin E, a0 (ix2 b e) * a1 (ix2 e d))
    (hW1 : ∀ d k, W1 d k = w1 (ix2 d k)) (hB1 : ∀ k, B1 k = b1 (ix1 k)) (hW2 : ∀ k, W2 k = w2 (ix2 k q))
    (hB2 : B2 = b2 (ix1 q)) :
    Spec.unit x W1 B1 W2 B2 = Spec.layer a0 a1 w1 b1 w2 b2 (ix2 b q) := by
  obtain rfl : x = fun d => ∑ e : Fin E, a0 (ix2 b e) * a1 (ix2 e d) := funext hx
  obtain rfl : W1 = fun d k => w1 (ix2 d k) := funext fun d => funext fun k => hW1 d k
  obtain rfl : B1 = fun k => b1 (ix1 k) := funext hB1
  obtain rfl : W2 = fun k => w2 (ix2 k q) := funext hW2
  subst hB2
  rfl

end Cert.Dense

end
-- ==== Proof.KernelPay.lean ====
/-
  The kernel body's arithmetic, read at an index: the block's mixed vectors `x = ew_block · ev`, and each layer's
  stored block as `Spec.unit` of the loaded operands' entries.  Three of the eight layers are cut by the printed
  body into two or three terms (first stage / rectifier's zero / rest; or product / bias / rest); composed, they are
  the same three stages as the others.
-/
import proofs.«159795_j68831145886300_2_alg».proof.Proof.Gen.KernelIdeal.Skeleton
import proofs.«159795_j68831145886300_2_alg».proof.Proof.LibDense

noncomputable section

namespace Cert.KernelIdeal.Pay

open Cert.KernelIdeal Cert.KernelIdeal.Gen Idealize.ShloMosaic Idealize.ShloMosaic.ValueIdx

/-- The mixed vector of row `p` of the block: `∑ e, ew (p, e) · ev (e, d)` (the rounding to bf16 is the identity). -/
theorem mixed_apply (v0 : FVec Ideal S256x16 .f32) (v1 : FVec Ideal S16x64 .f32) (p : Fin 256) (d : Fin 64) :
    (k0_pay1 v0 v1 : FVec Ideal S256x64 .bf16) (ix2 p d) = ∑ e : Fin 16, v0 (ix2 p e) * v1 (ix2 e d) :=
  Cert.Dense.matmul_plain_apply _ rfl (some .fp32) v0 v1 p d

/-- Layer 0's stored block (hidden size 512, 256 outputs) at row `p`, column `q`. -/
theorem out0_apply (v0 : FVec Ideal S256x16 .f32) (v1 : FVec Ideal S16x64 .f32) (w1 : FVec Ideal S64x512 .bf16) (b1 : FVec Ideal S1x512 .f32) (w2 : FVec Ideal S512x256 .bf16) (b2 : FVec Ideal S1x256 .f32) (p : Fin 256) (q : Fin 256) :
    (k0_pay2 v0 v1 w1 b1 w2 b2 : FVec Ideal S256x256 .f32) (ix2 p q)
      = Spec.unit (fun d => (k0_pay1 (F := Ideal) v0 v1) (ix2 p d)) (fun d k => w1 (ix2 d k)) (fun k => b1 (ix2 (0 : Fin 1) k))
          (fun k => w2 (ix2 k q)) (b2 (ix2 (0 : Fin 1) q)) :=
  Cert.Dense.kernel_unit _ rfl _ rfl (k0_pay1 (F := Ideal) v0 v1) w1 _ b1 _ _ _ w2 _ b2 _ _ p q

/-- Layer 1's stored block (hidden size 768, 384 outputs) at row `p`, column `q`. -/
theorem out1_apply (v0 : FVec Ideal S256x16 .f32) (v1 : FVec Ideal S16x64 .f32) (w1 : FVec Ideal S64x768 .bf16) (b1 : FVec Ideal S1x768 .f32) (w2 : FVec Ideal S768x384 .bf16) (b2 : FVec Ideal S1x384 .f32) (p : Fin 256) (q : Fin 384) :
    (k0_pay5 (k0_pay3 v0 v1 w1 b1) k0_pay4 w2 b2 : FVec Ideal S256x384 .f32) (ix2 p q)
      = Spec.unit (fun d => (k0_pay1 (F := Ideal) v0 v1) (ix2 p d)) (fun d k => w1 (ix2 d k)) (fun k => b1 (ix2 (0 : Fin 1) k))
          (fun k => w2 (ix2 k q)) (b2 (ix2 (0 : Fin 1) q)) :=
  Cert.Dense.kernel_unit _ rfl _ rfl (k0_pay1 (F := Ideal) v0 v1) w1 _ b1 _ _ _ w2 _ b2 _ _ p q

/-- Layer 2's stored block (hidden size 1024, 512 outputs) at row `p`, column `q`. -/
theorem out2_apply (x : FVec Ideal S256x64 .bf16) (w1 : FVec Ideal S64x1024 .bf16) (b1 : FVec Ideal S1x1024 .f32) (w2 : FVec Ideal S1024x512 .bf16) (b2 : FVec Ideal S1x512 .f32) (p : Fin 256) (q : Fin 512) :
    (k0_pay6 x w1 b1 w2 b2 : FVec Ideal S256x512 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

/-- Layer 3's stored block (hidden size 1280, 640 outputs) at row `p`, column `q`. -/
theorem out3_apply (x : FVec Ideal S256x64 .bf16) (w1 : FVec Ideal S64x1280 .bf16) (b1 : FVec Ideal S1x1280 .f32) (w2 : FVec Ideal S1280x640 .bf16) (b2 : FVec Ideal S1x640 .f32) (p : Fin 256) (q : Fin 640) :
    (k0_pay7 x w1 b1 w2 b2 : FVec Ideal S256x640 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

/-- Layer 4's stored block (hidden size 1536, 768 outputs) at row `p`, column `q`. -/
theorem out4_apply (x : FVec Ideal S256x64 .bf16) (w1 : FVec Ideal S64x1536 .bf16) (b1 : FVec Ideal S1x1536 .f32) (w2 : FVec Ideal S1536x768 .bf16) (b2 : FVec Ideal S1x768 .f32) (p : Fin 256) (q : Fin 768) :
    (k0_pay10 (k0_pay8 x w1 b1 w2) (k0_pay9 b2) : FVec Ideal S256x768 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

/-- Layer 5's stored block (hidden size 1792, 896 outputs) at row `p`, column `q`. -/
theorem out5_apply (x : FVec Ideal S256x64 .bf16) (w1 : FVec Ideal S64x1792 .bf16) (b1 : FVec Ideal S1x1792 .f32) (w2 : FVec Ideal S1792x896 .bf16) (b2 : FVec Ideal S1x896 .f32) (p : Fin 256) (q : Fin 896) :
    (k0_pay11 x w1 b1 w2 b2 : FVec Ideal S256x896 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

/-- Layer 6's stored block (hidden size 2048, 1024 outputs) at row `p`, column `q`. -/
theorem out6_apply (x : FVec Ideal S256x64 .bf16) (w1 : FVec Ideal S64x2048 .bf16) (b1 : FVec Ideal S1x2048 .f32) (w2 : FVec Ideal S2048x1024 .bf16) (b2 : FVec Ideal S1x1024 .f32) (p : Fin 256) (q : Fin 1024) :
    (k0_pay14 (k0_pay12 x w1 b1) k0_pay13 w2 b2 : FVec Ideal S256x1024 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

/-- Layer 7's stored block (hidden size 2304, 1152 outputs) at row `p`, column `q`. -/
theorem out7_apply (x : FVec Ideal S256x64 .bf16) (w1 : FVec Ideal S64x2304 .bf16) (b1 : FVec Ideal S1x2304 .f32) (w2 : FVec Ideal S2304x1152 .bf16) (b2 : FVec Ideal S1x1152 .f32) (p : Fin 256) (q : Fin 1152) :
    (k0_pay15 x w1 b1 w2 b2 : FVec Ideal S256x1152 .f32) (ix2 p q)
      = Spec.unit (fun d => x (ix2 p d)) (fun d k => w1 (ix2 d k)) (fun k => b1 (ix2 (0 : Fin 1) k))
          (fun k => w2 (ix2 k q)) (b2 (ix2 (0 : Fin 1) q)) :=
  Cert.Dense.kernel_unit _ rfl _ rfl x w1 _ b1 _ _ _ w2 _ b2 _ _ p q

end Cert.KernelIdeal.Pay

end
-- ==== Proof.BlocksIn.lean ====
/-
  What the kernel's first two windows hold at a grid point: rows `256·t … 256·t + 255` of the batch of weights, and the whole table of expert vectors.
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 0's block index at point `t` is `(t, 0)`: the grid walks the batch in blocks of 256 rows. -/
theorem idx0 : ∀ t : Fin cfg0.N, win0_0.index t (0 : Fin 2) = t.val ∧ win0_0.index t (1 : Fin 2) = 0 :=
  (by decide +kernel : ∀ t : Fin grid0.N, _)

/-- Window 1's block index is `(0, 0)` at every grid point: its one block is its whole array. -/
theorem idx1 : ∀ t : Fin cfg0.N, win0_1.index t (0 : Fin 2) = 0 ∧ win0_1.index t (1 : Fin 2) = 0 :=
  (by decide +kernel : ∀ t : Fin grid0.N, _)

/-- Window 0's block at point `t`, read at `(p, e)`, is the batch of weights at row `256·t + p`. -/
theorem blk0 (c : Dev nD) (t : Fin cfg0.N) (p : Fin 256) (e : Fin 16) (h : t.val * 256 + p.val < 16384) :
    (iblk m c 0 t : Vec Ideal S256x16 .f32) (ix2 p e) = m ((c : Thread nD τ).loc main_arg0) (ix2 ⟨t.val * 256 + p.val, h⟩ e) := by
  unfold iblk
  rw [View.read_apply]
  show V m c main_arg0 _ = _
  rw [V_main_arg0]
  refine congrArg _ (funext fun a => Fin.ext ?_)
  match a with
  | ⟨0, _⟩ => show win0_0.index t 0 * 256 + 1 * p.val = t.val * 256 + p.val; rw [(idx0 t).1]; omega
  | ⟨1, _⟩ => show win0_0.index t 1 * 16 + 1 * e.val = e.val; rw [(idx0 t).2]; omega

/-- Window 1's block at any point is the whole table of expert vectors. -/
theorem blk1 (c : Dev nD) (t : Fin cfg0.N) (e : Fin 16) (d : Fin 64) :
    (iblk m c 1 t : Vec Ideal S16x64 .f32) (ix2 e d) = m ((c : Thread nD τ).loc main_arg1) (ix2 e d) := by
  unfold iblk
  rw [View.read_apply]
  show V m c main_arg1 _ = _
  rw [V_main_arg1]
  refine congrArg _ (funext fun a => Fin.ext ?_)
  match a with
  | ⟨0, _⟩ => show win0_1.index t 0 * 16 + 1 * e.val = e.val; rw [(idx1 t).1]; omega
  | ⟨1, _⟩ => show win0_1.index t 1 * 64 + 1 * d.val = d.val; rw [(idx1 t).2]; omega

end Cert.KernelIdeal.Blocks

end
-- ==== Proof.BlocksL0.lean ====
/-
  What the kernel's four windows of layer 0 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 2's block index is `(0, 0)` at every grid point: its one block is its whole array. -/
theorem idx2 : ∀ t : Fin cfg0.N, win0_2.index t (0 : Fin 2) = 0 ∧ win0_2.index t (1 : Fin 2) = 0 :=
  (by decide +kernel : ∀ t : Fin grid0.N, _)

/-- The array window 2 stages — argument 2 rounded to bf16 by the host — is, as extended reals, the argument. -/
theorem V_v0 (c : Dev nD) : (V m c main_v0 : S64x512.Idx → EReal) = m ((c : Thread nD τ).loc main_arg2) := by
  dsimp only [Gen.V, Gen.hostOps0]; after_results; rfl

/-- Window 2's block at any point, read at `(i, j)`, is argument 2 at `(i, j)`. -/
theorem blk2 (c : Dev nD) (t : Fin cfg0.N) (i : Fin 64) (j : Fin 512) :
    (iblk m c 2 t : Vec Ideal S64x512 .bf16) (ix2 i j) = m ((c : Thread nD τ).loc main_arg2) (ix2 i j) := by
  unfold iblk
  rw [View.read_apply]
  show V m c main_v0 _ = _
  rw [V_v0]
  refine congrArg _ (funext fun a => Fin.ext ?_)
  match a with
  | ⟨0, _⟩ => show win0_2.index t 0 * 64 + 1 * i.val = i.val; rw [(idx2 t).1]; omega
  | ⟨1, _⟩ => show win0_2.index t 1 * 512 + 1 * j.val = j.val; rw [(idx2 t).2]; omega

/-- Window 3's block index is `(0, 0)` at every grid point: its one block is its whole array. -/
theorem idx3 : ∀ t : Fin cfg0.N, win0_3.index t (0 : Fin 2) = 0 ∧ win0_3.index t (1 : Fin 2) = 0 :=
  (by decide +kernel : ∀ t : Fin grid0.N, _)

/-- The array window 3 stages is argument 3 reshaped from `[512]` to `[1, 512]` by the host. -/
theorem V_v16 (c : Dev nD) : (V m c main_v16 : S1x512.Idx → EReal)
    = shapeCast S1x512 (m ((c : Thread nD τ).loc main_arg3)) shapeCasts_S512_S1x512 := by
  dsimp only [Gen.V, Gen.hostOps0]; after_results; rfl

/-- Window 3's block at any point, read at `(0, j)`, is argument 3 at `j`. -/
theorem blk3 (c : Dev nD) (t : Fin cfg0.N) (j : Fin 512) :
    (iblk m c 3 t : Vec Ideal S1x512 .f32) (ix2 (0 : Fin 1) j) = m ((c : Thread nD τ).loc main_arg3) (ix1 j) := by
  unfold iblk
  rw [View.read_apply]
  show V m c main_v16 _ = _
  rw [V_v16]
  have e : ((cfg0.win 3).blk t).view.emb (ix2 (0 : Fin 1) j) = (ix2 (0 : Fin 1) j : S1x512.Idx) :=
    funext fun a => Fin.ext (by
      match a with
      | ⟨0, _⟩ => show win0_3.index t 0 * 1 + 1 * 0 = 0; rw [(idx3 t).1]
      | ⟨1, _⟩ => show win0_3.index t 1 * 512 + 1 * j.val = j.val; rw [(idx3 t).2]; omega)
  rw [e]
  exact shapeCast_a_1a_apply _ _ (0 : Fin 1) j

/-- Window 4's block index is `(0, 0)` at every grid point: its one block is its whole array. -/
theorem idx4 : ∀ t : Fin cfg0.N, win0_4.index t (0 : Fin 2) = 0 ∧ win0_4.index t (1 : Fin 2) = 0 :=
  (by decide +kernel : ∀ t : Fin grid0.N, _)

/-- The array window 4 stages — argument 4 rounded to bf16 by the host — is, as extended reals, the argument. -/
theorem V_v8 (c : Dev nD) : (V m c main_v8 : S512x256.Idx → EReal) = m ((c : Thread nD τ).loc main_arg4) := by
  dsimp only [Gen.V, Gen.hostOps0]; after_results; rfl

/-- Window 4's block at any point, read at `(i, j)`, is argument 4 at `(i, j)`. -/
theorem blk4 (c : Dev nD) (t : Fin cfg0.N) (i : Fin 512) (j : Fin 256) :
    (iblk m c 4 t : Vec Ideal S512x256 .bf16) (ix2 i j) = m ((c : Thread nD τ).loc main_arg4) (ix2 i j) := by
  unfold iblk
  rw [View.read_apply]
  show V m c main_v8 _ = _
  rw [V_v8]
  refine congrArg _ (funext fun a => Fin.ext ?_)
  match a with
  | ⟨0, _⟩ => show win0_4.index t 0 * 512 + 1 * i.val = i.val; rw [(idx4 t).1]; omega
  | ⟨1, _⟩ => show win0_4.index t 1 * 256 + 1 * j.val = j.val; rw [(idx4 t).2]; omega

/-- Window 5's block index is `(0, 0)` at every grid point: its one block is its whole array. -/
theorem idx5 : ∀ t : Fin cfg0.N, win0_5.index t (0 : Fin 2) = 0 ∧ win0_5.index t (1 : Fin 2) = 0 :=
  (by decide +kernel : ∀ t : Fin grid0.N, _)

/-- The array window 5 stages is argument 5 reshaped from `[256]` to `[1, 256]` by the host. -/
theorem V_v24 (c : Dev nD) : (V m c main_v24 : S1x256.Idx → EReal)
    = shapeCast S1x256 (m ((c : Thread nD τ).loc main_arg5)) shapeCasts_S256_S1x256 := by
  dsimp only [Gen.V, Gen.hostOps0]; after_results; rfl

/-- Window 5's block at any point, read at `(0, j)`, is argument 5 at `j`. -/
theorem blk5 (c : Dev nD) (t : Fin cfg0.N) (j : Fin 256) :
    (iblk m c 5 t : Vec Ideal S1x256 .f32) (ix2 (0 : Fin 1) j) = m ((c : Thread nD τ).loc main_arg5) (ix1 j) := by
  unfold iblk
  rw [View.read_apply]
  show V m c main_v24 _ = _
  rw [V_v24]
  have e : ((cfg0.win 5).blk t).view.emb (ix2 (0 : Fin 1) j) = (ix2 (0 : Fin 1) j : S1x256.Idx) :=
    funext fun a => Fin.ext (by
      match a with
      | ⟨0, _⟩ => show win0_5.index t 0 * 1 + 1 * 0 = 0; rw [(idx5 t).1]
      | ⟨1, _⟩ => show win0_5.index t 1 * 256 + 1 * j.val = j.val; rw [(idx5 t).2]; omega)
  rw [e]
  exact shapeCast_a_1a_apply _ _ (0 : Fin 1) j

end Cert.KernelIdeal.Blocks

end
-- ==== Proof.BlocksL1.lean ====
/-
  What the kernel's four windows of layer 1 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 6's block index is `(0, 0)` at every grid point: its one block is its whole array. -/
theorem idx6 : ∀ t : Fin cfg0.N, win0_6.index t (0 : Fin 2) = 0 ∧ win0_6.index t (1 : Fin 2) = 0 :=
  (by decide +kernel : ∀ t : Fin grid0.N, _)

/-- The array window 6 stages — argument 6 rounded to bf16 by the host — is, as extended reals, the argument. -/
theorem V_v1 (c : Dev nD) : (V m c main_v1 : S64x768.Idx → EReal) = m ((c : Thread nD τ).loc main_arg6) := by
  dsimp only [Gen.V, Gen.hostOps0]; after_results; rfl

/-- Window 6's block at any point, read at `(i, j)`, is argument 6 at `(i, j)`. -/
theorem blk6 (c : Dev nD) (t : Fin cfg0.N) (i : Fin 64) (j : Fin 768) :
    (iblk m c 6 t : Vec Ideal S64x768 .bf16) (ix2 i j) = m ((c : Thread nD τ).loc main_arg6) (ix2 i j) := by
  unfold iblk
  rw [View.read_apply]
  show V m c main_v1 _ = _
  rw [V_v1]
  refine congrArg _ (funext fun a => Fin.ext ?_)
  match a with
  | ⟨0, _⟩ => show win0_6.index t 0 * 64 + 1 * i.val = i.val; rw [(idx6 t).1]; omega
  | ⟨1, _⟩ => show win0_6.index t 1 * 768 + 1 * j.val = j.val; rw [(idx6 t).2]; omega

/-- Window 7's block index is `(0, 0)` at every grid point: its one block is its whole array. -/
theorem idx7 : ∀ t : Fin cfg0.N, win0_7.index t (0 : Fin 2) = 0 ∧ win0_7.index t (1 : Fin 2) = 0 :=
  (by decide +kernel : ∀ t : Fin grid0.N, _)

/-- The array window 7 stages is argument 7 reshaped from `[768]` to `[1, 768]` by the host. -/
theorem V_v17 (c : Dev nD) : (V m c main_v17 : S1x768.Idx → EReal)
    = shapeCast S1x768 (m ((c : Thread nD τ).loc main_arg7)) shapeCasts_S768_S1x768 := by
  dsimp only [Gen.V, Gen.hostOps0]; after_results; rfl

/-- Window 7's block at any point, read at `(0, j)`, is argument 7 at `j`. -/
theorem blk7 (c : Dev nD) (t : Fin cfg0.N) (j : Fin 768) :
    (iblk m c 7 t : Vec Ideal S1x768 .f32) (ix2 (0 : Fin 1) j) = m ((c : Thread nD τ).loc main_arg7) (ix1 j) := by
  unfold iblk
  rw [View.read_apply]
  show V m c main_v17 _ = _
  rw [V_v17]
  have e : ((cfg0.win 7).blk t).view.emb (ix2 (0 : Fin 1) j) = (ix2 (0 : Fin 1) j : S1x768.Idx) :=
    funext fun a => Fin.ext (by
      match a with
      | ⟨0, _⟩ => show win0_7.index t 0 * 1 + 1 * 0 = 0; rw [(idx7 t).1]
      | ⟨1, _⟩ => show win0_7.index t 1 * 768 + 1 * j.val = j.val; rw [(idx7 t).2]; omega)
  rw [e]
  exact shapeCast_a_1a_apply _ _ (0 : Fin 1) j

/-- Window 8's block index is `(0, 0)` at every grid point: its one block is its whole array. -/
theorem idx8 : ∀ t : Fin cfg0.N, win0_8.index t (0 : Fin 2) = 0 ∧ win0_8.index t (1 : Fin 2) = 0 :=
  (by decide +kernel : ∀ t : Fin grid0.N, _)

/-- The array window 8 stages — argument 8 rounded to bf16 by the host — is, as extended reals, the argument. -/
theorem V_v9 (c : Dev nD) : (V m c main_v9 : S768x384.Idx → EReal) = m ((c : Thread nD τ).loc main_arg8) := by
  dsimp only [Gen.V, Gen.hostOps0]; after_results; rfl

/-- Window 8's block at any point, read at `(i, j)`, is argument 8 at `(i, j)`. -/
theorem blk8 (c : Dev nD) (t : Fin cfg0.N) (i : Fin 768) (j : Fin 384) :
    (iblk m c 8 t : Vec Ideal S768x384 .bf16) (ix2 i j) = m ((c : Thread nD τ).loc main_arg8) (ix2 i j) := by
  unfold iblk
  rw [View.read_apply]
  show V m c main_v9 _ = _
  rw [V_v9]
  refine congrArg _ (funext fun a => Fin.ext ?_)
  match a with
  | ⟨0, _⟩ => show win0_8.index t 0 * 768 + 1 * i.val = i.val; rw [(idx8 t).1]; omega
  | ⟨1, _⟩ => show win0_8.index t 1 * 384 + 1 * j.val = j.val; rw [(idx8 t).2]; omega

/-- Window 9's block index is `(0, 0)` at every grid point: its one block is its whole array. -/
theorem idx9 : ∀ t : Fin cfg0.N, win0_9.index t (0 : Fin 2) = 0 ∧ win0_9.index t (1 : Fin 2) = 0 :=
  (by decide +kernel : ∀ t : Fin grid0.N, _)

/-- The array window 9 stages is argument 9 reshaped from `[384]` to `[1, 384]` by the host. -/
theorem V_v25 (c : Dev nD) : (V m c main_v25 : S1x384.Idx → EReal)
    = shapeCast S1x384 (m ((c : Thread nD τ).loc main_arg9)) shapeCasts_S384_S1x384 := by
  dsimp only [Gen.V, Gen.hostOps0]; after_results; rfl

/-- Window 9's block at any point, read at `(0, j)`, is argument 9 at `j`. -/
theorem blk9 (c : Dev nD) (t : Fin cfg0.N) (j : Fin 384) :
    (iblk m c 9 t : Vec Ideal S1x384 .f32) (ix2 (0 : Fin 1) j) = m ((c : Thread nD τ).loc main_arg9) (ix1 j) := by
  unfold iblk
  rw [View.read_apply]
  show V m c main_v25 _ = _
  rw [V_v25]
  have e : ((cfg0.win 9).blk t).view.emb (ix2 (0 : Fin 1) j) = (ix2 (0 : Fin 1) j : S1x384.Idx) :=
    funext fun a => Fin.ext (by
      match a with
      | ⟨0, _⟩ => show win0_9.index t 0 * 1 + 1 * 0 = 0; rw [(idx9 t).1]
      | ⟨1, _⟩ => show win0_9.index t 1 * 384 + 1 * j.val = j.val; rw [(idx9 t).2]; omega)
  rw [e]
  exact shapeCast_a_1a_apply _ _ (0 : Fin 1) j

end Cert.KernelIdeal.Blocks

end
-- ==== Proof.BlocksL2.lean ====
/-
  What the kernel's four windows of layer 2 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 10's block index is `(0, 0)` at every grid point: its one block is its whole array. -/
theorem idx10 : ∀ t : Fin cfg0.N, win0_10.index t (0 : Fin 2) = 0 ∧ win0_10.index t (1 : Fin 2) = 0 :=
  (by decide +kernel : ∀ t : Fin grid0.N, _)

/-- The array window 10 stages — argument 10 rounded to bf16 by the host — is, as extended reals, the argument. -/
theorem V_v2 (c : Dev nD) : (V m c main_v2 : S64x1024.Idx → EReal) = m ((c : Thread nD τ).loc main_arg10) := by
  dsimp only [Gen.V, Gen.hostOps0]; after_results; rfl

/-- Window 10's block at any point, read at `(i, j)`, is argument 10 at `(i, j)`. -/
theorem blk10 (c : Dev nD) (t : Fin cfg0.N) (i : Fin 64) (j : Fin 1024) :
    (iblk m c 10 t : Vec Ideal S64x1024 .bf16) (ix2 i j) = m ((c : Thread nD τ).loc main_arg10) (ix2 i j) := by
  unfold iblk
  rw [View.read_apply]
  show V m c main_v2 _ = _
  rw [V_v2]
  refine congrArg _ (funext fun a => Fin.ext ?_)
  match a with
  | ⟨0, _⟩ => show win0_10.index t 0 * 64 + 1 * i.val = i.val; rw [(idx10 t).1]; omega
  | ⟨1, _⟩ => show win0_10.index t 1 * 1024 + 1 * j.val = j.val; rw [(idx10 t).2]; omega

/-- Window 11's block index is `(0, 0)` at every grid point: its one block is its whole array. -/
theorem idx11 : ∀ t : Fin cfg0.N, win0_11.index t (0 : Fin 2) = 0 ∧ win0_11.index t (1 : Fin 2) = 0 :=
  (by decide +kernel : ∀ t : Fin grid0.N, _)

/-- The array window 11 stages is argument 11 reshaped from `[1024]` to `[1, 1024]` by the host. -/
theorem V_v18 (c : Dev nD) : (V m c main_v18 : S1x1024.Idx → EReal)
    = shapeCast S1x1024 (m ((c : Thread nD τ).loc main_arg11)) shapeCasts_S1024_S1x1024 := by
  dsimp only [Gen.V, Gen.hostOps0]; after_results; rfl

/-- Window 11's block at any point, read at `(0, j)`, is argument 11 at `j`. -/
theorem blk11 (c : Dev nD) (t : Fin cfg0.N) (j : Fin 1024) :
    (iblk m c 11 t : Vec Ideal S1x1024 .f32) (ix2 (0 : Fin 1) j) = m ((c : Thread nD τ).loc main_arg11) (ix1 j) := by
  unfold iblk
  rw [View.read_apply]
  show V m c main_v18 _ = _
  rw [V_v18]
  have e : ((cfg0.win 11).blk t).view.emb (ix2 (0 : Fin 1) j) = (ix2 (0 : Fin 1) j : S1x1024.Idx) :=
    funext fun a => Fin.ext (by
      match a with
      | ⟨0, _⟩ => show win0_11.index t 0 * 1 + 1 * 0 = 0; rw [(idx11 t).1]
      | ⟨1, _⟩ => show win0_11.index t 1 * 1024 + 1 * j.val = j.val; rw [(idx11 t).2]; omega)
  rw [e]
  exact shapeCast_a_1a_apply _ _ (0 : Fin 1) j

/-- Window 12's block index is `(0, 0)` at every grid point: its one block is its whole array. -/
theorem idx12 : ∀ t : Fin cfg0.N, win0_12.index t (0 : Fin 2) = 0 ∧ win0_12.index t (1 : Fin 2) = 0 :=
  (by decide +kernel : ∀ t : Fin grid0.N, _)

/-- The array window 12 stages — argument 12 rounded to bf16 by the host — is, as extended reals, the argument. -/
theorem V_v10 (c : Dev nD) : (V m c main_v10 : S1024x512.Idx → EReal) = m ((c : Thread nD τ).loc main_arg12) := by
  dsimp only [Gen.V, Gen.hostOps0]; after_results; rfl

/-- Window 12's block at any point, read at `(i, j)`, is argument 12 at `(i, j)`. -/
theorem blk12 (c : Dev nD) (t : Fin cfg0.N) (i : Fin 1024) (j : Fin 512) :
    (iblk m c 12 t : Vec Ideal S1024x512 .bf16) (ix2 i j) = m ((c : Thread nD τ).loc main_arg12) (ix2 i j) := by
  unfold iblk
  rw [View.read_apply]
  show V m c main_v10 _ = _
  rw [V_v10]
  refine congrArg _ (funext fun a => Fin.ext ?_)
  match a with
  | ⟨0, _⟩ => show win0_12.index t 0 * 1024 + 1 * i.val = i.val; rw [(idx12 t).1]; omega
  | ⟨1, _⟩ => show win0_12.index t 1 * 512 + 1 * j.val = j.val; rw [(idx12 t).2]; omega

/-- Window 13's block index is `(0, 0)` at every grid point: its one block is its whole array. -/
theorem idx13 : ∀ t : Fin cfg0.N, win0_13.index t (0 : Fin 2) = 0 ∧ win0_13.index t (1 : Fin 2) = 0 :=
  (by decide +kernel : ∀ t : Fin grid0.N, _)

/-- The array window 13 stages is argument 13 reshaped from `[512]` to `[1, 512]` by the host. -/
theorem V_v26 (c : Dev nD) : (V m c main_v26 : S1x512.Idx → EReal)
    = shapeCast S1x512 (m ((c : Thread nD τ).loc main_arg13)) shapeCasts_S512_S1x512 := by
  dsimp only [Gen.V, Gen.hostOps0]; after_results; rfl

/-- Window 13's block at any point, read at `(0, j)`, is argument 13 at `j`. -/
theorem blk13 (c : Dev nD) (t : Fin cfg0.N) (j : Fin 512) :
    (iblk m c 13 t : Vec Ideal S1x512 .f32) (ix2 (0 : Fin 1) j) = m ((c : Thread nD τ).loc main_arg13) (ix1 j) := by
  unfold iblk
  rw [View.read_apply]
  show V m c main_v26 _ = _
  rw [V_v26]
  have e : ((cfg0.win 13).blk t).view.emb (ix2 (0 : Fin 1) j) = (ix2 (0 : Fin 1) j : S1x512.Idx) :=
    funext fun a => Fin.ext (by
      match a with
      | ⟨0, _⟩ => show win0_13.index t 0 * 1 + 1 * 0 = 0; rw [(idx13 t).1]
      | ⟨1, _⟩ => show win0_13.index t 1 * 512 + 1 * j.val = j.val; rw [(idx13 t).2]; omega)
  rw [e]
  exact shapeCast_a_1a_apply _ _ (0 : Fin 1) j

end Cert.KernelIdeal.Blocks

end
-- ==== Proof.BlocksL3.lean ====
/-
  What the kernel's four windows of layer 3 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 14's block index is `(0, 0)` at every grid point: its one block is its whole array. -/
theorem idx14 : ∀ t : Fin cfg0.N, win0_14.index t (0 : Fin 2) = 0 ∧ win0_14.index t (1 : Fin 2) = 0 :=
  (by decide +kernel : ∀ t : Fin grid0.N, _)

/-- The array window 14 stages — argument 14 rounded to bf16 by the host — is, as extended reals, the argument. -/
theorem V_v3 (c : Dev nD) : (V m c main_v3 : S64x1280.Idx → EReal) = m ((c : Thread nD τ).loc main_arg14) := by
  dsimp only [Gen.V, Gen.hostOps0]; after_results; rfl

/-- Window 14's block at any point, read at `(i, j)`, is argument 14 at `(i, j)`. -/
theorem blk14 (c : Dev nD) (t : Fin cfg0.N) (i : Fin 64) (j : Fin 1280) :
    (iblk m c 14 t : Vec Ideal S64x1280 .bf16) (ix2 i j) = m ((c : Thread nD τ).loc main_arg14) (ix2 i j) := by
  unfold iblk
  rw [View.read_apply]
  show V m c main_v3 _ = _
  rw [V_v3]
  refine congrArg _ (funext fun a => Fin.ext ?_)
  match a with
  | ⟨0, _⟩ => show win0_14.index t 0 * 64 + 1 * i.val = i.val; rw [(idx14 t).1]; omega
  | ⟨1, _⟩ => show win0_14.index t 1 * 1280 + 1 * j.val = j.val; rw [(idx14 t).2]; omega

/-- Window 15's block index is `(0, 0)` at every grid point: its one block is its whole array. -/
theorem idx15 : ∀ t : Fin cfg0.N, win0_15.index t (0 : Fin 2) = 0 ∧ win0_15.index t (1 : Fin 2) = 0 :=
  (by decide +kernel : ∀ t : Fin grid0.N, _)

/-- The array window 15 stages is argument 15 reshaped from `[1280]` to `[1, 1280]` by the host. -/
theorem V_v19 (c : Dev nD) : (V m c main_v19 : S1x1280.Idx → EReal)
    = shapeCast S1x1280 (m ((c : Thread nD τ).loc main_arg15)) shapeCasts_S1280_S1x1280 := by
  dsimp only [Gen.V, Gen.hostOps0]; after_results; rfl

/-- Window 15's block at any point, read at `(0, j)`, is argument 15 at `j`. -/
theorem blk15 (c : Dev nD) (t : Fin cfg0.N) (j : Fin 1280) :
    (iblk m c 15 t : Vec Ideal S1x1280 .f32) (ix2 (0 : Fin 1) j) = m ((c : Thread nD τ).loc main_arg15) (ix1 j) := by
  unfold iblk
  rw [View.read_apply]
  show V m c main_v19 _ = _
  rw [V_v19]
  have e : ((cfg0.win 15).blk t).view.emb (ix2 (0 : Fin 1) j) = (ix2 (0 : Fin 1) j : S1x1280.Idx) :=
    funext fun a => Fin.ext (by
      match a with
      | ⟨0, _⟩ => show win0_15.index t 0 * 1 + 1 * 0 = 0; rw [(idx15 t).1]
      | ⟨1, _⟩ => show win0_15.index t 1 * 1280 + 1 * j.val = j.val; rw [(idx15 t).2]; omega)
  rw [e]
  exact shapeCast_a_1a_apply _ _ (0 : Fin 1) j

/-- Window 16's block index is `(0, 0)` at every grid point: its one block is its whole array. -/
theorem idx16 : ∀ t : Fin cfg0.N, win0_16.index t (0 : Fin 2) = 0 ∧ win0_16.index t (1 : Fin 2) = 0 :=
  (by decide +kernel : ∀ t : Fin grid0.N, _)

/-- The array window 16 stages — argument 16 rounded to bf16 by the host — is, as extended reals, the argument. -/
theorem V_v11 (c : Dev nD) : (V m c main_v11 : S1280x640.Idx → EReal) = m ((c : Thread nD τ).loc main_arg16) := by
  dsimp only [Gen.V, Gen.hostOps0]; after_results; rfl

/-- Window 16's block at any point, read at `(i, j)`, is argument 16 at `(i, j)`. -/
theorem blk16 (c : Dev nD) (t : Fin cfg0.N) (i : Fin 1280) (j : Fin 640) :
    (iblk m c 16 t : Vec Ideal S1280x640 .bf16) (ix2 i j) = m ((c : Thread nD τ).loc main_arg16) (ix2 i j) := by
  unfold iblk
  rw [View.read_apply]
  show V m c main_v11 _ = _
  rw [V_v11]
  refine congrArg _ (funext fun a => Fin.ext ?_)
  match a with
  | ⟨0, _⟩ => show win0_16.index t 0 * 1280 + 1 * i.val = i.val; rw [(idx16 t).1]; omega
  | ⟨1, _⟩ => show win0_16.index t 1 * 640 + 1 * j.val = j.val; rw [(idx16 t).2]; omega

/-- Window 17's block index is `(0, 0)` at every grid point: its one block is its whole array. -/
theorem idx17 : ∀ t : Fin cfg0.N, win0_17.index t (0 : Fin 2) = 0 ∧ win0_17.index t (1 : Fin 2) = 0 :=
  (by decide +kernel : ∀ t : Fin grid0.N, _)

/-- The array window 17 stages is argument 17 reshaped from `[640]` to `[1, 640]` by the host. -/
theorem V_v27 (c : Dev nD) : (V m c main_v27 : S1x640.Idx → EReal)
    = shapeCast S1x640 (m ((c : Thread nD τ).loc main_arg17)) shapeCasts_S640_S1x640 := by
  dsimp only [Gen.V, Gen.hostOps0]; after_results; rfl

/-- Window 17's block at any point, read at `(0, j)`, is argument 17 at `j`. -/
theorem blk17 (c : Dev nD) (t : Fin cfg0.N) (j : Fin 640) :
    (iblk m c 17 t : Vec Ideal S1x640 .f32) (ix2 (0 : Fin 1) j) = m ((c : Thread nD τ).loc main_arg17) (ix1 j) := by
  unfold iblk
  rw [View.read_apply]
  show V m c main_v27 _ = _
  rw [V_v27]
  have e : ((cfg0.win 17).blk t).view.emb (ix2 (0 : Fin 1) j) = (ix2 (0 : Fin 1) j : S1x640.Idx) :=
    funext fun a => Fin.ext (by
      match a with
      | ⟨0, _⟩ => show win0_17.index t 0 * 1 + 1 * 0 = 0; rw [(idx17 t).1]
      | ⟨1, _⟩ => show win0_17.index t 1 * 640 + 1 * j.val = j.val; rw [(idx17 t).2]; omega)
  rw [e]
  exact shapeCast_a_1a_apply _ _ (0 : Fin 1) j

end Cert.KernelIdeal.Blocks

end
-- ==== Proof.BlocksL4.lean ====
/-
  What the kernel's four windows of layer 4 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 18's block index is `(0, 0)` at every grid point: its one block is its whole array. -/
theorem idx18 : ∀ t : Fin cfg0.N, win0_18.index t (0 : Fin 2) = 0 ∧ win0_18.index t (1 : Fin 2) = 0 :=
  (by decide +kernel : ∀ t : Fin grid0.N, _)

/-- The array window 18 stages — argument 18 rounded to bf16 by the host — is, as extended reals, the argument. -/
theorem V_v4 (c : Dev nD) : (V m c main_v4 : S64x1536.Idx → EReal) = m ((c : Thread nD τ).loc main_arg18) := by
  dsimp only [Gen.V, Gen.hostOps0]; after_results; rfl

/-- Window 18's block at any point, read at `(i, j)`, is argument 18 at `(i, j)`. -/
theorem blk18 (c : Dev nD) (t : Fin cfg0.N) (i : Fin 64) (j : Fin 1536) :
    (iblk m c 18 t : Vec Ideal S64x1536 .bf16) (ix2 i j) = m ((c : Thread nD τ).loc main_arg18) (ix2 i j) := by
  unfold iblk
  rw [View.read_apply]
  show V m c main_v4 _ = _
  rw [V_v4]
  refine congrArg _ (funext fun a => Fin.ext ?_)
  match a with
  | ⟨0, _⟩ => show win0_18.index t 0 * 64 + 1 * i.val = i.val; rw [(idx18 t).1]; omega
  | ⟨1, _⟩ => show win0_18.index t 1 * 1536 + 1 * j.val = j.val; rw [(idx18 t).2]; omega

/-- Window 19's block index is `(0, 0)` at every grid point: its one block is its whole array. -/
theorem idx19 : ∀ t : Fin cfg0.N, win0_19.index t (0 : Fin 2) = 0 ∧ win0_19.index t (1 : Fin 2) = 0 :=
  (by decide +kernel : ∀ t : Fin grid0.N, _)

/-- The array window 19 stages is argument 19 reshaped from `[1536]` to `[1, 1536]` by the host. -/
theorem V_v20 (c : Dev nD) : (V m c main_v20 : S1x1536.Idx → EReal)
    = shapeCast S1x1536 (m ((c : Thread nD τ).loc main_arg19)) shapeCasts_S1536_S1x1536 := by
  dsimp only [Gen.V, Gen.hostOps0]; after_results; rfl

/-- Window 19's block at any point, read at `(0, j)`, is argument 19 at `j`. -/
theorem blk19 (c : Dev nD) (t : Fin cfg0.N) (j : Fin 1536) :
    (iblk m c 19 t : Vec Ideal S1x1536 .f32) (ix2 (0 : Fin 1) j) = m ((c : Thread nD τ).loc main_arg19) (ix1 j) := by
  unfold iblk
  rw [View.read_apply]
  show V m c main_v20 _ = _
  rw [V_v20]
  have e : ((cfg0.win 19).blk t).view.emb (ix2 (0 : Fin 1) j) = (ix2 (0 : Fin 1) j : S1x1536.Idx) :=
    funext fun a => Fin.ext (by
      match a with
      | ⟨0, _⟩ => show win0_19.index t 0 * 1 + 1 * 0 = 0; rw [(idx19 t).1]
      | ⟨1, _⟩ => show win0_19.index t 1 * 1536 + 1 * j.val = j.val; rw [(idx19 t).2]; omega)
  rw [e]
  exact shapeCast_a_1a_apply _ _ (0 : Fin 1) j

/-- Window 20's block index is `(0, 0)` at every grid point: its one block is its whole array. -/
theorem idx20 : ∀ t : Fin cfg0.N, win0_20.index t (0 : Fin 2) = 0 ∧ win0_20.index t (1 : Fin 2) = 0 :=
  (by decide +kernel : ∀ t : Fin grid0.N, _)

/-- The array window 20 stages — argument 20 rounded to bf16 by the host — is, as extended reals, the argument. -/
theorem V_v12 (c : Dev nD) : (V m c main_v12 : S1536x768.Idx → EReal) = m ((c : Thread nD τ).loc main_arg20) := by
  dsimp only [Gen.V, Gen.hostOps0]; after_results; rfl

/-- Window 20's block at any point, read at `(i, j)`, is argument 20 at `(i, j)`. -/
theorem blk20 (c : Dev nD) (t : Fin cfg0.N) (i : Fin 1536) (j : Fin 768) :
    (iblk m c 20 t : Vec Ideal S1536x768 .bf16) (ix2 i j) = m ((c : Thread nD τ).loc main_arg20) (ix2 i j) := by
  unfold iblk
  rw [View.read_apply]
  show V m c main_v12 _ = _
  rw [V_v12]
  refine congrArg _ (funext fun a => Fin.ext ?_)
  match a with
  | ⟨0, _⟩ => show win0_20.index t 0 * 1536 + 1 * i.val = i.val; rw [(idx20 t).1]; omega
  | ⟨1, _⟩ => show win0_20.index t 1 * 768 + 1 * j.val = j.val; rw [(idx20 t).2]; omega

/-- Window 21's block index is `(0, 0)` at every grid point: its one block is its whole array. -/
theorem idx21 : ∀ t : Fin cfg0.N, win0_21.index t (0 : Fin 2) = 0 ∧ win0_21.index t (1 : Fin 2) = 0 :=
  (by decide +kernel : ∀ t : Fin grid0.N, _)

/-- The array window 21 stages is argument 21 reshaped from `[768]` to `[1, 768]` by the host. -/
theorem V_v28 (c : Dev nD) : (V m c main_v28 : S1x768.Idx → EReal)
    = shapeCast S1x768 (m ((c : Thread nD τ).loc main_arg21)) shapeCasts_S768_S1x768 := by
  dsimp only [Gen.V, Gen.hostOps0]; after_results; rfl

/-- Window 21's block at any point, read at `(0, j)`, is argument 21 at `j`. -/
theorem blk21 (c : Dev nD) (t : Fin cfg0.N) (j : Fin 768) :
    (iblk m c 21 t : Vec Ideal S1x768 .f32) (ix2 (0 : Fin 1) j) = m ((c : Thread nD τ).loc main_arg21) (ix1 j) := by
  unfold iblk
  rw [View.read_apply]
  show V m c main_v28 _ = _
  rw [V_v28]
  have e : ((cfg0.win 21).blk t).view.emb (ix2 (0 : Fin 1) j) = (ix2 (0 : Fin 1) j : S1x768.Idx) :=
    funext fun a => Fin.ext (by
      match a with
      | ⟨0, _⟩ => show win0_21.index t 0 * 1 + 1 * 0 = 0; rw [(idx21 t).1]
      | ⟨1, _⟩ => show win0_21.index t 1 * 768 + 1 * j.val = j.val; rw [(idx21 t).2]; omega)
  rw [e]
  exact shapeCast_a_1a_apply _ _ (0 : Fin 1) j

end Cert.KernelIdeal.Blocks

end
-- ==== Proof.BlocksL5.lean ====
/-
  What the kernel's four windows of layer 5 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 22's block index is `(0, 0)` at every grid point: its one block is its whole array. -/
theorem idx22 : ∀ t : Fin cfg0.N, win0_22.index t (0 : Fin 2) = 0 ∧ win0_22.index t (1 : Fin 2) = 0 :=
  (by decide +kernel : ∀ t : Fin grid0.N, _)

/-- The array window 22 stages — argument 22 rounded to bf16 by the host — is, as extended reals, the argument. -/
theorem V_v5 (c : Dev nD) : (V m c main_v5 : S64x1792.Idx → EReal) = m ((c : Thread nD τ).loc main_arg22) := by
  dsimp only [Gen.V, Gen.hostOps0]; after_results; rfl

/-- Window 22's block at any point, read at `(i, j)`, is argument 22 at `(i, j)`. -/
theorem blk22 (c : Dev nD) (t : Fin cfg0.N) (i : Fin 64) (j : Fin 1792) :
    (iblk m c 22 t : Vec Ideal S64x1792 .bf16) (ix2 i j) = m ((c : Thread nD τ).loc main_arg22) (ix2 i j) := by
  unfold iblk
  rw [View.read_apply]
  show V m c main_v5 _ = _
  rw [V_v5]
  refine congrArg _ (funext fun a => Fin.ext ?_)
  match a with
  | ⟨0, _⟩ => show win0_22.index t 0 * 64 + 1 * i.val = i.val; rw [(idx22 t).1]; omega
  | ⟨1, _⟩ => show win0_22.index t 1 * 1792 + 1 * j.val = j.val; rw [(idx22 t).2]; omega

/-- Window 23's block index is `(0, 0)` at every grid point: its one block is its whole array. -/
theorem idx23 : ∀ t : Fin cfg0.N, win0_23.index t (0 : Fin 2) = 0 ∧ win0_23.index t (1 : Fin 2) = 0 :=
  (by decide +kernel : ∀ t : Fin grid0.N, _)

/-- The array window 23 stages is argument 23 reshaped from `[1792]` to `[1, 1792]` by the host. -/
theorem V_v21 (c : Dev nD) : (V m c main_v21 : S1x1792.Idx → EReal)
    = shapeCast S1x1792 (m ((c : Thread nD τ).loc main_arg23)) shapeCasts_S1792_S1x1792 := by
  dsimp only [Gen.V, Gen.hostOps0]; after_results; rfl

/-- Window 23's block at any point, read at `(0, j)`, is argument 23 at `j`. -/
theorem blk23 (c : Dev nD) (t : Fin cfg0.N) (j : Fin 1792) :
    (iblk m c 23 t : Vec Ideal S1x1792 .f32) (ix2 (0 : Fin 1) j) = m ((c : Thread nD τ).loc main_arg23) (ix1 j) := by
  unfold iblk
  rw [View.read_apply]
  show V m c main_v21 _ = _
  rw [V_v21]
  have e : ((cfg0.win 23).blk t).view.emb (ix2 (0 : Fin 1) j) = (ix2 (0 : Fin 1) j : S1x1792.Idx) :=
    funext fun a => Fin.ext (by
      match a with
      | ⟨0, _⟩ => show win0_23.index t 0 * 1 + 1 * 0 = 0; rw [(idx23 t).1]
      | ⟨1, _⟩ => show win0_23.index t 1 * 1792 + 1 * j.val = j.val; rw [(idx23 t).2]; omega)
  rw [e]
  exact shapeCast_a_1a_apply _ _ (0 : Fin 1) j

/-- Window 24's block index is `(0, 0)` at every grid point: its one block is its whole array. -/
theorem idx24 : ∀ t : Fin cfg0.N, win0_24.index t (0 : Fin 2) = 0 ∧ win0_24.index t (1 : Fin 2) = 0 :=
  (by decide +kernel : ∀ t : Fin grid0.N, _)

/-- The array window 24 stages — argument 24 rounded to bf16 by the host — is, as extended reals, the argument. -/
theorem V_v13 (c : Dev nD) : (V m c main_v13 : S1792x896.Idx → EReal) = m ((c : Thread nD τ).loc main_arg24) := by
  dsimp only [Gen.V, Gen.hostOps0]; after_results; rfl

/-- Window 24's block at any point, read at `(i, j)`, is argument 24 at `(i, j)`. -/
theorem blk24 (c : Dev nD) (t : Fin cfg0.N) (i : Fin 1792) (j : Fin 896) :
    (iblk m c 24 t : Vec Ideal S1792x896 .bf16) (ix2 i j) = m ((c : Thread nD τ).loc main_arg24) (ix2 i j) := by
  unfold iblk
  rw [View.read_apply]
  show V m c main_v13 _ = _
  rw [V_v13]
  refine congrArg _ (funext fun a => Fin.ext ?_)
  match a with
  | ⟨0, _⟩ => show win0_24.index t 0 * 1792 + 1 * i.val = i.val; rw [(idx24 t).1]; omega
  | ⟨1, _⟩ => show win0_24.index t 1 * 896 + 1 * j.val = j.val; rw [(idx24 t).2]; omega

/-- Window 25's block index is `(0, 0)` at every grid point: its one block is its whole array. -/
theorem idx25 : ∀ t : Fin cfg0.N, win0_25.index t (0 : Fin 2) = 0 ∧ win0_25.index t (1 : Fin 2) = 0 :=
  (by decide +kernel : ∀ t : Fin grid0.N, _)

/-- The array window 25 stages is argument 25 reshaped from `[896]` to `[1, 896]` by the host. -/
theorem V_v29 (c : Dev nD) : (V m c main_v29 : S1x896.Idx → EReal)
    = shapeCast S1x896 (m ((c : Thread nD τ).loc main_arg25)) shapeCasts_S896_S1x896 := by
  dsimp only [Gen.V, Gen.hostOps0]; after_results; rfl

/-- Window 25's block at any point, read at `(0, j)`, is argument 25 at `j`. -/
theorem blk25 (c : Dev nD) (t : Fin cfg0.N) (j : Fin 896) :
    (iblk m c 25 t : Vec Ideal S1x896 .f32) (ix2 (0 : Fin 1) j) = m ((c : Thread nD τ).loc main_arg25) (ix1 j) := by
  unfold iblk
  rw [View.read_apply]
  show V m c main_v29 _ = _
  rw [V_v29]
  have e : ((cfg0.win 25).blk t).view.emb (ix2 (0 : Fin 1) j) = (ix2 (0 : Fin 1) j : S1x896.Idx) :=
    funext fun a => Fin.ext (by
      match a with
      | ⟨0, _⟩ => show win0_25.index t 0 * 1 + 1 * 0 = 0; rw [(idx25 t).1]
      | ⟨1, _⟩ => show win0_25.index t 1 * 896 + 1 * j.val = j.val; rw [(idx25 t).2]; omega)
  rw [e]
  exact shapeCast_a_1a_apply _ _ (0 : Fin 1) j

end Cert.KernelIdeal.Blocks

end
-- ==== Proof.BlocksL6.lean ====
/-
  What the kernel's four windows of layer 6 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 26's block index is `(0, 0)` at every grid point: its one block is its whole array. -/
theorem idx26 : ∀ t : Fin cfg0.N, win0_26.index t (0 : Fin 2) = 0 ∧ win0_26.index t (1 : Fin 2) = 0 :=
  (by decide +kernel : ∀ t : Fin grid0.N, _)

/-- The array window 26 stages — argument 26 rounded to bf16 by the host — is, as extended reals, the argument. -/
theorem V_v6 (c : Dev nD) : (V m c main_v6 : S64x2048.Idx → EReal) = m ((c : Thread nD τ).loc main_arg26) := by
  dsimp only [Gen.V, Gen.hostOps0]; after_results; rfl

/-- Window 26's block at any point, read at `(i, j)`, is argument 26 at `(i, j)`. -/
theorem blk26 (c : Dev nD) (t : Fin cfg0.N) (i : Fin 64) (j : Fin 2048) :
    (iblk m c 26 t : Vec Ideal S64x2048 .bf16) (ix2 i j) = m ((c : Thread nD τ).loc main_arg26) (ix2 i j) := by
  unfold iblk
  rw [View.read_apply]
  show V m c main_v6 _ = _
  rw [V_v6]
  refine congrArg _ (funext fun a => Fin.ext ?_)
  match a with
  | ⟨0, _⟩ => show win0_26.index t 0 * 64 + 1 * i.val = i.val; rw [(idx26 t).1]; omega
  | ⟨1, _⟩ => show win0_26.index t 1 * 2048 + 1 * j.val = j.val; rw [(idx26 t).2]; omega

/-- Window 27's block index is `(0, 0)` at every grid point: its one block is its whole array. -/
theorem idx27 : ∀ t : Fin cfg0.N, win0_27.index t (0 : Fin 2) = 0 ∧ win0_27.index t (1 : Fin 2) = 0 :=
  (by decide +kernel : ∀ t : Fin grid0.N, _)

/-- The array window 27 stages is argument 27 reshaped from `[2048]` to `[1, 2048]` by the host. -/
theorem V_v22 (c : Dev nD) : (V m c main_v22 : S1x2048.Idx → EReal)
    = shapeCast S1x2048 (m ((c : Thread nD τ).loc main_arg27)) shapeCasts_S2048_S1x2048 := by
  dsimp only [Gen.V, Gen.hostOps0]; after_results; rfl

/-- Window 27's block at any point, read at `(0, j)`, is argument 27 at `j`. -/
theorem blk27 (c : Dev nD) (t : Fin cfg0.N) (j : Fin 2048) :
    (iblk m c 27 t : Vec Ideal S1x2048 .f32) (ix2 (0 : Fin 1) j) = m ((c : Thread nD τ).loc main_arg27) (ix1 j) := by
  unfold iblk
  rw [View.read_apply]
  show V m c main_v22 _ = _
  rw [V_v22]
  have e : ((cfg0.win 27).blk t).view.emb (ix2 (0 : Fin 1) j) = (ix2 (0 : Fin 1) j : S1x2048.Idx) :=
    funext fun a => Fin.ext (by
      match a with
      | ⟨0, _⟩ => show win0_27.index t 0 * 1 + 1 * 0 = 0; rw [(idx27 t).1]
      | ⟨1, _⟩ => show win0_27.index t 1 * 2048 + 1 * j.val = j.val; rw [(idx27 t).2]; omega)
  rw [e]
  exact shapeCast_a_1a_apply _ _ (0 : Fin 1) j

/-- Window 28's block index is `(0, 0)` at every grid point: its one block is its whole array. -/
theorem idx28 : ∀ t : Fin cfg0.N, win0_28.index t (0 : Fin 2) = 0 ∧ win0_28.index t (1 : Fin 2) = 0 :=
  (by decide +kernel : ∀ t : Fin grid0.N, _)

/-- The array window 28 stages — argument 28 rounded to bf16 by the host — is, as extended reals, the argument. -/
theorem V_v14 (c : Dev nD) : (V m c main_v14 : S2048x1024.Idx → EReal) = m ((c : Thread nD τ).loc main_arg28) := by
  dsimp only [Gen.V, Gen.hostOps0]; after_results; rfl

/-- Window 28's block at any point, read at `(i, j)`, is argument 28 at `(i, j)`. -/
theorem blk28 (c : Dev nD) (t : Fin cfg0.N) (i : Fin 2048) (j : Fin 1024) :
    (iblk m c 28 t : Vec Ideal S2048x1024 .bf16) (ix2 i j) = m ((c : Thread nD τ).loc main_arg28) (ix2 i j) := by
  unfold iblk
  rw [View.read_apply]
  show V m c main_v14 _ = _
  rw [V_v14]
  refine congrArg _ (funext fun a => Fin.ext ?_)
  match a with
  | ⟨0, _⟩ => show win0_28.index t 0 * 2048 + 1 * i.val = i.val; rw [(idx28 t).1]; omega
  | ⟨1, _⟩ => show win0_28.index t 1 * 1024 + 1 * j.val = j.val; rw [(idx28 t).2]; omega

/-- Window 29's block index is `(0, 0)` at every grid point: its one block is its whole array. -/
theorem idx29 : ∀ t : Fin cfg0.N, win0_29.index t (0 : Fin 2) = 0 ∧ win0_29.index t (1 : Fin 2) = 0 :=
  (by decide +kernel : ∀ t : Fin grid0.N, _)

/-- The array window 29 stages is argument 29 reshaped from `[1024]` to `[1, 1024]` by the host. -/
theorem V_v30 (c : Dev nD) : (V m c main_v30 : S1x1024.Idx → EReal)
    = shapeCast S1x1024 (m ((c : Thread nD τ).loc main_arg29)) shapeCasts_S1024_S1x1024 := by
  dsimp only [Gen.V, Gen.hostOps0]; after_results; rfl

/-- Window 29's block at any point, read at `(0, j)`, is argument 29 at `j`. -/
theorem blk29 (c : Dev nD) (t : Fin cfg0.N) (j : Fin 1024) :
    (iblk m c 29 t : Vec Ideal S1x1024 .f32) (ix2 (0 : Fin 1) j) = m ((c : Thread nD τ).loc main_arg29) (ix1 j) := by
  unfold iblk
  rw [View.read_apply]
  show V m c main_v30 _ = _
  rw [V_v30]
  have e : ((cfg0.win 29).blk t).view.emb (ix2 (0 : Fin 1) j) = (ix2 (0 : Fin 1) j : S1x1024.Idx) :=
    funext fun a => Fin.ext (by
      match a with
      | ⟨0, _⟩ => show win0_29.index t 0 * 1 + 1 * 0 = 0; rw [(idx29 t).1]
      | ⟨1, _⟩ => show win0_29.index t 1 * 1024 + 1 * j.val = j.val; rw [(idx29 t).2]; omega)
  rw [e]
  exact shapeCast_a_1a_apply _ _ (0 : Fin 1) j

end Cert.KernelIdeal.Blocks

end
-- ==== Proof.BlocksL7.lean ====
/-
  What the kernel's four windows of layer 7 hold at a grid point: its two weight matrices (whole, rounded to bf16 by the host, which changes nothing at the extended reals) and its two bias vectors (whole, reshaped to one row).
-/
import proofs.«159795_j68831145886300_2_alg».proof.Proof.Gen.KernelIdeal.Frame.Runs
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Window 30's block index is `(0, 0)` at every grid point: its one block is its whole array. -/
theorem idx30 : ∀ t : Fin cfg0.N, win0_30.index t (0 : Fin 2) = 0 ∧ win0_30.index t (1 : Fin 2) = 0 :=
  (by decide +kernel : ∀ t : Fin grid0.N, _)

/-- The array window 30 stages — argument 30 rounded to bf16 by the host — is, as extended reals, the argument. -/
theorem V_v7 (c : Dev nD) : (V m c main_v7 : S64x2304.Idx → EReal) = m ((c : Thread nD τ).loc main_arg30) := by
  dsimp only [Gen.V, Gen.hostOps0]; after_results; rfl

/-- Window 30's block at any point, read at `(i, j)`, is argument 30 at `(i, j)`. -/
theorem blk30 (c : Dev nD) (t : Fin cfg0.N) (i : Fin 64) (j : Fin 2304) :
    (iblk m c 30 t : Vec Ideal S64x2304 .bf16) (ix2 i j) = m ((c : Thread nD τ).loc main_arg30) (ix2 i j) := by
  unfold iblk
  rw [View.read_apply]
  show V m c main_v7 _ = _
  rw [V_v7]
  refine congrArg _ (funext fun a => Fin.ext ?_)
  match a with
  | ⟨0, _⟩ => show win0_30.index t 0 * 64 + 1 * i.val = i.val; rw [(idx30 t).1]; omega
  | ⟨1, _⟩ => show win0_30.index t 1 * 2304 + 1 * j.val = j.val; rw [(idx30 t).2]; omega

/-- Window 31's block index is `(0, 0)` at every grid point: its one block is its whole array. -/
theorem idx31 : ∀ t : Fin cfg0.N, win0_31.index t (0 : Fin 2) = 0 ∧ win0_31.index t (1 : Fin 2) = 0 :=
  (by decide +kernel : ∀ t : Fin grid0.N, _)

/-- The array window 31 stages is argument 31 reshaped from `[2304]` to `[1, 2304]` by the host. -/
theorem V_v23 (c : Dev nD) : (V m c main_v23 : S1x2304.Idx → EReal)
    = shapeCast S1x2304 (m ((c : Thread nD τ).loc main_arg31)) shapeCasts_S2304_S1x2304 := by
  dsimp only [Gen.V, Gen.hostOps0]; after_results; rfl

/-- Window 31's block at any point, read at `(0, j)`, is argument 31 at `j`. -/
theorem blk31 (c : Dev nD) (t : Fin cfg0.N) (j : Fin 2304) :
    (iblk m c 31 t : Vec Ideal S1x2304 .f32) (ix2 (0 : Fin 1) j) = m ((c : Thread nD τ).loc main_arg31) (ix1 j) := by
  unfold iblk
  rw [View.read_apply]
  show V m c main_v23 _ = _
  rw [V_v23]
  have e : ((cfg0.win 31).blk t).view.emb (ix2 (0 : Fin 1) j) = (ix2 (0 : Fin 1) j : S1x2304.Idx) :=
    funext fun a => Fin.ext (by
      match a with
      | ⟨0, _⟩ => show win0_31.index t 0 * 1 + 1 * 0 = 0; rw [(idx31 t).1]
      | ⟨1, _⟩ => show win0_31.index t 1 * 2304 + 1 * j.val = j.val; rw [(idx31 t).2]; omega)
  rw [e]
  exact shapeCast_a_1a_apply _ _ (0 : Fin 1) j

/-- Window 32's block index is `(0, 0)` at every grid point: its one block is its whole array. -/
theorem idx32 : ∀ t : Fin cfg0.N, win0_32.index t (0 : Fin 2) = 0 ∧ win0_32.index t (1 : Fin 2) = 0 :=
  (by decide +kernel : ∀ t : Fin grid0.N, _)

/-- The array window 32 stages — argument 32 rounded to bf16 by the host — is, as extended reals, the argument. -/
theorem V_v15 (c : Dev nD) : (V m c main_v15 : S2304x1152.Idx → EReal) = m ((c : Thread nD τ).loc main_arg32) := by
  dsimp only [Gen.V, Gen.hostOps0]; after_results; rfl

/-- Window 32's block at any point, read at `(i, j)`, is argument 32 at `(i, j)`. -/
theorem blk32 (c : Dev nD) (t : Fin cfg0.N) (i : Fin 2304) (j : Fin 1152) :
    (iblk m c 32 t : Vec Ideal S2304x1152 .bf16) (ix2 i j) = m ((c : Thread nD τ).loc main_arg32) (ix2 i j) := by
  unfold iblk
  rw [View.read_apply]
  show V m c main_v15 _ = _
  rw [V_v15]
  refine congrArg _ (funext fun a => Fin.ext ?_)
  match a with
  | ⟨0, _⟩ => show win0_32.index t 0 * 2304 + 1 * i.val = i.val; rw [(idx32 t).1]; omega
  | ⟨1, _⟩ => show win0_32.index t 1 * 1152 + 1 * j.val = j.val; rw [(idx32 t).2]; omega

/-- Window 33's block index is `(0, 0)` at every grid point: its one block is its whole array. -/
theorem idx33 : ∀ t : Fin cfg0.N, win0_33.index t (0 : Fin 2) = 0 ∧ win0_33.index t (1 : Fin 2) = 0 :=
  (by decide +kernel : ∀ t : Fin grid0.N, _)

/-- The array window 33 stages is argument 33 reshaped from `[1152]` to `[1, 1152]` by the host. -/
theorem V_v31 (c : Dev nD) : (V m c main_v31 : S1x1152.Idx → EReal)
    = shapeCast S1x1152 (m ((c : Thread nD τ).loc main_arg33)) shapeCasts_S1152_S1x1152 := by
  dsimp only [Gen.V, Gen.hostOps0]; after_results; rfl

/-- Window 33's block at any point, read at `(0, j)`, is argument 33 at `j`. -/
theorem blk33 (c : Dev nD) (t : Fin cfg0.N) (j : Fin 1152) :
    (iblk m c 33 t : Vec Ideal S1x1152 .f32) (ix2 (0 : Fin 1) j) = m ((c : Thread nD τ).loc main_arg33) (ix1 j) := by
  unfold iblk
  rw [View.read_apply]
  show V m c main_v31 _ = _
  rw [V_v31]
  have e : ((cfg0.win 33).blk t).view.emb (ix2 (0 : Fin 1) j) = (ix2 (0 : Fin 1) j : S1x1152.Idx) :=
    funext fun a => Fin.ext (by
      match a with
      | ⟨0, _⟩ => show win0_33.index t 0 * 1 + 1 * 0 = 0; rw [(idx33 t).1]
      | ⟨1, _⟩ => show win0_33.index t 1 * 1152 + 1 * j.val = j.val; rw [(idx33 t).2]; omega)
  rw [e]
  exact shapeCast_a_1a_apply _ _ (0 : Fin 1) j

end Cert.KernelIdeal.Blocks

end
-- ==== Proof.KernelResult.lean ====
/-
  The kernel's result array, read back as one function of the argument arrays.

  At a grid point the body's eight stores tile the staged block's columns, so the block the point writes back is the
  eight stored payloads side by side (`block_eq`).  Point `t` stages rows `256·t … 256·t + 255` of the batch of weights
  and the whole of every other array, so that block is block `t` of `joined (layer …) …` of the arguments
  (`flushed_eq`); the 64 blocks cover the array (`cover`), which therefore ends at that function (`final`, `run`).
-/
import proofs.«159795_j68831145886300_2_alg».proof.Proof.PatchedKernelIdealValue
import proofs.«159795_j68831145886300_2_alg».proof.Proof.KernelPay
import proofs.«159795_j68831145886300_2_alg».proof.Proof.BlocksIn
import proofs.«159795_j68831145886300_2_alg».proof.Proof.BlocksL0
import proofs.«159795_j68831145886300_2_alg».proof.Proof.BlocksL1
import proofs.«159795_j68831145886300_2_alg».proof.Proof.BlocksL2
import proofs.«159795_j68831145886300_2_alg».proof.Proof.BlocksL3
import proofs.«159795_j68831145886300_2_alg».proof.Proof.BlocksL4
import proofs.«159795_j68831145886300_2_alg».proof.Proof.BlocksL5
import proofs.«159795_j68831145886300_2_alg».proof.Proof.BlocksL6
import proofs.«159795_j68831145886300_2_alg».proof.Proof.BlocksL7

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- What one run of the body leaves in the output's staging buffer: the eight layers' payloads of the loaded blocks,
    side by side.  Each store writes its payload at its column offset; together the eight rectangles tile the block. -/
theorem block_eq (c : Dev nD) (i : grid0.Coords) (arg1 : Memref sig .tc .vmem S256x16 .f32) (harg1 : arg1.IsWhole) (arg2 : Memref sig .tc .vmem S16x64 .f32) (harg2 : arg2.IsWhole) (arg3 : Memref sig .tc .vmem S64x512 .bf16) (harg3 : arg3.IsWhole) (arg4 : Memref sig .tc .vmem S1x512 .f32) (harg4 : arg4.IsWhole) (arg5 : Memref sig .tc .vmem S512x256 .bf16) (harg5 : arg5.IsWhole) (arg6 : Memref sig .tc .vmem S1x256 .f32) (harg6 : arg6.IsWhole) (arg7 : Memref sig .tc .vmem S64x768 .bf16) (harg7 : arg7.IsWhole) (arg8 : Memref sig .tc .vmem S1x768 .f32) (harg8 : arg8.IsWhole) (arg9 : Memref sig .tc .vmem S768x384 .bf16) (harg9 : arg9.IsWhole) (arg10 : Memref sig .tc .vmem S1x384 .f32) (harg10 : arg10.IsWhole) (arg11 : Memref sig .tc .vmem S64x1024 .bf16) (harg11 : arg11.IsWhole) (arg12 : Memref sig .tc .vmem S1x1024 .f32) (harg12 : arg12.IsWhole) (arg13 : Memref sig .tc .vmem S1024x512 .bf16) (harg13 : arg13.IsWhole) (arg14 : Memref sig .tc .vmem S1x512 .f32) (harg14 : arg14.IsWhole) (arg15 : Memref sig .tc .vmem S64x1280 .bf16) (harg15 : arg15.IsWhole) (arg16 : Memref sig .tc .vmem S1x1280 .f32) (harg16 : arg16.IsWhole) (arg17 : Memref sig .tc .vmem S1280x640 .bf16) (harg17 : arg17.IsWhole) (arg18 : Memref sig .tc .vmem S1x640 .f32) (harg18 : arg18.IsWhole) (arg19 : Memref sig .tc .vmem S64x1536 .bf16) (harg19 : arg19.IsWhole) (arg20 : Memref sig .tc .vmem S1x1536 .f32) (harg20 : arg20.IsWhole) (arg21 : Memref sig .tc .vmem S1536x768 .bf16) (harg21 : arg21.IsWhole) (arg22 : Memref sig .tc .vmem S1x768 .f32) (harg22 : arg22.IsWhole) (arg23 : Memref sig .tc .vmem S64x1792 .bf16) (harg23 : arg23.IsWhole) (arg24 : Memref sig .tc .vmem S1x1792 .f32) (harg24 : arg24.IsWhole) (arg25 : Memref sig .tc .vmem S1792x896 .bf16) (harg25 : arg25.IsWhole) (arg26 : Memref sig .tc .vmem S1x896 .f32) (harg26 : arg26.IsWhole) (arg27 : Memref sig .tc .vmem S64x2048 .bf16) (harg27 : arg27.IsWhole) (arg28 : Memref sig .tc .vmem S1x2048 .f32) (harg28 : arg28.IsWhole) (arg29 : Memref sig .tc .vmem S2048x1024 .bf16) (harg29 : arg29.IsWhole) (arg30 : Memref sig .tc .vmem S1x1024 .f32) (harg30 : arg30.IsWhole) (arg31 : Memref sig .tc .vmem S64x2304 .bf16) (harg31 : arg31.IsWhole) (arg32 : Memref sig .tc .vmem S1x2304 .f32) (harg32 : arg32.IsWhole) (arg33 : Memref sig .tc .vmem S2304x1152 .bf16) (harg33 : arg33.IsWhole) (arg34 : Memref sig .tc .vmem S1x1152 .f32) (harg34 : arg34.IsWhole) (arg35 : Memref sig .tc .vmem S256x5632 .f32) (harg35 : arg35.IsWhole)
    (x0 : FVec Ideal S256x16 .f32) (x1 : FVec Ideal S16x64 .f32) (x2 : FVec Ideal S64x512 .bf16) (x3 : FVec Ideal S1x512 .f32) (x4 : FVec Ideal S512x256 .bf16) (x5 : FVec Ideal S1x256 .f32) (x6 : FVec Ideal S64x768 .bf16) (x7 : FVec Ideal S1x768 .f32) (x8 : FVec Ideal S768x384 .bf16) (x9 : FVec Ideal S1x384 .f32) (x10 : FVec Ideal S64x1024 .bf16) (x11 : FVec Ideal S1x1024 .f32) (x12 : FVec Ideal S1024x512 .bf16) (x13 : FVec Ideal S1x512 .f32) (x14 : FVec Ideal S64x1280 .bf16) (x15 : FVec Ideal S1x1280 .f32) (x16 : FVec Ideal S1280x640 .bf16) (x17 : FVec Ideal S1x640 .f32) (x18 : FVec Ideal S64x1536 .bf16) (x19 : FVec Ideal S1x1536 .f32) (x20 : FVec Ideal S1536x768 .bf16) (x21 : FVec Ideal S1x768 .f32) (x22 : FVec Ideal S64x1792 .bf16) (x23 : FVec Ideal S1x1792 .f32) (x24 : FVec Ideal S1792x896 .bf16) (x25 : FVec Ideal S1x896 .f32) (x26 : FVec Ideal S64x2048 .bf16) (x27 : FVec Ideal S1x2048 .f32) (x28 : FVec Ideal S2048x1024 .bf16) (x29 : FVec Ideal S1x1024 .f32) (x30 : FVec Ideal S64x2304 .bf16) (x31 : FVec Ideal S1x2304 .f32) (x32 : FVec Ideal S2304x1152 .bf16) (x33 : FVec Ideal S1x1152 .f32) :
    out0_A_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 x22 x23 x24 x25 x26 x27 x28 x29 x30 x31 x32 x33
      = Spec.joined (k0_pay2 (F := Ideal) x0 x1 x2 x3 x4 x5)
          (k0_pay5 (F := Ideal) (k0_pay3 x0 x1 x6 x7) k0_pay4 x8 x9)
          (k0_pay6 (F := Ideal) (k0_pay1 (F := Ideal) x0 x1) x10 x11 x12 x13)
          (k0_pay7 (F := Ideal) (k0_pay1 (F := Ideal) x0 x1) x14 x15 x16 x17)
          (k0_pay10 (F := Ideal) (k0_pay8 (k0_pay1 (F := Ideal) x0 x1) x18 x19 x20) (k0_pay9 x21))
          (k0_pay11 (F := Ideal) (k0_pay1 (F := Ideal) x0 x1) x22 x23 x24 x25)
          (k0_pay14 (F := Ideal) (k0_pay12 (k0_pay1 (F := Ideal) x0 x1) x26 x27) k0_pay13 x28 x29)
          (k0_pay15 (F := Ideal) (k0_pay1 (F := Ideal) x0 x1) x30 x31 x32 x33) := by
  unfold out0_A_34
  rw [View.read_writes_eq_canon _ _ _ (cover0_A_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 x22 x23 x24 x25 x26 x27 x28 x29 x30 x31 x32 x33)]
  funext y
  refine View.canon_apply_of_pieces (Spec.joined (k0_pay2 (F := Ideal) x0 x1 x2 x3 x4 x5) (k0_pay5 (F := Ideal) (k0_pay3 x0 x1 x6 x7) k0_pay4 x8 x9) (k0_pay6 (F := Ideal) (k0_pay1 (F := Ideal) x0 x1) x10 x11 x12 x13) (k0_pay7 (F := Ideal) (k0_pay1 (F := Ideal) x0 x1) x14 x15 x16 x17) (k0_pay10 (F := Ideal) (k0_pay8 (k0_pay1 (F := Ideal) x0 x1) x18 x19 x20) (k0_pay9 x21)) (k0_pay11 (F := Ideal) (k0_pay1 (F := Ideal) x0 x1) x22 x23 x24 x25) (k0_pay14 (F := Ideal) (k0_pay12 (k0_pay1 (F := Ideal) x0 x1) x26 x27) k0_pay13 x28 x29) (k0_pay15 (F := Ideal) (k0_pay1 (F := Ideal) x0 x1) x30 x31 x32 x33)) _ ?_ y
    (cover0_A_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 x22 x23 x24 x25 x26 x27 x28 x29 x30 x31 x32 x33 y)
  unfold kernelRun0_A
  dsimp only
  sl_unfold_words
  intro pc hpc
  simp only [List.mem_cons, List.not_mem_nil, or_false] at hpc
  rcases hpc with rfl | rfl | rfl | rfl | rfl | rfl | rfl | rfl
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_7 _ _ _ _ _ _ _ _ _ x (by show 0 + 1 * (x 0).val = (x 0).val; omega)
      (by show 4480 + 1 * (x 1).val = 4480 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_6 _ _ _ _ _ _ _ _ _ x (by show 0 + 1 * (x 0).val = (x 0).val; omega)
      (by show 3456 + 1 * (x 1).val = 3456 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_5 _ _ _ _ _ _ _ _ _ x (by show 0 + 1 * (x 0).val = (x 0).val; omega)
      (by show 2560 + 1 * (x 1).val = 2560 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_4 _ _ _ _ _ _ _ _ _ x (by show 0 + 1 * (x 0).val = (x 0).val; omega)
      (by show 1792 + 1 * (x 1).val = 1792 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_3 _ _ _ _ _ _ _ _ _ x (by show 0 + 1 * (x 0).val = (x 0).val; omega)
      (by show 1152 + 1 * (x 1).val = 1152 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_2 _ _ _ _ _ _ _ _ _ x (by show 0 + 1 * (x 0).val = (x 0).val; omega)
      (by show 640 + 1 * (x 1).val = 640 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_1 _ _ _ _ _ _ _ _ _ x (by show 0 + 1 * (x 0).val = (x 0).val; omega)
      (by show 256 + 1 * (x 1).val = 256 + (x 1).val; omega)).symm
  · intro x
    simp only [View.readAt_eq_ld, Memref.IsWhole.read_unread, View.ld_unit_zero (S := S256x16) hz2, View.ld_unit_zero (S := S16x64) hz2, View.ld_unit_zero (S := S64x512) hz2, View.ld_unit_zero (S := S1x512) hz2, View.ld_unit_zero (S := S512x256) hz2, View.ld_unit_zero (S := S1x256) hz2, View.ld_unit_zero (S := S64x768) hz2, View.ld_unit_zero (S := S1x768) hz2, View.ld_unit_zero (S := S768x384) hz2, View.ld_unit_zero (S := S1x384) hz2, View.ld_unit_zero (S := S64x1024) hz2, View.ld_unit_zero (S := S1x1024) hz2, View.ld_unit_zero (S := S1024x512) hz2, View.ld_unit_zero (S := S64x1280) hz2, View.ld_unit_zero (S := S1x1280) hz2, View.ld_unit_zero (S := S1280x640) hz2, View.ld_unit_zero (S := S1x640) hz2, View.ld_unit_zero (S := S64x1536) hz2, View.ld_unit_zero (S := S1x1536) hz2, View.ld_unit_zero (S := S1536x768) hz2, View.ld_unit_zero (S := S64x1792) hz2, View.ld_unit_zero (S := S1x1792) hz2, View.ld_unit_zero (S := S1792x896) hz2, View.ld_unit_zero (S := S1x896) hz2, View.ld_unit_zero (S := S64x2048) hz2, View.ld_unit_zero (S := S1x2048) hz2, View.ld_unit_zero (S := S2048x1024) hz2, View.ld_unit_zero (S := S64x2304) hz2, View.ld_unit_zero (S := S1x2304) hz2, View.ld_unit_zero (S := S2304x1152) hz2, View.ld_unit_zero (S := S1x1152) hz2]
    exact (Spec.joined_piece_0 _ _ _ _ _ _ _ _ _ x (by show 0 + 1 * (x 0).val = (x 0).val; omega)
      (by show 0 + 1 * (x 1).val = 0 + (x 1).val; omega)).symm

/-- The array the kernel leaves: the eight layers of the arguments, side by side. -/
def result (c : Dev nD) : S16384x5632.Idx → EReal :=
  Spec.joined (Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (Spec.layer (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)))
    (Spec.layer (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)))
    (Spec.layer (m ((c : Thread nD τ).loc main_arg0)) (m ((c : Thread nD τ).loc main_arg1)) (m ((c : Thread nD τ).loc main_arg14)) (m ((c : Thread nD τ).loc main_arg15)) (m ((c : Thread nD τ).loc main_arg16)) (m ((c : Thread nD τ).loc main_arg17)))
    (Spec.layer (m ((c : Thread nD τ).loc main_arg0)) (m ((c : Thread nD τ).loc main_arg1)) (m ((c : Thread nD τ).loc main_arg18)) (m ((c : Thread nD τ).loc main_arg19)) (m ((c : Thread nD τ).loc main_arg20)) (m ((c : Thread nD τ).loc main_arg21)))
    (Spec.layer (m ((c : Thread nD τ).loc main_arg0)) (m ((c : Thread nD τ).loc main_arg1)) (m ((c : Thread nD τ).loc main_arg22)) (m ((c : Thread nD τ).loc main_arg23)) (m ((c : Thread nD τ).loc main_arg24)) (m ((c : Thread nD τ).loc main_arg25)))
    (Spec.layer (m ((c : Thread nD τ).loc main_arg0)) (m ((c : Thread nD τ).loc main_arg1)) (m ((c : Thread nD τ).loc main_arg26)) (m ((c : Thread nD τ).loc main_arg27)) (m ((c : Thread nD τ).loc main_arg28)) (m ((c : Thread nD τ).loc main_arg29)))
    (Spec.layer (m ((c : Thread nD τ).loc main_arg0)) (m ((c : Thread nD τ).loc main_arg1)) (m ((c : Thread nD τ).loc main_arg30)) (m ((c : Thread nD τ).loc main_arg31)) (m ((c : Thread nD τ).loc main_arg32)) (m ((c : Thread nD τ).loc main_arg33)))

/-- The output window's block index at point `t` is `(t, 0)`. -/
theorem idx34 : ∀ t : Fin cfg0.N, win0_34.index t (0 : Fin 2) = t.val ∧ win0_34.index t (1 : Fin 2) = 0 :=
  (by decide +kernel : ∀ t : Fin grid0.N, _)

/-- WHAT POINT `t` WRITES BACK is block `t` of `result`: rows `256·t … 256·t + 255`, all columns. -/
theorem flushed_eq (c : Dev nD) (t : Fin cfg0.N) :
    (dats m 0 c).flushed 34 t = ((cfg0.win 34).blk t).view.read (Elt Ideal) (result m c) := by
  refine (Value.flushed34_A m c t).trans ?_
  refine (congrArg ((cfg0.win 34).cut (grid0.coords t)) (block_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t))).trans ?_
  funext y
  obtain ⟨p, q, rfl⟩ : ∃ (p : Fin 256) (q : Fin 5632), y = ix2 p q := ⟨y 0, y 1, eq_ix2 y⟩
  have hN : cfg0.N = 64 := N_0
  have hp := p.isLt
  have ht : t.val < 64 := hN ▸ t.isLt
  have hrow : t.val * 256 + p.val < 16384 := by omega
  have e : ((cfg0.win 34).blk t).view.emb (ix2 p q) = (ix2 ⟨t.val * 256 + p.val, hrow⟩ q : S16384x5632.Idx) :=
    funext fun a => Fin.ext (by
      match a with
      | ⟨0, _⟩ => show win0_34.index t 0 * 256 + 1 * p.val = t.val * 256 + p.val; rw [(idx34 t).1]; omega
      | ⟨1, _⟩ => show win0_34.index t 1 * 5632 + 1 * q.val = q.val; rw [(idx34 t).2]; omega)
  show Spec.joined (k0_pay2 (F := Ideal) (iblk m c 0 t) (iblk m c 1 t) (iblk m c 2 t) (iblk m c 3 t) (iblk m c 4 t) (iblk m c 5 t)) (k0_pay5 (F := Ideal) (k0_pay3 (iblk m c 0 t) (iblk m c 1 t) (iblk m c 6 t) (iblk m c 7 t)) k0_pay4 (iblk m c 8 t) (iblk m c 9 t)) (k0_pay6 (F := Ideal) (k0_pay1 (F := Ideal) (iblk m c 0 t) (iblk m c 1 t)) (iblk m c 10 t) (iblk m c 11 t) (iblk m c 12 t) (iblk m c 13 t)) (k0_pay7 (F := Ideal) (k0_pay1 (F := Ideal) (iblk m c 0 t) (iblk m c 1 t)) (iblk m c 14 t) (iblk m c 15 t) (iblk m c 16 t) (iblk m c 17 t)) (k0_pay10 (F := Ideal) (k0_pay8 (k0_pay1 (F := Ideal) (iblk m c 0 t) (iblk m c 1 t)) (iblk m c 18 t) (iblk m c 19 t) (iblk m c 20 t)) (k0_pay9 (iblk m c 21 t))) (k0_pay11 (F := Ideal) (k0_pay1 (F := Ideal) (iblk m c 0 t) (iblk m c 1 t)) (iblk m c 22 t) (iblk m c 23 t) (iblk m c 24 t) (iblk m c 25 t)) (k0_pay14 (F := Ideal) (k0_pay12 (k0_pay1 (F := Ideal) (iblk m c 0 t) (iblk m c 1 t)) (iblk m c 26 t) (iblk m c 27 t)) k0_pay13 (iblk m c 28 t) (iblk m c 29 t)) (k0_pay15 (F := Ideal) (k0_pay1 (F := Ideal) (iblk m c 0 t) (iblk m c 1 t)) (iblk m c 30 t) (iblk m c 31 t) (iblk m c 32 t) (iblk m c 33 t)) (ix2 p q)
    = result m c (((cfg0.win 34).blk t).view.emb (ix2 p q))
  rw [e]
  unfold result
  refine Spec.joined_congr _ _ _ _ _ _ _ _ _ _ _ _ _ _ _ _ (ix2 p q) (ix2 ⟨t.val * 256 + p.val, hrow⟩ q) rfl
    ?_ ?_ ?_ ?_ ?_ ?_ ?_ ?_
  · intro q'
    refine (Pay.out0_apply (iblk m c 0 t) (iblk m c 1 t) (iblk m c 2 t) (iblk m c 3 t) (iblk m c 4 t) (iblk m c 5 t) p q').trans ?_
    exact Cert.Dense.unit_eq_layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk2 m c t d k) (fun k => Blocks.blk3 m c t k) (fun k => Blocks.blk4 m c t k q')
      (Blocks.blk5 m c t q')
  · intro q'
    refine (Pay.out1_apply (iblk m c 0 t) (iblk m c 1 t) (iblk m c 6 t) (iblk m c 7 t) (iblk m c 8 t) (iblk m c 9 t) p q').trans ?_
    exact Cert.Dense.unit_eq_layer (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk6 m c t d k) (fun k => Blocks.blk7 m c t k) (fun k => Blocks.blk8 m c t k q')
      (Blocks.blk9 m c t q')
  · intro q'
    refine (Pay.out2_apply (k0_pay1 (F := Ideal) (iblk m c 0 t) (iblk m c 1 t)) (iblk m c 10 t) (iblk m c 11 t) (iblk m c 12 t) (iblk m c 13 t) p q').trans ?_
    exact Cert.Dense.unit_eq_layer (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk10 m c t d k) (fun k => Blocks.blk11 m c t k) (fun k => Blocks.blk12 m c t k q')
      (Blocks.blk13 m c t q')
  · intro q'
    refine (Pay.out3_apply (k0_pay1 (F := Ideal) (iblk m c 0 t) (iblk m c 1 t)) (iblk m c 14 t) (iblk m c 15 t) (iblk m c 16 t) (iblk m c 17 t) p q').trans ?_
    exact Cert.Dense.unit_eq_layer (m ((c : Thread nD τ).loc main_arg0)) (m ((c : Thread nD τ).loc main_arg1)) (m ((c : Thread nD τ).loc main_arg14)) (m ((c : Thread nD τ).loc main_arg15)) (m ((c : Thread nD τ).loc main_arg16)) (m ((c : Thread nD τ).loc main_arg17)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk14 m c t d k) (fun k => Blocks.blk15 m c t k) (fun k => Blocks.blk16 m c t k q')
      (Blocks.blk17 m c t q')
  · intro q'
    refine (Pay.out4_apply (k0_pay1 (F := Ideal) (iblk m c 0 t) (iblk m c 1 t)) (iblk m c 18 t) (iblk m c 19 t) (iblk m c 20 t) (iblk m c 21 t) p q').trans ?_
    exact Cert.Dense.unit_eq_layer (m ((c : Thread nD τ).loc main_arg0)) (m ((c : Thread nD τ).loc main_arg1)) (m ((c : Thread nD τ).loc main_arg18)) (m ((c : Thread nD τ).loc main_arg19)) (m ((c : Thread nD τ).loc main_arg20)) (m ((c : Thread nD τ).loc main_arg21)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk18 m c t d k) (fun k => Blocks.blk19 m c t k) (fun k => Blocks.blk20 m c t k q')
      (Blocks.blk21 m c t q')
  · intro q'
    refine (Pay.out5_apply (k0_pay1 (F := Ideal) (iblk m c 0 t) (iblk m c 1 t)) (iblk m c 22 t) (iblk m c 23 t) (iblk m c 24 t) (iblk m c 25 t) p q').trans ?_
    exact Cert.Dense.unit_eq_layer (m ((c : Thread nD τ).loc main_arg0)) (m ((c : Thread nD τ).loc main_arg1)) (m ((c : Thread nD τ).loc main_arg22)) (m ((c : Thread nD τ).loc main_arg23)) (m ((c : Thread nD τ).loc main_arg24)) (m ((c : Thread nD τ).loc main_arg25)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk22 m c t d k) (fun k => Blocks.blk23 m c t k) (fun k => Blocks.blk24 m c t k q')
      (Blocks.blk25 m c t q')
  · intro q'
    refine (Pay.out6_apply (k0_pay1 (F := Ideal) (iblk m c 0 t) (iblk m c 1 t)) (iblk m c 26 t) (iblk m c 27 t) (iblk m c 28 t) (iblk m c 29 t) p q').trans ?_
    exact Cert.Dense.unit_eq_layer (m ((c : Thread nD τ).loc main_arg0)) (m ((c : Thread nD τ).loc main_arg1)) (m ((c : Thread nD τ).loc main_arg26)) (m ((c : Thread nD τ).loc main_arg27)) (m ((c : Thread nD τ).loc main_arg28)) (m ((c : Thread nD τ).loc main_arg29)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk26 m c t d k) (fun k => Blocks.blk27 m c t k) (fun k => Blocks.blk28 m c t k q')
      (Blocks.blk29 m c t q')
  · intro q'
    refine (Pay.out7_apply (k0_pay1 (F := Ideal) (iblk m c 0 t) (iblk m c 1 t)) (iblk m c 30 t) (iblk m c 31 t) (iblk m c 32 t) (iblk m c 33 t) p q').trans ?_
    exact Cert.Dense.unit_eq_layer (m ((c : Thread nD τ).loc main_arg0)) (m ((c : Thread nD τ).loc main_arg1)) (m ((c : Thread nD τ).loc main_arg30)) (m ((c : Thread nD τ).loc main_arg31)) (m ((c : Thread nD τ).loc main_arg32)) (m ((c : Thread nD τ).loc main_arg33)) _ _ _ _ _ ⟨t.val * 256 + p.val, hrow⟩ q'
      (fun d => (Pay.mixed_apply (iblk m c 0 t) (iblk m c 1 t) p d).trans (Finset.sum_congr rfl fun e _ =>
        congr (congrArg _ (Blocks.blk0 m c t p e hrow)) (Blocks.blk1 m c t e d)))
      (fun d k => Blocks.blk30 m c t d k) (fun k => Blocks.blk31 m c t k) (fun k => Blocks.blk32 m c t k q')
      (Blocks.blk33 m c t q')

/-- An index of the array is in point `t`'s block iff each coordinate is in the block's range on its axis. -/
theorem mem_blk (t : Fin cfg0.N) (i : S16384x5632.Idx) :
    i ∈ ((cfg0.win 34).blk t).view.set ↔ ∀ a : Fin 2, win0_34.index t a * S256x5632.size a ≤ (i a).val
      ∧ (i a).val < win0_34.index t a * S256x5632.size a + S256x5632.size a := by
  show i ∈ ((View.whole main_v32).slice (win0_34.rect t)).set ↔ _
  rw [View.set_slice_whole, Rect.mem_set_unit]
  exact Iff.rfl

/-- Every index of the array lies in some point's block: row `r` in the block of point `r / 256`. -/
theorem cover (i : S16384x5632.Idx) :
    ∃ t : Fin cfg0.N, (cfg0.win 34).flush t = true ∧ i ∈ ((cfg0.win 34).blk t).view.set := by
  have hN : cfg0.N = 64 := N_0
  have hi0 : (i 0).val < 16384 := idx2_lt0 i
  have hi1 : (i 1).val < 5632 := idx2_lt1 i
  refine ⟨⟨(i 0).val / 256, by rw [hN]; omega⟩, flush0_34 _, ?_⟩
  rw [mem_blk]
  intro a
  match a with
  | ⟨0, _⟩ =>
    show win0_34.index _ 0 * 256 ≤ (i 0).val ∧ (i 0).val < win0_34.index _ 0 * 256 + 256
    rw [(idx34 _).1]
    show (i 0).val / 256 * 256 ≤ (i 0).val ∧ (i 0).val < (i 0).val / 256 * 256 + 256
    omega
  | ⟨1, _⟩ =>
    show win0_34.index _ 1 * 5632 ≤ (i 1).val ∧ (i 1).val < win0_34.index _ 1 * 5632 + 5632
    rw [(idx34 _).2]
    omega

/-- So the result array ends holding `result`. -/
theorem final (c : Dev nD) : (dats m 0 c).arrAt 34 cfg0.N = result m c :=
  (dats m 0 c).arrAt_eq_of_cover 34 (result m c) (fun t _ => flushed_eq m c t) cover

/-- The kernel's run, its result array named as a function of the arguments. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33) :=
  (θ_run defs _ _).mono (fun r h c => ⟨(h c).1.trans (final m c), (h c).2⟩) (Value.run_blocks m ρ)

end Cert.KernelIdeal.Result

end
-- ==== Proof.RefValue.lean ====
/-
  The reference's eight per-layer results, each as `Spec.layer` of the argument arrays it reads.
-/
import proofs.«159795_j68831145886300_2_alg».proof.Proof.Gen.ReferenceIdeal.Read
import proofs.«159795_j68831145886300_2_alg».proof.Proof.LibDense

noncomputable section

namespace Cert.ReferenceIdeal.RefValue

open Cert.ReferenceIdeal Cert.ReferenceIdeal.Gen Cert.ReferenceIdeal.Read Idealize.ShloMosaic Idealize.ShloMosaic.ValueIdx

/-- Layer 0 of the reference (hidden size 512, 256 outputs) is `Spec.layer` of its six operands. -/
theorem layer0 (x0 : (⟨S16384x16, .f32⟩ : BufTy).Contents (Elt Ideal)) (x1 : (⟨S16x64, .f32⟩ : BufTy).Contents (Elt Ideal)) (x2 : (⟨S64x512, .f32⟩ : BufTy).Contents (Elt Ideal)) (x3 : (⟨S512, .f32⟩ : BufTy).Contents (Elt Ideal)) (x4 : (⟨S512x256, .f32⟩ : BufTy).Contents (Elt Ideal)) (x5 : (⟨S256, .f32⟩ : BufTy).Contents (Elt Ideal)) :
    val_main_v12 (F := Ideal) x0 x1 x2 x3 x4 x5 = Spec.layer x0 x1 x2 x3 x4 x5 :=
  Cert.Dense.host_layer _ rfl _ rfl _ rfl x0 x1 x2 x3 x4 x5 _ _ _ _ _ _

/-- Layer 1 of the reference (hidden size 768, 384 outputs) is `Spec.layer` of its six operands. -/
theorem layer1 (x0 : (⟨S16384x16, .f32⟩ : BufTy).Contents (Elt Ideal)) (x1 : (⟨S16x64, .f32⟩ : BufTy).Contents (Elt Ideal)) (x6 : (⟨S64x768, .f32⟩ : BufTy).Contents (Elt Ideal)) (x7 : (⟨S768, .f32⟩ : BufTy).Contents (Elt Ideal)) (x8 : (⟨S768x384, .f32⟩ : BufTy).Contents (Elt Ideal)) (x9 : (⟨S384, .f32⟩ : BufTy).Contents (Elt Ideal)) :
    val_main_v24 (F := Ideal) x0 x1 x6 x7 x8 x9 = Spec.layer x0 x1 x6 x7 x8 x9 :=
  Cert.Dense.host_layer _ rfl _ rfl _ rfl x0 x1 x6 x7 x8 x9 _ _ _ _ _ _

/-- Layer 2 of the reference (hidden size 1024, 512 outputs) is `Spec.layer` of its six operands. -/
theorem layer2 (x0 : (⟨S16384x16, .f32⟩ : BufTy).Contents (Elt Ideal)) (x1 : (⟨S16x64, .f32⟩ : BufTy).Contents (Elt Ideal)) (x10 : (⟨S64x1024, .f32⟩ : BufTy).Contents (Elt Ideal)) (x11 : (⟨S1024, .f32⟩ : BufTy).Contents (Elt Ideal)) (x12 : (⟨S1024x512, .f32⟩ : BufTy).Contents (Elt Ideal)) (x13 : (⟨S512, .f32⟩ : BufTy).Contents (Elt Ideal)) :
    val_main_v36 (F := Ideal) x0 x1 x10 x11 x12 x13 = Spec.layer x0 x1 x10 x11 x12 x13 :=
  Cert.Dense.host_layer _ rfl _ rfl _ rfl x0 x1 x10 x11 x12 x13 _ _ _ _ _ _

/-- Layer 3 of the reference (hidden size 1280, 640 outputs) is `Spec.layer` of its six operands. -/
theorem layer3 (x0 : (⟨S16384x16, .f32⟩ : BufTy).Contents (Elt Ideal)) (x1 : (⟨S16x64, .f32⟩ : BufTy).Contents (Elt Ideal)) (x14 : (⟨S64x1280, .f32⟩ : BufTy).Contents (Elt Ideal)) (x15 : (⟨S1280, .f32⟩ : BufTy).Contents (Elt Ideal)) (x16 : (⟨S1280x640, .f32⟩ : BufTy).Contents (Elt Ideal)) (x17 : (⟨S640, .f32⟩ : BufTy).Contents (Elt Ideal)) :
    val_main_v48 (F := Ideal) x0 x1 x14 x15 x16 x17 = Spec.layer x0 x1 x14 x15 x16 x17 :=
  Cert.Dense.host_layer _ rfl _ rfl _ rfl x0 x1 x14 x15 x16 x17 _ _ _ _ _ _

/-- Layer 4 of the reference (hidden size 1536, 768 outputs) is `Spec.layer` of its six operands. -/
theorem layer4 (x0 : (⟨S16384x16, .f32⟩ : BufTy).Contents (Elt Ideal)) (x1 : (⟨S16x64, .f32⟩ : BufTy).Contents (Elt Ideal)) (x18 : (⟨S64x1536, .f32⟩ : BufTy).Contents (Elt Ideal)) (x19 : (⟨S1536, .f32⟩ : BufTy).Contents (Elt Ideal)) (x20 : (⟨S1536x768, .f32⟩ : BufTy).Contents (Elt Ideal)) (x21 : (⟨S768, .f32⟩ : BufTy).Contents (Elt Ideal)) :
    val_main_v60 (F := Ideal) x0 x1 x18 x19 x20 x21 = Spec.layer x0 x1 x18 x19 x20 x21 :=
  Cert.Dense.host_layer _ rfl _ rfl _ rfl x0 x1 x18 x19 x20 x21 _ _ _ _ _ _

/-- Layer 5 of the reference (hidden size 1792, 896 outputs) is `Spec.layer` of its six operands. -/
theorem layer5 (x0 : (⟨S16384x16, .f32⟩ : BufTy).Contents (Elt Ideal)) (x1 : (⟨S16x64, .f32⟩ : BufTy).Contents (Elt Ideal)) (x22 : (⟨S64x1792, .f32⟩ : BufTy).Contents (Elt Ideal)) (x23 : (⟨S1792, .f32⟩ : BufTy).Contents (Elt Ideal)) (x24 : (⟨S1792x896, .f32⟩ : BufTy).Contents (Elt Ideal)) (x25 : (⟨S896, .f32⟩ : BufTy).Contents (Elt Ideal)) :
    val_main_v72 (F := Ideal) x0 x1 x22 x23 x24 x25 = Spec.layer x0 x1 x22 x23 x24 x25 :=
  Cert.Dense.host_layer _ rfl _ rfl _ rfl x0 x1 x22 x23 x24 x25 _ _ _ _ _ _

/-- Layer 6 of the reference (hidden size 2048, 1024 outputs) is `Spec.layer` of its six operands. -/
theorem layer6 (x0 : (⟨S16384x16, .f32⟩ : BufTy).Contents (Elt Ideal)) (x1 : (⟨S16x64, .f32⟩ : BufTy).Contents (Elt Ideal)) (x26 : (⟨S64x2048, .f32⟩ : BufTy).Contents (Elt Ideal)) (x27 : (⟨S2048, .f32⟩ : BufTy).Contents (Elt Ideal)) (x28 : (⟨S2048x1024, .f32⟩ : BufTy).Contents (Elt Ideal)) (x29 : (⟨S1024, .f32⟩ : BufTy).Contents (Elt Ideal)) :
    val_main_v84 (F := Ideal) x0 x1 x26 x27 x28 x29 = Spec.layer x0 x1 x26 x27 x28 x29 :=
  Cert.Dense.host_layer _ rfl _ rfl _ rfl x0 x1 x26 x27 x28 x29 _ _ _ _ _ _

/-- Layer 7 of the reference (hidden size 2304, 1152 outputs) is `Spec.layer` of its six operands. -/
theorem layer7 (x0 : (⟨S16384x16, .f32⟩ : BufTy).Contents (Elt Ideal)) (x1 : (⟨S16x64, .f32⟩ : BufTy).Contents (Elt Ideal)) (x30 : (⟨S64x2304, .f32⟩ : BufTy).Contents (Elt Ideal)) (x31 : (⟨S2304, .f32⟩ : BufTy).Contents (Elt Ideal)) (x32 : (⟨S2304x1152, .f32⟩ : BufTy).Contents (Elt Ideal)) (x33 : (⟨S1152, .f32⟩ : BufTy).Contents (Elt Ideal)) :
    val_main_v96 (F := Ideal) x0 x1 x30 x31 x32 x33 = Spec.layer x0 x1 x30 x31 x32 x33 :=
  Cert.Dense.host_layer _ rfl _ rfl _ rfl x0 x1 x30 x31 x32 x33 _ _ _ _ _ _

/-- **The reference's result**: the eight layers' outputs side by side. -/
theorem result_eq (x0 : (⟨S16384x16, .f32⟩ : BufTy).Contents (Elt Ideal)) (x1 : (⟨S16x64, .f32⟩ : BufTy).Contents (Elt Ideal)) (x2 : (⟨S64x512, .f32⟩ : BufTy).Contents (Elt Ideal)) (x3 : (⟨S512, .f32⟩ : BufTy).Contents (Elt Ideal)) (x4 : (⟨S512x256, .f32⟩ : BufTy).Contents (Elt Ideal)) (x5 : (⟨S256, .f32⟩ : BufTy).Contents (Elt Ideal)) (x6 : (⟨S64x768, .f32⟩ : BufTy).Contents (Elt Ideal)) (x7 : (⟨S768, .f32⟩ : BufTy).Contents (Elt Ideal)) (x8 : (⟨S768x384, .f32⟩ : BufTy).Contents (Elt Ideal)) (x9 : (⟨S384, .f32⟩ : BufTy).Contents (Elt Ideal)) (x10 : (⟨S64x1024, .f32⟩ : BufTy).Contents (Elt Ideal)) (x11 : (⟨S1024, .f32⟩ : BufTy).Contents (Elt Ideal)) (x12 : (⟨S1024x512, .f32⟩ : BufTy).Contents (Elt Ideal)) (x13 : (⟨S512, .f32⟩ : BufTy).Contents (Elt Ideal)) (x14 : (⟨S64x1280, .f32⟩ : BufTy).Contents (Elt Ideal)) (x15 : (⟨S1280, .f32⟩ : BufTy).Contents (Elt Ideal)) (x16 : (⟨S1280x640, .f32⟩ : BufTy).Contents (Elt Ideal)) (x17 : (⟨S640, .f32⟩ : BufTy).Contents (Elt Ideal)) (x18 : (⟨S64x1536, .f32⟩ : BufTy).Contents (Elt Ideal)) (x19 : (⟨S1536, .f32⟩ : BufTy).Contents (Elt Ideal)) (x20 : (⟨S1536x768, .f32⟩ : BufTy).Contents (Elt Ideal)) (x21 : (⟨S768, .f32⟩ : BufTy).Contents (Elt Ideal)) (x22 : (⟨S64x1792, .f32⟩ : BufTy).Contents (Elt Ideal)) (x23 : (⟨S1792, .f32⟩ : BufTy).Contents (Elt Ideal)) (x24 : (⟨S1792x896, .f32⟩ : BufTy).Contents (Elt Ideal)) (x25 : (⟨S896, .f32⟩ : BufTy).Contents (Elt Ideal)) (x26 : (⟨S64x2048, .f32⟩ : BufTy).Contents (Elt Ideal)) (x27 : (⟨S2048, .f32⟩ : BufTy).Contents (Elt Ideal)) (x28 : (⟨S2048x1024, .f32⟩ : BufTy).Contents (Elt Ideal)) (x29 : (⟨S1024, .f32⟩ : BufTy).Contents (Elt Ideal)) (x30 : (⟨S64x2304, .f32⟩ : BufTy).Contents (Elt Ideal)) (x31 : (⟨S2304, .f32⟩ : BufTy).Contents (Elt Ideal)) (x32 : (⟨S2304x1152, .f32⟩ : BufTy).Contents (Elt Ideal)) (x33 : (⟨S1152, .f32⟩ : BufTy).Contents (Elt Ideal)) :
    val_main_v97 (F := Ideal) x0 x1 x2 x3 x4 x5 x6 x7 x8 x9 x10 x11 x12 x13 x14 x15 x16 x17 x18 x19 x20 x21 x22 x23 x24 x25 x26 x27 x28 x29 x30 x31 x32 x33
      = Spec.joined (Spec.layer x0 x1 x2 x3 x4 x5)
          (Spec.layer x0 x1 x6 x7 x8 x9)
          (Spec.layer x0 x1 x10 x11 x12 x13)
          (Spec.layer x0 x1 x14 x15 x16 x17)
          (Spec.layer x0 x1 x18 x19 x20 x21)
          (Spec.layer x0 x1 x22 x23 x24 x25)
          (Spec.layer x0 x1 x26 x27 x28 x29)
          (Spec.layer x0 x1 x30 x31 x32 x33) := by
  unfold val_main_v97
  rw [layer0, layer1, layer2, layer3, layer4, layer5, layer6, layer7]
  exact Cert.Dense.concatenate8_eq _ _ _ _ _ _ _ _ _

end Cert.ReferenceIdeal.RefValue

end
-- ==== Proof.lean ====
/-
  The certificate: the tiled kernel and the plain program compute the same array.

  Both send each batch row's mixture of expert vectors through eight two-stage perceptrons and lay the eight
  outputs side by side (`Cert.Spec.joined` of eight `Cert.Spec.layer`s).  On the kernel's side the array is assembled from
  64 blocks of 256 rows, each block from eight column pieces; on the reference's side it is one concatenation.
  Rounding the weights to bf16 changes nothing at the extended reals, a product into a zero accumulator is the plain
  product, and no law beyond reading both sides index by index is needed, so the precondition is never opened.
  The ideal pass rewrote nothing, so `preserves` is trivial.
-/
import proofs.«159795_j68831145886300_2_alg».proof.Defs
import proofs.«159795_j68831145886300_2_alg».proof.Proof.Gen.Kernel
import proofs.«159795_j68831145886300_2_alg».proof.Proof.Gen.KernelIdeal
import proofs.«159795_j68831145886300_2_alg».proof.Proof.Gen.ReferenceIdeal
import proofs.«159795_j68831145886300_2_alg».proof.Proof.Gen.Pre_finite_inputs
import proofs.«159795_j68831145886300_2_alg».proof.Proof.PatchedKernelFrame
import proofs.«159795_j68831145886300_2_alg».proof.Proof.KernelResult
import proofs.«159795_j68831145886300_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 1000000 in
/-- The kernel's result array ends at `joined (layer …) …` of its arguments (the blocks assembled), the reference's
    at the same function of its own arguments (the concatenation read), and the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33⟩ := hagree c
  refine (Cert.ReferenceIdeal.Read.val_main_v97_eq m' c).trans ?_
  refine (Cert.ReferenceIdeal.RefValue.result_eq _ _ _ _ _ _ _ _ _ _ _ _ _ _ _ _ _ _ _ _ _ _ _ _ _ _ _ _ _ _ _ _ _ _).trans ?_
  rw [e0, e1, e2, e3, e4, e5, e6, e7, e8, e9, e10, e11, e12, e13, e14, e15, e16, e17, e18, e19, e20, e21, e22, e23, e24, e25, e26, e27, e28, e29, e30, e31, e32, e33]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
